-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 21
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x256, .bf16⟩
  | .hbm, ⟨12, _⟩ => ⟨S8192x1, .f32⟩
  | .hbm, ⟨13, _⟩ => ⟨S8192x1, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  shapeCasts_S8192x1_S8192 : S8192x1.ShapeCasts S8192
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S8192x1, .i32⟩
  | .hbm, ⟨46, _⟩ => ⟨S_, .i32⟩
  | .hbm, ⟨47, _⟩ => ⟨S8192x1, .i32⟩
  | .hbm, ⟨48, _⟩ => ⟨S8192x1, .i1⟩
  | .hbm, ⟨49, _⟩ => ⟨S_, .i32⟩
  | .hbm, ⟨50, _⟩ => ⟨S8192x1, .i32⟩
  | .hbm, ⟨51, _⟩ => ⟨S8192x1, .i32⟩
  | .hbm, ⟨52, _⟩ => ⟨S8192x1, .i32⟩
  | .hbm, ⟨53, _⟩ => ⟨S8192x1x1, .i32⟩
  | .hbm, ⟨54, _⟩ => ⟨S1, .i32⟩
  | .hbm, ⟨55, _⟩ => ⟨S_, .i32⟩
  | .hbm, ⟨56, _⟩ => ⟨S8192x1x1, .i32⟩
  | .hbm, ⟨57, _⟩ => ⟨S8192x1x1, .i1⟩
  | .hbm, ⟨58, _⟩ => ⟨S1x1x1, .i32⟩
  | .hbm, ⟨59, _⟩ => ⟨S8192x1x1, .i32⟩
  | .hbm, ⟨60, _⟩ => ⟨S8192x1x1, .i1⟩
  | .hbm, ⟨61, _⟩ => ⟨S8192x1x1, .i1⟩
  | .hbm, ⟨62, _⟩ => ⟨S_, .i1⟩
  | .hbm, ⟨63, _⟩ => ⟨S8192x1, .i1⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_call2_cst : Ref sig .tc := ⟨.hbm, 30, rfl⟩
abbrev main_call2_v0 : Ref sig .tc := ⟨.hbm, 31, rfl⟩
abbrev main_call2_cst_0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_cst_1 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_v18 : Ref sig .tc := ⟨.hbm, 44, rfl⟩
abbrev main_v19 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_cst : Ref sig .tc := ⟨.hbm, 65, rfl⟩
abbrev main_call3_v14 : Ref sig .tc := ⟨.hbm, 66, rfl⟩
abbrev main_v20 : Ref sig .tc := ⟨.hbm, 67, rfl⟩
abbrev main_cst_3 : Ref sig .tc := ⟨.hbm, 68, rfl⟩
abbrev main_v21 : Ref sig .tc := ⟨.hbm, 69, rfl⟩
abbrev main_cst_4 : Ref sig .tc := ⟨.hbm, 70, rfl⟩
abbrev main_v22 : Ref sig .tc := ⟨.hbm, 71, rfl⟩
abbrev main_v23 : Ref sig .tc := ⟨.hbm, 72, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.BBody.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The four conditions of the body, as the kernel computes them from the grid coordinates: the first column block
    (reset of the carried row statistics), the diagonal block, an off-diagonal block, the last column block. -/
abbrev c1 (i : grid0.Coords) : Prop := (Scalar.cmpi .ne (Scalar.extui (Scalar.cmpi .eq (BitVec.ofNat 32 (i 1).val) 0#32)) 0#32) = 1#1
abbrev c2 (i : grid0.Coords) : Prop := (Scalar.cmpi .ne (Scalar.extui (Scalar.cmpi .eq (BitVec.ofNat 32 (i 0).val) (BitVec.ofNat 32 (i 1).val))) 0#32) = 1#1
abbrev c3 (i : grid0.Coords) : Prop := (Scalar.cmpi .ne (Scalar.extui (Scalar.cmpi .ne (BitVec.ofNat 32 (i 0).val) (BitVec.ofNat 32 (i 1).val))) 0#32) = 1#1
abbrev c4 (i : grid0.Coords) : Prop := k0_cond4 i = 1#1

/-- The three carried columns: the running row maximum, the running row sum of exponentials, the positive-pair logit. -/
abbrev St (F : FTy → Type) [FloatOps F] : Type := Vec F S1024x1 .f32 × Vec F S1024x1 .f32 × Vec F S1024x1 .f32

/-- One grid point's effect on the carried columns, from the two input blocks: reset at the first column block, the
    masked update on the diagonal block, the plain update off it. -/
def stepS (i : grid0.Coords) (x0 x1 : Vec F S1024x256 .bf16) (s : St F) : St F :=
  let s1 : St F := if c1 i then (k0_pay1 (F := F), k0_pay2 (F := F), k0_pay3 (F := F)) else s
  let s2 : St F := if c2 i then (k0_pay9 x0 x1 s1.1, k0_pay8 x0 x1 s1.1 s1.1 s1.2.1, k0_pay5 x0 x1) else s1
  let s3 : St F := if c3 i then (k0_pay12 x0 x1 s2.1, k0_pay11 x0 x1 s2.1 s2.1 s2.2.1, s2.2.2) else s2
  s3

/-- What the point leaves in the first output's block: at the last column block the row's log-sum-exp, elsewhere what was there. -/
def out4 (i : grid0.Coords) (x0 x1 : Vec F S1024x256 .bf16) (s : St F) (y4 : Vec F S1024x1 .f32) : Vec F S1024x1 .f32 :=
  if c4 i then k0_pay13 (stepS i x0 x1 s).1 (stepS i x0 x1 s).2.1 else y4
/-- and in the second output's block: at the last column block the positive-pair logit. -/
def out5 (i : grid0.Coords) (x0 x1 : Vec F S1024x256 .bf16) (s : St F) (y5 : Vec F S1024x1 .f32) : Vec F S1024x1 .f32 :=
  if c4 i then (stepS i x0 x1 s).2.2 else y5

/-- At the first column block the carried columns do not depend on what they held. -/
theorem stepS_of_c1 (i : grid0.Coords) (h : c1 i) (x0 x1 : Vec F S1024x256 .bf16) (s s' : St F) : stepS i x0 x1 s = stepS i x0 x1 s' := by
  unfold stepS; simp only [if_pos h]

theorem hz2 : (![0, 0] : Fin 2 → Nat) = fun _ => 0 := by funext a; fin_cases a <;> rfl

/-- A whole-buffer store made last leaves its payload, whatever was stored before. -/
theorem read_writes_unit {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h inb]

/-- A whole-buffer load after a whole-buffer store reads the store's payload. -/
theorem readCov_cons_unit {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩), View.canon_cons_unit_zero rfl, View.ld_unit_zero rfl]

end Cert.Kernel.Hand

end
-- ==== Proof.BBodyA.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run on whole buffers in the case TTF of its conditions (first column block, diagonal block, last column block). -/
theorem body_TTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (c2 i)) (h3 : (¬ c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg7.read_unread _))
  · iexists _; isplitr; swap; (· iexact H8)
    ipureintro
    first
      | exact harg8.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg8.read_unread _))

set_option maxHeartbeats 2000000 in
/-- The body run on whole buffers in the case TFF of its conditions (first column block, diagonal block, last column block). -/
theorem body_TFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (¬ c2 i)) (h3 : (c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg7.read_unread _))
  · iexists _; isplitr; swap; (· iexact H8)
    ipureintro
    first
      | exact harg8.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg8.read_unread _))

end Cert.Kernel.Hand

end
-- ==== Proof.BBodyB.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body run on whole buffers in the case FTF of its conditions (first column block, diagonal block, last column block). -/
theorem body_FTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (c2 i)) (h3 : (¬ c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg7.read_unread _))
  · iexists _; isplitr; swap; (· iexact H8)
    ipureintro
    first
      | exact harg8.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg8.read_unread _))

set_option maxHeartbeats 2000000 in
/-- The body run on whole buffers in the case FFF of its conditions (first column block, diagonal block, last column block). -/
theorem body_FFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (¬ c2 i)) (h3 : (c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg7.read_unread _))
  · iexists _; isplitr; swap; (· iexact H8)
    ipureintro
    first
      | exact harg8.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg8.read_unread _))

end Cert.Kernel.Hand

end
-- ==== Proof.BBodyC.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole buffers in the case FTT of its conditions (first column block, diagonal block, last column block). -/
theorem body_FTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (c2 i)) (h3 : (¬ c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_neg h1, if_pos h2, if_neg h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_neg h1, if_pos h2, if_neg h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_neg h1, if_pos h2, if_neg h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_neg h1, if_pos h2, if_neg h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_neg h1, if_pos h2, if_neg h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.Kernel.Hand

end
-- ==== Proof.BBodyD.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole buffers in the case TTT of its conditions (first column block, diagonal block, last column block). -/
theorem body_TTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (c2 i)) (h3 : (¬ c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_pos h1, if_pos h2, if_neg h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_pos h1, if_pos h2, if_neg h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_pos h1, if_pos h2, if_neg h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_pos h1, if_pos h2, if_neg h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_pos h1, if_pos h2, if_neg h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.Kernel.Hand

end
-- ==== Proof.BBodyC2.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole buffers in the case FFT of its conditions (first column block, diagonal block, last column block). -/
theorem body_FFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (¬ c2 i)) (h3 : (c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_neg h1, if_neg h2, if_pos h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_neg h1, if_neg h2, if_pos h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_neg h1, if_neg h2, if_pos h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_neg h1, if_neg h2, if_pos h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_neg h1, if_neg h2, if_pos h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.Kernel.Hand

end
-- ==== Proof.BBodyD2.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBody
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body run on whole buffers in the case TFT of its conditions (first column block, diagonal block, last column block). -/
theorem body_TFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (¬ c2 i)) (h3 : (c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_pos h1, if_neg h2, if_pos h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_pos h1, if_neg h2, if_pos h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_pos h1, if_neg h2, if_pos h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_pos h1, if_neg h2, if_pos h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_pos h1, if_neg h2, if_pos h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.Kernel.Hand

end
-- ==== Proof.BBodyAll.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBodyA
import proofs.«103424_j20255065768459_2_alg».proof.Proof.BBodyB
import proofs.«103424_j20255065768459_2_alg».proof.Proof.BBodyC
import proofs.«103424_j20255065768459_2_alg».proof.Proof.BBodyD
import proofs.«103424_j20255065768459_2_alg».proof.Proof.BBodyC2
import proofs.«103424_j20255065768459_2_alg».proof.Proof.BBodyD2
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body run on whole buffers at any grid point: from the two input blocks, the two output blocks and the three
    carried columns it runs to the input blocks as they were, the output blocks at `out4` / `out5` and the carried
    columns at `stepS` (by cases on the three independent conditions; the off-diagonal condition is the negation of
    the diagonal one). -/
theorem body_run (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h23 : c3 i ↔ ¬ c2 i)
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  by_cases h1 : c1 i <;> by_cases h2 : c2 i <;> by_cases h4 : c4 i
  · exact body_TTT c i arg2 harg2 arg3 harg3 arg4 harg4 arg5 harg5 arg6 harg6 arg7 harg7 arg8 harg8 h1 h2 (fun h => (h23.mp h) h2) h4 x0 x1 y4 y5 s E K
  · exact body_TTF c i arg2 harg2 arg3 harg3 arg4 harg4 arg5 harg5 arg6 harg6 arg7 harg7 arg8 harg8 h1 h2 (fun h => (h23.mp h) h2) h4 x0 x1 y4 y5 s E K
  · exact body_TFT c i arg2 harg2 arg3 harg3 arg4 harg4 arg5 harg5 arg6 harg6 arg7 harg7 arg8 harg8 h1 h2 (h23.mpr h2) h4 x0 x1 y4 y5 s E K
  · exact body_TFF c i arg2 harg2 arg3 harg3 arg4 harg4 arg5 harg5 arg6 harg6 arg7 harg7 arg8 harg8 h1 h2 (h23.mpr h2) h4 x0 x1 y4 y5 s E K
  · exact body_FTT c i arg2 harg2 arg3 harg3 arg4 harg4 arg5 harg5 arg6 harg6 arg7 harg7 arg8 harg8 h1 h2 (fun h => (h23.mp h) h2) h4 x0 x1 y4 y5 s E K
  · exact body_FTF c i arg2 harg2 arg3 harg3 arg4 harg4 arg5 harg5 arg6 harg6 arg7 harg7 arg8 harg8 h1 h2 (fun h => (h23.mp h) h2) h4 x0 x1 y4 y5 s E K
  · exact body_FFT c i arg2 harg2 arg3 harg3 arg4 harg4 arg5 harg5 arg6 harg6 arg7 harg7 arg8 harg8 h1 h2 (h23.mpr h2) h4 x0 x1 y4 y5 s E K
  · exact body_FFF c i arg2 harg2 arg3 harg3 arg4 harg4 arg5 harg5 arg6 harg6 arg7 harg7 arg8 harg8 h1 h2 (h23.mpr h2) h4 x0 x1 y4 y5 s E K

end Cert.Kernel.Hand

end
-- ==== Proof.BData.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BBodyAll
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- and when the region is entered: after the row norms and the normalized, narrowed copy of the input. -/
abbrev Ve (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Ve m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The carried columns, point by point -/

/-- What the three carried columns hold before point `t` (after point `t - 1`); before the first point, anything. -/
def sc (c : Dev nD) : ℕ → St F
  | 0 => (k0_pay1 (F := F), k0_pay2 (F := F), k0_pay3 (F := F))
  | t + 1 => if h : t < cfg0.N then stepS (grid0.coords ⟨t, h⟩) (iblk m c 0 ⟨t, h⟩) (iblk m c 1 ⟨t, h⟩) (sc c t) else sc c t

theorem sc_succ (c : Dev nD) (t : Fin cfg0.N) :
    sc m c (t.val + 1) = stepS (grid0.coords t) (iblk m c 0 t) (iblk m c 1 t) (sc m c t.val) := by
  show (if h : t.val < cfg0.N then _ else _) = _
  rw [dif_pos t.isLt]

/-- The scratch operands: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- The invariant before point `t`: the three carried columns at `sc t` (at anything before the first point). -/
def Φs (c : Dev nD) (t : Fin (cfg0.N + 1)) : sProp 𝕄 :=
  iprop(∃ s : St F, ⌜t.val ≠ 0 → s = sc m c t.val⌝ ∗ owns (c : Thread nD τ) scM0 fullShare s.1
    ∗ owns (c : Thread nD τ) scM1 fullShare s.2.1 ∗ owns (c : Thread nD τ) scM2 fullShare s.2.2)

/-! ## The pipeline's proof data -/

/-- The proof data on core `c`: the arrays as the region finds them; after the body each input's buffer at its block,
    the first output's at the log-sum-exp column of the carried statistics, the second's at the positive-pair column;
    the invariant; the normalized array's two windows each holding half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay13 (sc m c (t.val + 1)).1 (sc m c (t.val + 1)).2.1
    | ⟨3, _⟩ => (sc m c (t.val + 1)).2.2
    | ⟨_ + 4, h⟩ => absurd h (Nat.not_lt.2 (Nat.le_add_left _ _))
  Φ t := Φs m c t
  q w := match w with
    | ⟨0, _⟩ => fullShare.left
    | ⟨1, _⟩ => fullShare.right
    | ⟨2, _⟩ => fullShare
    | ⟨3, _⟩ => fullShare
    | ⟨_ + 4, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = k0_pay13 (sc m c (t.val + 1)).1 (sc m c (t.val + 1)).2.1 := by dsimp only [dats]
theorem after3 (c : Dev nD) (t : Fin cfg0.N) : (dats m 0 c).after 3 t = (sc m c (t.val + 1)).2.2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The conditions over the grid, decided -/

theorem hc1 : ∀ t : Fin cfg0.N, c1 (grid0.coords t) ↔ t.val % 8 = 0 :=
  (by decide +kernel : ∀ t : Fin grid0.N, c1 (grid0.coords t) ↔ t.val % 8 = 0)
theorem hc23 : ∀ t : Fin cfg0.N, c3 (grid0.coords t) ↔ ¬ c2 (grid0.coords t) :=
  (by decide +kernel : ∀ t : Fin grid0.N, c3 (grid0.coords t) ↔ ¬ c2 (grid0.coords t))
theorem hc2 : ∀ t : Fin cfg0.N, c2 (grid0.coords t) ↔ t.val / 8 = t.val % 8 :=
  (by decide +kernel : ∀ t : Fin grid0.N, c2 (grid0.coords t) ↔ t.val / 8 = t.val % 8)
theorem hc4 : ∀ t : Fin cfg0.N, c4 (grid0.coords t) ↔ t.val % 8 = 7 :=
  (by decide +kernel : ∀ t : Fin grid0.N, c4 (grid0.coords t) ↔ t.val % 8 = 7)
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ c4 (grid0.coords t) → cfg0.idle 2 (grid0.coords t) = true := by decide +kernel
theorem idle3 : ∀ t : Fin cfg0.N, ¬ c4 (grid0.coords t) → cfg0.idle 3 (grid0.coords t) = true := by decide +kernel
theorem live2 : ∀ t : Fin cfg0.N, c4 (grid0.coords t) → cfg0.idle 2 (grid0.coords t) = false := by decide +kernel
theorem live3 : ∀ t : Fin cfg0.N, c4 (grid0.coords t) → cfg0.idle 3 (grid0.coords t) = false := by decide +kernel
theorem noFlush2 : ∀ t : Fin cfg0.N, ¬ c4 (grid0.coords t) → (cfg0.win 2).flush t = false := by decide +kernel
theorem noFlush3 : ∀ t : Fin cfg0.N, ¬ c4 (grid0.coords t) → (cfg0.win 3).flush t = false := by decide +kernel

/-! ## The body obligation -/

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- The carried columns after point `t`, from any columns that agree with `sc t` unless `t` is the first point
    (where the first column block resets them). -/
theorem step_eq_sc (c : Dev nD) (t : Fin cfg0.N) (s : St F) (hs : t.val ≠ 0 → s = sc m c t.val) :
    stepS (grid0.coords t) (iblk m c 0 t) (iblk m c 1 t) s = sc m c (t.val + 1) := by
  rw [sc_succ]
  by_cases hz : t.val = 0
  · exact stepS_of_c1 _ ((hc1 t).mpr (by rw [hz])) _ _ _ _
  · rw [hs hz]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).Φ t.castSucc = Φs m c t.castSucc from rfl, show (dats m 0 c).Φ t.succ = Φs m c t.succ from rfl]
  unfold Φs
  by_cases h4 : c4 (grid0.coords t)
  · rw [show (dats m 0 c).leavesExact 2 t = owns (c : Thread nD τ) (ms2 t) fullShare ((dats m 0 c).after 2 t) from by
      unfold Dat.leavesExact; rw [live2 t h4], after2]
    rw [show (dats m 0 c).leavesExact 3 t = owns (c : Thread nD τ) (ms3 t) fullShare ((dats m 0 c).after 3 t) from by
      unfold Dat.leavesExact; rw [live3 t h4], after3]
    iintro ⟨⟨%s, %hs, HS0, HS1, HS2⟩, Ho, ⟨%d0, H0⟩, ⟨%d1, H1⟩, ⟨%d2, H2⟩, ⟨%d3, H3⟩⟩
    iapply (body_run c (grid0.coords t) (ms0 t) (hs0 t) (ms1 t) (hs1 t) (ms2 t) (hs2 t) (ms3 t) (hs3 t) scM0 (Memref.isWhole_whole _) scM1 (Memref.isWhole_whole _) scM2 (Memref.isWhole_whole _)
      (hc23 t) (iblk m c 0 t) (iblk m c 1 t) _ _ s Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    have hst := step_eq_sc m c t s (by simpa only [Fin.coe_castSucc] using hs)
    rw [show out4 (grid0.coords t) (iblk m c 0 t) (iblk m c 1 t) s _ = k0_pay13 (sc m c (t.val + 1)).1 (sc m c (t.val + 1)).2.1 from by
      unfold out4; rw [if_pos h4, hst]]
    rw [show out5 (grid0.coords t) (iblk m c 0 t) (iblk m c 1 t) s _ = (sc m c (t.val + 1)).2.2 from by
      unfold out5; rw [if_pos h4, hst]]
    rw [hst]
    isplitl [HS0 HS1 HS2]
    · iexists (sc m c (t.val + 1)); isplitr; · ipureintro; intro _; simp only [Fin.val_succ]
      isplitl [HS0]; · iexact HS0
      isplitl [HS1]; · iexact HS1
      iexact HS2
    isplitl [Ho]; · iexact Ho
    isplitl [H0]; · iexact H0
    isplitl [H1]; · iexact H1
    isplitl [H2]; · iexact H2
    iexact H3
  · rw [Dat.leavesExact_idle (dats m 0 c) 2 t (idle2 t h4) (noFlush2 t h4)]
    rw [Dat.leavesExact_idle (dats m 0 c) 3 t (idle3 t h4) (noFlush3 t h4)]
    iintro ⟨⟨%s, %hs, HS0, HS1, HS2⟩, Ho, ⟨%d0, H0⟩, ⟨%d1, H1⟩, ⟨%d2, H2⟩, ⟨%d3, H3⟩⟩
    iapply (body_run c (grid0.coords t) (ms0 t) (hs0 t) (ms1 t) (hs1 t) (ms2 t) (hs2 t) (ms3 t) (hs3 t) scM0 (Memref.isWhole_whole _) scM1 (Memref.isWhole_whole _) scM2 (Memref.isWhole_whole _)
      (hc23 t) (iblk m c 0 t) (iblk m c 1 t) _ _ s Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    have hst := step_eq_sc m c t s (by simpa only [Fin.coe_castSucc] using hs)
    rw [show out4 (grid0.coords t) (iblk m c 0 t) (iblk m c 1 t) s ((dats m 0 c).before 2 t d2) = (dats m 0 c).before 2 t d2 from by
      unfold out4; rw [if_neg h4]]
    rw [show out5 (grid0.coords t) (iblk m c 0 t) (iblk m c 1 t) s ((dats m 0 c).before 3 t d3) = (dats m 0 c).before 3 t d3 from by
      unfold out5; rw [if_neg h4]]
    rw [hst]
    isplitl [HS0 HS1 HS2]
    · iexists (sc m c (t.val + 1)); isplitr; · ipureintro; intro _; simp only [Fin.val_succ]
      isplitl [HS0]; · iexact HS0
      isplitl [HS1]; · iexact HS1
      iexact HS2
    isplitl [Ho]; · iexact Ho
    isplitl [H0]; · iexact H0
    isplitl [H1]; · iexact H1
    isplitl [H2]; · iexists _; iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BRes.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BData
import Idealize.ShloMosaic.Lib.Pipeline.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The windows' arrays as four points-to facts

The normalized array is read through two windows, each holding half of it; the two result arrays are held whole. -/

/-- The four windows' arrays at contents `F0 … F3`: the shared input at its two halves, the two outputs whole. -/
def arrForm (c : Dev nD) (F0 F1 : Buf (Elt F) ((c : Thread nD τ).loc main_v5)) (F2 : Buf (Elt F) ((c : Thread nD τ).loc main_v6_0))
    (F3 : Buf (Elt F) ((c : Thread nD τ).loc main_v6_1)) : sProp 𝕄 :=
  iprop((((c : Thread nD τ).loc main_v5) ↦{fullShare.left} F0) ∗ (((c : Thread nD τ).loc main_v5) ↦{fullShare.right} F1)
    ∗ (((c : Thread nD τ).loc main_v6_0) ↦{fullShare} F2) ∗ (((c : Thread nD τ).loc main_v6_1) ↦{fullShare} F3))

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The proof data's `arrays` are those four facts. -/
theorem arrays_eq' (c : Dev nD) (Fw : (w : Fin cfg0.W) → Buf (Elt F) ((cfg0.win w).arr.view.loc (c : Thread nD τ))) :
    (dats m 0 c).arrays Fw = arrForm c (Fw 0) (Fw 1) (Fw 2) (Fw 3) := by
  unfold Dat.arrays arrForm
  rw [bigSep_W0, share0, share1, share2, share3, (arr_whole0 0).set_eq_univ, (arr_whole0 2).set_eq_univ, (arr_whole0 3).set_eq_univ]

/-- The buffers behind the windows' arrays, listed. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6_0) ↦{fullShare} W main_v6_0)
          ∗ (((c : Thread nD τ).loc main_v6_1) ↦{fullShare} W main_v6_1)) := by
  unfold Pipeline.arrBufs
  rw [bigSep_eq_bigSepL_of_eq [main_v5, main_v6_0, main_v6_1] (by decide) (by decide)]
  rfl

/-- ENTRY: a core's unscoped buffers at `W` are the four windows' arrays at `W` (the shared input split in two
    halves) and the unscoped rest. -/
theorem split_in (c : Dev nD) (W : (b : Ref sig .tc) → Buf (Elt F) ((c : Thread nD τ).loc b)) :
    (unscopedBufs c W : sProp 𝕄) ⊢ iprop(arrForm c (W main_v5) (W main_v5) (W main_v6_0) (W main_v6_1) ∗ Pipeline.unscopedRest spec0 c W) := by
  rw [Pipeline.unscopedBufs_split₀ cfgs 0 winFacts₀0.arr_unscoped c W, arrBufs_eq]
  unfold arrForm
  iintro ⟨⟨H5, H60, H61⟩, Hr⟩
  ihave H5' := (pointsTo_share (PosShare.mem_left_op_right fullShare)).1 $$ H5
  icases H5' with ⟨Hl, Hrt⟩
  isplitr [Hr]
  · isplitl [Hl]; · iexact Hl
    isplitl [Hrt]; · iexact Hrt
    isplitl [H60]; · iexact H60
    iexact H61
  iexact Hr

/-- EXIT: the converse, the two halves of the shared input joined again. -/
theorem split_out (c : Dev nD) (W : (b : Ref sig .tc) → Buf (Elt F) ((c : Thread nD τ).loc b)) :
    iprop(arrForm c (W main_v5) (W main_v5) (W main_v6_0) (W main_v6_1) ∗ Pipeline.unscopedRest spec0 c W) ⊢ (unscopedBufs c W : sProp 𝕄) := by
  rw [Pipeline.unscopedBufs_split₀ cfgs 0 winFacts₀0.arr_unscoped c W, arrBufs_eq]
  unfold arrForm
  iintro ⟨⟨Hl, Hrt, H60, H61⟩, Hr⟩
  isplitr [Hr]
  · isplitl [Hl Hrt]
    · iapply (pointsTo_share (PosShare.mem_left_op_right fullShare)).2
      isplitl [Hl]; · iexact Hl
      iexact Hrt
    isplitl [H60]; · iexact H60
    iexact H61
  iexact Hr

end Cert.Kernel.Hand

end
-- ==== Proof.BRun.lean ====
import proofs.«103424_j20255065768459_2_alg».proof.Proof.Gen.Kernel.Launch
import proofs.«103424_j20255065768459_2_alg».proof.Proof.Gen.Kernel.Skeleton
import proofs.«103424_j20255065768459_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.BRes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## The buffers when the region is left -/

/-- Core `c`'s buffers when the region is left: the two result arrays at what the write-backs made them, every other
    buffer as the region found it. -/
def Vx (c : Dev nD) : Valuation τ sig (Elt F) :=
  Function.update (Function.update (Ve m c) (Proc.devRef .tc main_v6_0) ((dats m 0 c).arrAt 2 cfg0.N))
    (Proc.devRef .tc main_v6_1) ((dats m 0 c).arrAt 3 cfg0.N)

theorem Vx_v61 (c : Dev nD) : Vx m c (Proc.devRef .tc main_v6_1) = (dats m 0 c).arrAt 3 cfg0.N := by
  unfold Vx; rw [Function.update_self]
theorem Vx_v60 (c : Dev nD) : Vx m c (Proc.devRef .tc main_v6_0) = (dats m 0 c).arrAt 2 cfg0.N := by
  unfold Vx; rw [Function.update_of_ne (by decide), Function.update_self]
theorem Vx_other (c : Dev nD) (b : Ref sig .tc) (h0 : b ≠ main_v6_0) (h1 : b ≠ main_v6_1) :
    Vx m c (Proc.devRef .tc b) = V m c b := by
  unfold Vx
  rw [Function.update_of_ne (fun e => h1 (Proc.devRef_injective _ e)), Function.update_of_ne (fun e => h0 (Proc.devRef_injective _ e))]

/-- The shared input array is never written: after the region it holds what the region found. -/
theorem arrAt0N (c : Dev nD) (n : ℕ) : (dats m 0 c).arrAt 0 n = V m c main_v5 :=
  ((dats m 0 c).arrAt_in 0 rfl n).trans (A_eq m c 0)
theorem arrAt1N (c : Dev nD) (n : ℕ) : (dats m 0 c).arrAt 1 n = V m c main_v5 :=
  ((dats m 0 c).arrAt_in 1 rfl n).trans (A_eq m c 1)

/-- Off the two result arrays the exit contents are the entry contents. -/
theorem rest_Vx (c : Dev nD) :
    (Pipeline.unscopedRest spec0 c (fun b => Vx m c (Proc.devRef .tc b)) : sProp 𝕄) = Pipeline.unscopedRest spec0 c (V m c) := by
  unfold Pipeline.unscopedRest
  refine bigSep_congr fun b hb => ?_
  have hb' := (Finset.mem_sdiff.mp hb).2
  dsimp only
  rw [Vx_other m c b (fun e => hb' (Finset.mem_image.mpr ⟨2, Finset.mem_univ _, e ▸ rfl⟩))
    (fun e => hb' (Finset.mem_image.mpr ⟨3, Finset.mem_univ _, e ▸ rfl⟩))]

/-! ## @main as segments -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) hostOps0_1_fresh
    (fun c => StableHlo.after hostOps0 (V₀ m c)) R

def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Vx m) R

set_option backward.isDefEq.respectTransparency.types false in
/-- THE REGION: entered from what the host lines before it left — the normalized array split between its two windows,
    the two result arrays into the pipeline, every other buffer bypassing —, left with the result arrays at their final
    contents; the three carried columns are the invariant's. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (Ve m c) ∗ R c)
  post c := iprop(StableHlo.held (c : Thread nD τ) (Pipeline.ucRefs τ sig) (Vx m c) ∗ R c)
  X c := iprop(emp)
  Y c := iprop(emp)
  Z c := Pipeline.unscopedRest spec0 c (V m c)
  hentry c := by
    rw [show StableHlo.held (c : Thread nD τ) (Pipeline.ucRefs τ sig) (Ve m c) = unscopedBufs c (V m c) from (Pipeline.unscopedBufs_held c _).symm]
    rw [arrays_eq']
    iintro ⟨⟨Hub, HO⟩, -, -⟩
    ihave H := (split_in c (V m c)) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Φs m c 0 from rfl]; unfold Φs; rw [scopedRest0_eq]
    simp only [owns_whole]
    iintro ⟨-, -, ⟨%f0, H0⟩, ⟨%f1, H1⟩, ⟨%f2, H2⟩⟩
    iexists (f0, f1, f2); isplitr; · ipureintro; intro h; exact absurd rfl h
    isplitl [H0]; · iexact H0
    isplitl [H1]; · iexact H1
    iexact H2
  hout c := by
    rw [Pipeline.ownSems0_none, show (dats m 0 c).Φ (Fin.last cfg0.N) = Φs m c (Fin.last cfg0.N) from rfl]; unfold Φs; rw [scopedRest0_eq]
    simp only [owns_whole]
    iintro ⟨%s, -, H0, H1, H2⟩
    isplitr; · iempintro
    isplitr; · iempintro
    isplitl [H0]; · iexists _; iexact H0
    isplitl [H1]; · iexists _; iexact H1
    iexists _; iexact H2
  hexit c := by
    rw [arrays_eq', arrAt0N, arrAt1N]
    rw [show StableHlo.held (c : Thread nD τ) (Pipeline.ucRefs τ sig) (Vx m c) = unscopedBufs c (fun b => Vx m c (Proc.devRef .tc b)) from (Pipeline.unscopedBufs_held c _).symm]
    iintro ⟨Ha, HO, -, HZ⟩
    imodintro
    isplitr [HO]
    · iapply (split_out c (fun b => Vx m c (Proc.devRef .tc b)))
      rw [Vx_v60, Vx_v61, Vx_other m c main_v5 (by decide) (by decide), rest_Vx]
      isplitl [Ha]; · iexact Ha
      iexact HZ
    · unfold Pipeline.Dat.owesAt Pipeline.owesWithin
      icases HO with ⟨%W, -, HO⟩; iexists W; iexact HO

abbrev segs : List (Pipeline.Seg (pcfgs (F := F)) adm (dats m) () defs₀ 𝒱₀ L lv) :=
  [.host (seg0 m), .host (seg1 m), .region (reg0 m), .host (seg2 m)]

/-- What @main's result buffer holds at the end: the lines after the region applied to the exit contents. -/
def kres (c : Dev nD) : Buf (Elt F) ((c.tc : Thread nD τ).loc main_v11) :=
  StableHlo.after hostOps1 (Vx m c) (Proc.devRef .tc main_v11)

/-- No host line writes the argument: it reaches the end as launched. -/
theorem arg0_kept (c : Dev nD) :
    StableHlo.after hostOps1 (Vx m c) (Proc.devRef .tc main_arg0) = m ((c.tc : Thread nD τ).loc main_arg0) := by
  have h1 : StableHlo.after hostOps1 (Vx m c) (Proc.devRef .tc main_arg0) = Vx m c (Proc.devRef .tc main_arg0) := by
    after_results
  rw [h1, Vx_other m c main_arg0 (by decide) (by decide)]
  show StableHlo.after hostOps0_1 (StableHlo.after hostOps0 (V₀ m c)) (Proc.devRef .tc main_arg0) = _
  have h2 : ∀ W : Valuation τ sig (Elt F), StableHlo.after hostOps0_1 W (Proc.devRef .tc main_arg0) = W (Proc.devRef .tc main_arg0) := by
    intro W; after_results
  have h3 : ∀ W : Valuation τ sig (Elt F), StableHlo.after hostOps0 W (Proc.devRef .tc main_arg0) = W (Proc.devRef .tc main_arg0) := by
    intro W; after_results
  rw [h2, h3]

set_option backward.isDefEq.respectTransparency.types false in
/-- At the compiled mesh, for any float values, from any memory with zero counters: every weakly fair execution of
    @main on the TensorCores terminates, and every final state has the result buffer at `kres` and the argument
    unchanged. -/
theorem run_main : θ_run defs (onTc (τ := τ) (main (F := F))) (s₀ m ρ) (fun r => ∀ c : Dev nD,
      r.2.mem ((c.tc : Thread nD τ).loc main_v11) = kres m c
      ∧ r.2.mem ((c.tc : Thread nD τ).loc main_arg0) = m ((c.tc : Thread nD τ).loc main_arg0)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (Vx m c)))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v11) = kres m c
      ∧ s.mem ((c.tc : Thread nD τ).loc main_arg0) = m ((c.tc : Thread nD τ).loc main_arg0))
    (hfin := fun c s' => by
      rw [show StableHlo.held (c : Thread nD τ) (Pipeline.ucRefs τ sig) (StableHlo.after hostOps1 (Vx m c))
        = unscopedBufs c (fun b => StableHlo.after hostOps1 (Vx m c) (Proc.devRef .tc b)) from (Pipeline.unscopedBufs_held c _).symm]
      unfold unscopedBufs
      iintro ⟨Hh, HSI⟩
      ihave Hr := (pointsTo_read_all _ (fun b : Ref sig .tc => (c.tc : Thread nD τ).loc b)
        (fun b => StableHlo.after hostOps1 (Vx m c) (Proc.devRef .tc b)) s') $$ [Hh HSI]
      · isplitl [Hh] <;> iassumption
      icases Hr with ⟨%hr, HSI⟩
      imodintro
      isplitr
      · ipureintro
        exact ⟨hr main_v11 (Finset.mem_filter.mpr ⟨Finset.mem_univ _, by decide⟩),
          (hr main_arg0 (Finset.mem_filter.mpr ⟨Finset.mem_univ _, by decide⟩)).trans (arg0_kept m c)⟩
      iexact HSI)
    (hQ := fun _ h => h)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KBody.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The four conditions of the body, as the kernel computes them from the grid coordinates: the first column block
    (reset of the carried row statistics), the diagonal block, an off-diagonal block, the last column block. -/
abbrev c1 (i : grid0.Coords) : Prop := (Scalar.cmpi .ne (Scalar.extui (Scalar.cmpi .eq (BitVec.ofNat 32 (i 1).val) 0#32)) 0#32) = 1#1
abbrev c2 (i : grid0.Coords) : Prop := (Scalar.cmpi .ne (Scalar.extui (Scalar.cmpi .eq (BitVec.ofNat 32 (i 0).val) (BitVec.ofNat 32 (i 1).val))) 0#32) = 1#1
abbrev c3 (i : grid0.Coords) : Prop := (Scalar.cmpi .ne (Scalar.extui (Scalar.cmpi .ne (BitVec.ofNat 32 (i 0).val) (BitVec.ofNat 32 (i 1).val))) 0#32) = 1#1
abbrev c4 (i : grid0.Coords) : Prop := k0_cond4 i = 1#1

/-- The three carried columns: the running row maximum, the running row sum of exponentials, the positive-pair logit. -/
abbrev St (F : FTy → Type) [FloatOps F] : Type := Vec F S1024x1 .f32 × Vec F S1024x1 .f32 × Vec F S1024x1 .f32

/-- One grid point's effect on the carried columns, from the two input blocks: reset at the first column block, the
    masked update on the diagonal block, the plain update off it. -/
def stepS (i : grid0.Coords) (x0 x1 : Vec F S1024x256 .bf16) (s : St F) : St F :=
  let s1 : St F := if c1 i then (k0_pay1 (F := F), k0_pay2 (F := F), k0_pay3 (F := F)) else s
  let s2 : St F := if c2 i then (k0_pay9 x0 x1 s1.1, k0_pay8 x0 x1 s1.1 s1.1 s1.2.1, k0_pay5 x0 x1) else s1
  let s3 : St F := if c3 i then (k0_pay12 x0 x1 s2.1, k0_pay11 x0 x1 s2.1 s2.1 s2.2.1, s2.2.2) else s2
  s3

/-- What the point leaves in the first output's block: at the last column block the row's log-sum-exp, elsewhere what was there. -/
def out4 (i : grid0.Coords) (x0 x1 : Vec F S1024x256 .bf16) (s : St F) (y4 : Vec F S1024x1 .f32) : Vec F S1024x1 .f32 :=
  if c4 i then k0_pay13 (stepS i x0 x1 s).1 (stepS i x0 x1 s).2.1 else y4
/-- and in the second output's block: at the last column block the positive-pair logit. -/
def out5 (i : grid0.Coords) (x0 x1 : Vec F S1024x256 .bf16) (s : St F) (y5 : Vec F S1024x1 .f32) : Vec F S1024x1 .f32 :=
  if c4 i then (stepS i x0 x1 s).2.2 else y5

/-- At the first column block the carried columns do not depend on what they held. -/
theorem stepS_of_c1 (i : grid0.Coords) (h : c1 i) (x0 x1 : Vec F S1024x256 .bf16) (s s' : St F) : stepS i x0 x1 s = stepS i x0 x1 s' := by
  unfold stepS; simp only [if_pos h]

theorem hz2 : (![0, 0] : Fin 2 → Nat) = fun _ => 0 := by funext a; fin_cases a <;> rfl

/-- A whole-buffer store made last leaves its payload, whatever was stored before. -/
theorem read_writes_unit {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h inb]

/-- A whole-buffer load after a whole-buffer store reads the store's payload. -/
theorem readCov_cons_unit {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩), View.canon_cons_unit_zero rfl, View.ld_unit_zero rfl]

end Cert.KernelIdeal.Hand

end
-- ==== Proof.KBodyA.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body run on whole buffers in the case TTF of its conditions (first column block, diagonal block, last column block). -/
theorem body_TTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (c2 i)) (h3 : (¬ c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg7.read_unread _))
  · iexists _; isplitr; swap; (· iexact H8)
    ipureintro
    first
      | exact harg8.read_unread _
      | (rw [read_writes_unit _ _ hz2]
         (try simp only [stepS, out4, out5, if_pos h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_pos h2, if_neg h3, if_neg h4]
         (try exact harg8.read_unread _))

set_option maxHeartbeats 2000000 in
/-- The body run on whole buffers in the case TFF of its conditions (first column block, diagonal block, last column block). -/
theorem body_TFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (¬ c2 i)) (h3 : (c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg7.read_unread _))
  · iexists _; isplitr; swap; (· iexact H8)
    ipureintro
    first
      | exact harg8.read_unread _
      | (rw [read_writes_unit _ _ hz2]
         (try simp only [stepS, out4, out5, if_pos h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_pos h1, if_neg h2, if_pos h3, if_neg h4]
         (try exact harg8.read_unread _))

end Cert.KernelIdeal.Hand

end
-- ==== Proof.KBodyB.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body run on whole buffers in the case FTF of its conditions (first column block, diagonal block, last column block). -/
theorem body_FTF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (c2 i)) (h3 : (¬ c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg7.read_unread _))
  · iexists _; isplitr; swap; (· iexact H8)
    ipureintro
    first
      | exact harg8.read_unread _
      | (rw [read_writes_unit _ _ hz2]
         (try simp only [stepS, out4, out5, if_neg h1, if_pos h2, if_neg h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_pos h2, if_neg h3, if_neg h4]
         (try exact harg8.read_unread _))

set_option maxHeartbeats 2000000 in
/-- The body run on whole buffers in the case FFF of its conditions (first column block, diagonal block, last column block). -/
theorem body_FFF (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (¬ c2 i)) (h3 : (c3 i)) (h4 : (¬ c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    first
      | exact harg4.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg4.read_unread _))
  isplitl [H5]
  · iexists _; isplitr; swap; (· iexact H5)
    ipureintro
    first
      | exact harg5.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg5.read_unread _))
  isplitl [H6]
  · iexists _; isplitr; swap; (· iexact H6)
    ipureintro
    first
      | exact harg6.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg6.read_unread _))
  isplitl [H7]
  · iexists _; isplitr; swap; (· iexact H7)
    ipureintro
    first
      | exact harg7.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg7.read_unread _))
  · iexists _; isplitr; swap; (· iexact H8)
    ipureintro
    first
      | exact harg8.read_unread _
      | (rw [read_writes_unit _ _ hz2]
         (try simp only [stepS, out4, out5, if_neg h1, if_neg h2, if_pos h3, if_neg h4])
         (try sl_unfold_words)
         (try simp only [View.readAt_eq_ld, Memref.IsWhole.read_unread, View.ld_unit_zero (S := S1024x256) hz2, View.ld_unit_zero (S := S1024x1) hz2, readCov_cons_unit (S := S1024x1) _ hz2])
         (try rfl))
      | (simp only [stepS, out4, out5, if_neg h1, if_neg h2, if_pos h3, if_neg h4]
         (try exact harg8.read_unread _))

end Cert.KernelIdeal.Hand

end
-- ==== Proof.KBodyC.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body run on whole buffers in the case FTT of its conditions (first column block, diagonal block, last column block). -/
theorem body_FTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (c2 i)) (h3 : (¬ c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_neg h1, if_pos h2, if_neg h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_neg h1, if_pos h2, if_neg h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_neg h1, if_pos h2, if_neg h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_neg h1, if_pos h2, if_neg h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_neg h1, if_pos h2, if_neg h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.KernelIdeal.Hand

end
-- ==== Proof.KBodyD.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body run on whole buffers in the case TTT of its conditions (first column block, diagonal block, last column block). -/
theorem body_TTT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (c2 i)) (h3 : (¬ c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_pos h1, if_pos h2, if_neg h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_pos h1, if_pos h2, if_neg h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_pos h1, if_pos h2, if_neg h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_pos h1, if_pos h2, if_neg h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_pos h1, if_pos h2, if_neg h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.KernelIdeal.Hand

end
-- ==== Proof.KBodyC2.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body run on whole buffers in the case FFT of its conditions (first column block, diagonal block, last column block). -/
theorem body_FFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (¬ c1 i)) (h2 : (¬ c2 i)) (h3 : (c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_neg h1, if_neg h2, if_pos h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_neg h1, if_neg h2, if_pos h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_neg h1, if_neg h2, if_pos h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_neg h1, if_neg h2, if_pos h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_neg h1, if_neg h2, if_pos h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.KernelIdeal.Hand

end
-- ==== Proof.KBodyD2.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBody
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body run on whole buffers in the case TFT of its conditions (first column block, diagonal block, last column block). -/
theorem body_TFT (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h1 : (c1 i)) (h2 : (¬ c2 i)) (h3 : (c3 i)) (h4 : (c4 i))
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  simp only [cc0__ntxent_kernel_eq_skeleton]; unfold cc0__ntxent_kernel_skel
  unfold owns
  iintro ⟨⟨%f0, %hf0, H0⟩, ⟨%f1, %hf1, H1⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1
  obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; swap; (· iexact H4)
    ipureintro
    simp only [stepS, out4, out5, if_pos h1, if_neg h2, if_pos h3, if_pos h4]
    first
      | exact harg4.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H5]
  · iexists _; isplitr; swap; (· iexact H5)
    ipureintro
    simp only [stepS, out4, out5, if_pos h1, if_neg h2, if_pos h3, if_pos h4]
    first
      | exact harg5.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H6]
  · iexists _; isplitr; swap; (· iexact H6)
    ipureintro
    simp only [stepS, out4, out5, if_pos h1, if_neg h2, if_pos h3, if_pos h4]
    first
      | exact harg6.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  isplitl [H7]
  · iexists _; isplitr; swap; (· iexact H7)
    ipureintro
    simp only [stepS, out4, out5, if_pos h1, if_neg h2, if_pos h3, if_pos h4]
    first
      | exact harg7.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])
  · iexists _; isplitr; swap; (· iexact H8)
    ipureintro
    simp only [stepS, out4, out5, if_pos h1, if_neg h2, if_pos h3, if_pos h4]
    first
      | exact harg8.read_unread _
      | (sl_unfold_words
         simp only [read_writes_unit (S := S1024x1) _ _ hz2, View.readAt_eq_ld, Memref.IsWhole.read_unread, View.ld_unit_zero (S := S1024x256) hz2, View.ld_unit_zero (S := S1024x1) hz2, readCov_cons_unit (S := S1024x1) _ hz2])

end Cert.KernelIdeal.Hand

end
-- ==== Proof.KBodyAll.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBodyA
import proofs.«103424_j20255065768459_2_alg».proof.Proof.KBodyB
import proofs.«103424_j20255065768459_2_alg».proof.Proof.KBodyC
import proofs.«103424_j20255065768459_2_alg».proof.Proof.KBodyD
import proofs.«103424_j20255065768459_2_alg».proof.Proof.KBodyC2
import proofs.«103424_j20255065768459_2_alg».proof.Proof.KBodyD2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body run on whole buffers at any grid point: from the two input blocks, the two output blocks and the three
    carried columns it runs to the input blocks as they were, the output blocks at `out4` / `out5` and the carried
    columns at `stepS` (by cases on the three independent conditions; the off-diagonal condition is the negation of
    the diagonal one). -/
theorem body_run (c : Dev nD) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (h23 : c3 i ↔ ¬ c2 i)
    (x0 x1 : Vec F S1024x256 .bf16) (y4 y5 : Vec F S1024x1 .f32) (s : St F) (E : Set ℕ) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare y5
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1
            ∗ owns (c : Thread nD τ) arg4 fullShare (out4 i x0 x1 s y4) ∗ owns (c : Thread nD τ) arg5 fullShare (out5 i x0 x1 s y5)
            ∗ owns (c : Thread nD τ) arg6 fullShare (stepS i x0 x1 s).1 ∗ owns (c : Thread nD τ) arg7 fullShare (stepS i x0 x1 s).2.1
            ∗ owns (c : Thread nD τ) arg8 fullShare (stepS i x0 x1 s).2.2) -∗ K ⟨⟩))
      ⊢ wp frame (wpE (defs₀ (F := F)) Variants.none c none) E (cc0__ntxent_kernel i arg2 harg2 arg3 harg3 arg4 harg4 arg5 harg5 arg6 harg6 arg7 harg7 arg8 harg8) K := by
  by_cases h1 : c1 i <;> by_cases h2 : c2 i <;> by_cases h4 : c4 i
  · exact body_TTT c i arg2 harg2 arg3 harg3 arg4 harg4 arg5 harg5 arg6 harg6 arg7 harg7 arg8 harg8 h1 h2 (fun h => (h23.mp h) h2) h4 x0 x1 y4 y5 s E K
  · exact body_TTF c i arg2 harg2 arg3 harg3 arg4 harg4 arg5 harg5 arg6 harg6 arg7 harg7 arg8 harg8 h1 h2 (fun h => (h23.mp h) h2) h4 x0 x1 y4 y5 s E K
  · exact body_TFT c i arg2 harg2 arg3 harg3 arg4 harg4 arg5 harg5 arg6 harg6 arg7 harg7 arg8 harg8 h1 h2 (h23.mpr h2) h4 x0 x1 y4 y5 s E K
  · exact body_TFF c i arg2 harg2 arg3 harg3 arg4 harg4 arg5 harg5 arg6 harg6 arg7 harg7 arg8 harg8 h1 h2 (h23.mpr h2) h4 x0 x1 y4 y5 s E K
  · exact body_FTT c i arg2 harg2 arg3 harg3 arg4 harg4 arg5 harg5 arg6 harg6 arg7 harg7 arg8 harg8 h1 h2 (fun h => (h23.mp h) h2) h4 x0 x1 y4 y5 s E K
  · exact body_FTF c i arg2 harg2 arg3 harg3 arg4 harg4 arg5 harg5 arg6 harg6 arg7 harg7 arg8 harg8 h1 h2 (fun h => (h23.mp h) h2) h4 x0 x1 y4 y5 s E K
  · exact body_FFT c i arg2 harg2 arg3 harg3 arg4 harg4 arg5 harg5 arg6 harg6 arg7 harg7 arg8 harg8 h1 h2 (h23.mpr h2) h4 x0 x1 y4 y5 s E K
  · exact body_FFF c i arg2 harg2 arg3 harg3 arg4 harg4 arg5 harg5 arg6 harg6 arg7 harg7 arg8 harg8 h1 h2 (h23.mpr h2) h4 x0 x1 y4 y5 s E K

end Cert.KernelIdeal.Hand

end
-- ==== Proof.KData.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KBodyAll
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- and when the region is entered: after the row norms and the normalized, narrowed copy of the input. -/
abbrev Ve (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Ve m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The carried columns, point by point -/

/-- What the three carried columns hold before point `t` (after point `t - 1`); before the first point, anything. -/
def sc (c : Dev nD) : ℕ → St F
  | 0 => (k0_pay1 (F := F), k0_pay2 (F := F), k0_pay3 (F := F))
  | t + 1 => if h : t < cfg0.N then stepS (grid0.coords ⟨t, h⟩) (iblk m c 0 ⟨t, h⟩) (iblk m c 1 ⟨t, h⟩) (sc c t) else sc c t

theorem sc_succ (c : Dev nD) (t : Fin cfg0.N) :
    sc m c (t.val + 1) = stepS (grid0.coords t) (iblk m c 0 t) (iblk m c 1 t) (sc m c t.val) := by
  show (if h : t.val < cfg0.N then _ else _) = _
  rw [dif_pos t.isLt]

/-- The scratch operands: whole scoped buffers of the kernel's own. -/
abbrev scM0 : Memref sig .tc .vmem S1024x1 .f32 := Memref.whole cc0_scratch0
abbrev scM1 : Memref sig .tc .vmem S1024x1 .f32 := Memref.whole cc0_scratch1
abbrev scM2 : Memref sig .tc .vmem S1024x1 .f32 := Memref.whole cc0_scratch2

/-- The invariant before point `t`: the three carried columns at `sc t` (at anything before the first point). -/
def Φs (c : Dev nD) (t : Fin (cfg0.N + 1)) : sProp 𝕄 :=
  iprop(∃ s : St F, ⌜t.val ≠ 0 → s = sc m c t.val⌝ ∗ owns (c : Thread nD τ) scM0 fullShare s.1
    ∗ owns (c : Thread nD τ) scM1 fullShare s.2.1 ∗ owns (c : Thread nD τ) scM2 fullShare s.2.2)

/-! ## The pipeline's proof data -/

/-- The proof data on core `c`: the arrays as the region finds them; after the body each input's buffer at its block,
    the first output's at the log-sum-exp column of the carried statistics, the second's at the positive-pair column;
    the invariant; the normalized array's two windows each holding half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay13 (sc m c (t.val + 1)).1 (sc m c (t.val + 1)).2.1
    | ⟨3, _⟩ => (sc m c (t.val + 1)).2.2
    | ⟨_ + 4, h⟩ => absurd h (Nat.not_lt.2 (Nat.le_add_left _ _))
  Φ t := Φs m c t
  q w := match w with
    | ⟨0, _⟩ => fullShare.left
    | ⟨1, _⟩ => fullShare.right
    | ⟨2, _⟩ => fullShare
    | ⟨3, _⟩ => fullShare
    | ⟨_ + 4, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = k0_pay13 (sc m c (t.val + 1)).1 (sc m c (t.val + 1)).2.1 := by dsimp only [dats]
theorem after3 (c : Dev nD) (t : Fin cfg0.N) : (dats m 0 c).after 3 t = (sc m c (t.val + 1)).2.2 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

/-! ## The conditions over the grid, decided -/

theorem hc1 : ∀ t : Fin cfg0.N, c1 (grid0.coords t) ↔ t.val % 8 = 0 :=
  (by decide +kernel : ∀ t : Fin grid0.N, c1 (grid0.coords t) ↔ t.val % 8 = 0)
theorem hc23 : ∀ t : Fin cfg0.N, c3 (grid0.coords t) ↔ ¬ c2 (grid0.coords t) :=
  (by decide +kernel : ∀ t : Fin grid0.N, c3 (grid0.coords t) ↔ ¬ c2 (grid0.coords t))
theorem hc2 : ∀ t : Fin cfg0.N, c2 (grid0.coords t) ↔ t.val / 8 = t.val % 8 :=
  (by decide +kernel : ∀ t : Fin grid0.N, c2 (grid0.coords t) ↔ t.val / 8 = t.val % 8)
theorem hc4 : ∀ t : Fin cfg0.N, c4 (grid0.coords t) ↔ t.val % 8 = 7 :=
  (by decide +kernel : ∀ t : Fin grid0.N, c4 (grid0.coords t) ↔ t.val % 8 = 7)
theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬ c4 (grid0.coords t) → cfg0.idle 2 (grid0.coords t) = true := by decide +kernel
theorem idle3 : ∀ t : Fin cfg0.N, ¬ c4 (grid0.coords t) → cfg0.idle 3 (grid0.coords t) = true := by decide +kernel
theorem live2 : ∀ t : Fin cfg0.N, c4 (grid0.coords t) → cfg0.idle 2 (grid0.coords t) = false := by decide +kernel
theorem live3 : ∀ t : Fin cfg0.N, c4 (grid0.coords t) → cfg0.idle 3 (grid0.coords t) = false := by decide +kernel
theorem noFlush2 : ∀ t : Fin cfg0.N, ¬ c4 (grid0.coords t) → (cfg0.win 2).flush t = false := by decide +kernel
theorem noFlush3 : ∀ t : Fin cfg0.N, ¬ c4 (grid0.coords t) → (cfg0.win 3).flush t = false := by decide +kernel

/-! ## The body obligation -/

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- The carried columns after point `t`, from any columns that agree with `sc t` unless `t` is the first point
    (where the first column block resets them). -/
theorem step_eq_sc (c : Dev nD) (t : Fin cfg0.N) (s : St F) (hs : t.val ≠ 0 → s = sc m c t.val) :
    stepS (grid0.coords t) (iblk m c 0 t) (iblk m c 1 t) s = sc m c (t.val + 1) := by
  rw [sc_succ]
  by_cases hz : t.val = 0
  · exact stepS_of_c1 _ ((hc1 t).mpr (by rw [hz])) _ _ _ _
  · rw [hs hz]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).Φ t.castSucc = Φs m c t.castSucc from rfl, show (dats m 0 c).Φ t.succ = Φs m c t.succ from rfl]
  unfold Φs
  by_cases h4 : c4 (grid0.coords t)
  · rw [show (dats m 0 c).leavesExact 2 t = owns (c : Thread nD τ) (ms2 t) fullShare ((dats m 0 c).after 2 t) from by
      unfold Dat.leavesExact; rw [live2 t h4], after2]
    rw [show (dats m 0 c).leavesExact 3 t = owns (c : Thread nD τ) (ms3 t) fullShare ((dats m 0 c).after 3 t) from by
      unfold Dat.leavesExact; rw [live3 t h4], after3]
    iintro ⟨⟨%s, %hs, HS0, HS1, HS2⟩, Ho, ⟨%d0, H0⟩, ⟨%d1, H1⟩, ⟨%d2, H2⟩, ⟨%d3, H3⟩⟩
    iapply (body_run c (grid0.coords t) (ms0 t) (hs0 t) (ms1 t) (hs1 t) (ms2 t) (hs2 t) (ms3 t) (hs3 t) scM0 (Memref.isWhole_whole _) scM1 (Memref.isWhole_whole _) scM2 (Memref.isWhole_whole _)
      (hc23 t) (iblk m c 0 t) (iblk m c 1 t) _ _ s Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    have hst := step_eq_sc m c t s (by simpa only [Fin.coe_castSucc] using hs)
    rw [show out4 (grid0.coords t) (iblk m c 0 t) (iblk m c 1 t) s _ = k0_pay13 (sc m c (t.val + 1)).1 (sc m c (t.val + 1)).2.1 from by
      unfold out4; rw [if_pos h4, hst]]
    rw [show out5 (grid0.coords t) (iblk m c 0 t) (iblk m c 1 t) s _ = (sc m c (t.val + 1)).2.2 from by
      unfold out5; rw [if_pos h4, hst]]
    rw [hst]
    isplitl [HS0 HS1 HS2]
    · iexists (sc m c (t.val + 1)); isplitr; · ipureintro; intro _; simp only [Fin.val_succ]
      isplitl [HS0]; · iexact HS0
      isplitl [HS1]; · iexact HS1
      iexact HS2
    isplitl [Ho]; · iexact Ho
    isplitl [H0]; · iexact H0
    isplitl [H1]; · iexact H1
    isplitl [H2]; · iexact H2
    iexact H3
  · rw [Dat.leavesExact_idle (dats m 0 c) 2 t (idle2 t h4) (noFlush2 t h4)]
    rw [Dat.leavesExact_idle (dats m 0 c) 3 t (idle3 t h4) (noFlush3 t h4)]
    iintro ⟨⟨%s, %hs, HS0, HS1, HS2⟩, Ho, ⟨%d0, H0⟩, ⟨%d1, H1⟩, ⟨%d2, H2⟩, ⟨%d3, H3⟩⟩
    iapply (body_run c (grid0.coords t) (ms0 t) (hs0 t) (ms1 t) (hs1 t) (ms2 t) (hs2 t) (ms3 t) (hs3 t) scM0 (Memref.isWhole_whole _) scM1 (Memref.isWhole_whole _) scM2 (Memref.isWhole_whole _)
      (hc23 t) (iblk m c 0 t) (iblk m c 1 t) _ _ s Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    have hst := step_eq_sc m c t s (by simpa only [Fin.coe_castSucc] using hs)
    rw [show out4 (grid0.coords t) (iblk m c 0 t) (iblk m c 1 t) s ((dats m 0 c).before 2 t d2) = (dats m 0 c).before 2 t d2 from by
      unfold out4; rw [if_neg h4]]
    rw [show out5 (grid0.coords t) (iblk m c 0 t) (iblk m c 1 t) s ((dats m 0 c).before 3 t d3) = (dats m 0 c).before 3 t d3 from by
      unfold out5; rw [if_neg h4]]
    rw [hst]
    isplitl [HS0 HS1 HS2]
    · iexists (sc m c (t.val + 1)); isplitr; · ipureintro; intro _; simp only [Fin.val_succ]
      isplitl [HS0]; · iexact HS0
      isplitl [HS1]; · iexact HS1
      iexact HS2
    isplitl [Ho]; · iexact Ho
    isplitl [H0]; · iexact H0
    isplitl [H1]; · iexact H1
    isplitl [H2]; · iexists _; iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRes.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KData
import Idealize.ShloMosaic.Lib.Pipeline.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The windows' arrays as four points-to facts

The normalized array is read through two windows, each holding half of it; the two result arrays are held whole. -/

/-- The four windows' arrays at contents `F0 … F3`: the shared input at its two halves, the two outputs whole. -/
def arrForm (c : Dev nD) (F0 F1 : Buf (Elt F) ((c : Thread nD τ).loc main_v5)) (F2 : Buf (Elt F) ((c : Thread nD τ).loc main_v6_0))
    (F3 : Buf (Elt F) ((c : Thread nD τ).loc main_v6_1)) : sProp 𝕄 :=
  iprop((((c : Thread nD τ).loc main_v5) ↦{fullShare.left} F0) ∗ (((c : Thread nD τ).loc main_v5) ↦{fullShare.right} F1)
    ∗ (((c : Thread nD τ).loc main_v6_0) ↦{fullShare} F2) ∗ (((c : Thread nD τ).loc main_v6_1) ↦{fullShare} F3))

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The proof data's `arrays` are those four facts. -/
theorem arrays_eq' (c : Dev nD) (Fw : (w : Fin cfg0.W) → Buf (Elt F) ((cfg0.win w).arr.view.loc (c : Thread nD τ))) :
    (dats m 0 c).arrays Fw = arrForm c (Fw 0) (Fw 1) (Fw 2) (Fw 3) := by
  unfold Dat.arrays arrForm
  rw [bigSep_W0, share0, share1, share2, share3, (arr_whole0 0).set_eq_univ, (arr_whole0 2).set_eq_univ, (arr_whole0 3).set_eq_univ]

/-- The buffers behind the windows' arrays, listed. -/
theorem arrBufs_eq (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_v6_0) ↦{fullShare} W main_v6_0)
          ∗ (((c : Thread nD τ).loc main_v6_1) ↦{fullShare} W main_v6_1)) := by
  unfold Pipeline.arrBufs
  rw [bigSep_eq_bigSepL_of_eq [main_v5, main_v6_0, main_v6_1] (by decide) (by decide)]
  rfl

/-- ENTRY: a core's unscoped buffers at `W` are the four windows' arrays at `W` (the shared input split in two
    halves) and the unscoped rest. -/
theorem split_in (c : Dev nD) (W : (b : Ref sig .tc) → Buf (Elt F) ((c : Thread nD τ).loc b)) :
    (unscopedBufs c W : sProp 𝕄) ⊢ iprop(arrForm c (W main_v5) (W main_v5) (W main_v6_0) (W main_v6_1) ∗ Pipeline.unscopedRest spec0 c W) := by
  rw [Pipeline.unscopedBufs_split₀ cfgs 0 winFacts₀0.arr_unscoped c W, arrBufs_eq]
  unfold arrForm
  iintro ⟨⟨H5, H60, H61⟩, Hr⟩
  ihave H5' := (pointsTo_share (PosShare.mem_left_op_right fullShare)).1 $$ H5
  icases H5' with ⟨Hl, Hrt⟩
  isplitr [Hr]
  · isplitl [Hl]; · iexact Hl
    isplitl [Hrt]; · iexact Hrt
    isplitl [H60]; · iexact H60
    iexact H61
  iexact Hr

/-- EXIT: the converse, the two halves of the shared input joined again. -/
theorem split_out (c : Dev nD) (W : (b : Ref sig .tc) → Buf (Elt F) ((c : Thread nD τ).loc b)) :
    iprop(arrForm c (W main_v5) (W main_v5) (W main_v6_0) (W main_v6_1) ∗ Pipeline.unscopedRest spec0 c W) ⊢ (unscopedBufs c W : sProp 𝕄) := by
  rw [Pipeline.unscopedBufs_split₀ cfgs 0 winFacts₀0.arr_unscoped c W, arrBufs_eq]
  unfold arrForm
  iintro ⟨⟨Hl, Hrt, H60, H61⟩, Hr⟩
  isplitr [Hr]
  · isplitl [Hl Hrt]
    · iapply (pointsTo_share (PosShare.mem_left_op_right fullShare)).2
      isplitl [Hl]; · iexact Hl
      iexact Hrt
    isplitl [H60]; · iexact H60
    iexact H61
  iexact Hr

end Cert.KernelIdeal.Hand

end
-- ==== Proof.KRun.lean ====
import proofs.«103424_j20255065768459_2_alg».proof.Proof.Gen.KernelIdeal.Launch
import proofs.«103424_j20255065768459_2_alg».proof.Proof.Gen.KernelIdeal.Skeleton
import proofs.«103424_j20255065768459_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«103424_j20255065768459_2_alg».proof.Proof.KRes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## The buffers when the region is left -/

/-- Core `c`'s buffers when the region is left: the two result arrays at what the write-backs made them, every other
    buffer as the region found it. -/
def Vx (c : Dev nD) : Valuation τ sig (Elt F) :=
  Function.update (Function.update (Ve m c) (Proc.devRef .tc main_v6_0) ((dats m 0 c).arrAt 2 cfg0.N))
    (Proc.devRef .tc main_v6_1) ((dats m 0 c).arrAt 3 cfg0.N)

theorem Vx_v61 (c : Dev nD) : Vx m c (Proc.devRef .tc main_v6_1) = (dats m 0 c).arrAt 3 cfg0.N := by
  unfold Vx; rw [Function.update_self]
theorem Vx_v60 (c : Dev nD) : Vx m c (Proc.devRef .tc main_v6_0) = (dats m 0 c).arrAt 2 cfg0.N := by
  unfold Vx; rw [Function.update_of_ne (by decide), Function.update_self]
theorem Vx_other (c : Dev nD) (b : Ref sig .tc) (h0 : b ≠ main_v6_0) (h1 : b ≠ main_v6_1) :
    Vx m c (Proc.devRef .tc b) = V m c b := by
  unfold Vx
  rw [Function.update_of_ne (fun e => h1 (Proc.devRef_injective _ e)), Function.update_of_ne (fun e => h0 (Proc.devRef_injective _ e))]

/-- The shared input array is never written: after the region it holds what the region found. -/
theorem arrAt0N (c : Dev nD) (n : ℕ) : (dats m 0 c).arrAt 0 n = V m c main_v5 :=
  ((dats m 0 c).arrAt_in 0 rfl n).trans (A_eq m c 0)
theorem arrAt1N (c : Dev nD) (n : ℕ) : (dats m 0 c).arrAt 1 n = V m c main_v5 :=
  ((dats m 0 c).arrAt_in 1 rfl n).trans (A_eq m c 1)

/-- Off the two result arrays the exit contents are the entry contents. -/
theorem rest_Vx (c : Dev nD) :
    (Pipeline.unscopedRest spec0 c (fun b => Vx m c (Proc.devRef .tc b)) : sProp 𝕄) = Pipeline.unscopedRest spec0 c (V m c) := by
  unfold Pipeline.unscopedRest
  refine bigSep_congr fun b hb => ?_
  have hb' := (Finset.mem_sdiff.mp hb).2
  dsimp only
  rw [Vx_other m c b (fun e => hb' (Finset.mem_image.mpr ⟨2, Finset.mem_univ _, e ▸ rfl⟩))
    (fun e => hb' (Finset.mem_image.mpr ⟨3, Finset.mem_univ _, e ▸ rfl⟩))]

/-! ## @main as segments -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) hostOps0_1_fresh
    (fun c => StableHlo.after hostOps0 (V₀ m c)) R

def seg2 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (Vx m) R

set_option backward.isDefEq.respectTransparency.types false in
/-- THE REGION: entered from what the host lines before it left — the normalized array split between its two windows,
    the two result arrays into the pipeline, every other buffer bypassing —, left with the result arrays at their final
    contents; the three carried columns are the invariant's. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (Ve m c) ∗ R c)
  post c := iprop(StableHlo.held (c : Thread nD τ) (Pipeline.ucRefs τ sig) (Vx m c) ∗ R c)
  X c := iprop(emp)
  Y c := iprop(emp)
  Z c := Pipeline.unscopedRest spec0 c (V m c)
  hentry c := by
    rw [show StableHlo.held (c : Thread nD τ) (Pipeline.ucRefs τ sig) (Ve m c) = unscopedBufs c (V m c) from (Pipeline.unscopedBufs_held c _).symm]
    rw [arrays_eq']
    iintro ⟨⟨Hub, HO⟩, -, -⟩
    ihave H := (split_in c (V m c)) $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Φs m c 0 from rfl]; unfold Φs; rw [scopedRest0_eq]
    simp only [owns_whole]
    iintro ⟨-, -, ⟨%f0, H0⟩, ⟨%f1, H1⟩, ⟨%f2, H2⟩⟩
    iexists (f0, f1, f2); isplitr; · ipureintro; intro h; exact absurd rfl h
    isplitl [H0]; · iexact H0
    isplitl [H1]; · iexact H1
    iexact H2
  hout c := by
    rw [Pipeline.ownSems0_none, show (dats m 0 c).Φ (Fin.last cfg0.N) = Φs m c (Fin.last cfg0.N) from rfl]; unfold Φs; rw [scopedRest0_eq]
    simp only [owns_whole]
    iintro ⟨%s, -, H0, H1, H2⟩
    isplitr; · iempintro
    isplitr; · iempintro
    isplitl [H0]; · iexists _; iexact H0
    isplitl [H1]; · iexists _; iexact H1
    iexists _; iexact H2
  hexit c := by
    rw [arrays_eq', arrAt0N, arrAt1N]
    rw [show StableHlo.held (c : Thread nD τ) (Pipeline.ucRefs τ sig) (Vx m c) = unscopedBufs c (fun b => Vx m c (Proc.devRef .tc b)) from (Pipeline.unscopedBufs_held c _).symm]
    iintro ⟨Ha, HO, -, HZ⟩
    imodintro
    isplitr [HO]
    · iapply (split_out c (fun b => Vx m c (Proc.devRef .tc b)))
      rw [Vx_v60, Vx_v61, Vx_other m c main_v5 (by decide) (by decide), rest_Vx]
      isplitl [Ha]; · iexact Ha
      iexact HZ
    · unfold Pipeline.Dat.owesAt Pipeline.owesWithin
      icases HO with ⟨%W, -, HO⟩; iexists W; iexact HO

abbrev segs : List (Pipeline.Seg (pcfgs (F := F)) adm (dats m) () defs₀ 𝒱₀ L lv) :=
  [.host (seg0 m), .host (seg1 m), .region (reg0 m), .host (seg2 m)]

/-- What @main's result buffer holds at the end: the lines after the region applied to the exit contents. -/
def kres (c : Dev nD) : Buf (Elt F) ((c.tc : Thread nD τ).loc main_v11) :=
  StableHlo.after hostOps1 (Vx m c) (Proc.devRef .tc main_v11)

/-- No host line writes the argument: it reaches the end as launched. -/
theorem arg0_kept (c : Dev nD) :
    StableHlo.after hostOps1 (Vx m c) (Proc.devRef .tc main_arg0) = m ((c.tc : Thread nD τ).loc main_arg0) := by
  have h1 : StableHlo.after hostOps1 (Vx m c) (Proc.devRef .tc main_arg0) = Vx m c (Proc.devRef .tc main_arg0) := by
    after_results
  rw [h1, Vx_other m c main_arg0 (by decide) (by decide)]
  show StableHlo.after hostOps0_1 (StableHlo.after hostOps0 (V₀ m c)) (Proc.devRef .tc main_arg0) = _
  have h2 : ∀ W : Valuation τ sig (Elt F), StableHlo.after hostOps0_1 W (Proc.devRef .tc main_arg0) = W (Proc.devRef .tc main_arg0) := by
    intro W; after_results
  have h3 : ∀ W : Valuation τ sig (Elt F), StableHlo.after hostOps0 W (Proc.devRef .tc main_arg0) = W (Proc.devRef .tc main_arg0) := by
    intro W; after_results
  rw [h2, h3]

set_option backward.isDefEq.respectTransparency.types false in
/-- At the compiled mesh, for any float values, from any memory with zero counters: every weakly fair execution of
    @main on the TensorCores terminates, and every final state has the result buffer at `kres` and the argument
    unchanged. -/
theorem run_main : θ_run defs (onTc (τ := τ) (main (F := F))) (s₀ m ρ) (fun r => ∀ c : Dev nD,
      r.2.mem ((c.tc : Thread nD τ).loc main_v11) = kres m c
      ∧ r.2.mem ((c.tc : Thread nD τ).loc main_arg0) = m ((c.tc : Thread nD τ).loc main_arg0)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (Vx m c)))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v11) = kres m c
      ∧ s.mem ((c.tc : Thread nD τ).loc main_arg0) = m ((c.tc : Thread nD τ).loc main_arg0))
    (hfin := fun c s' => by
      rw [show StableHlo.held (c : Thread nD τ) (Pipeline.ucRefs τ sig) (StableHlo.after hostOps1 (Vx m c))
        = unscopedBufs c (fun b => StableHlo.after hostOps1 (Vx m c) (Proc.devRef .tc b)) from (Pipeline.unscopedBufs_held c _).symm]
      unfold unscopedBufs
      iintro ⟨Hh, HSI⟩
      ihave Hr := (pointsTo_read_all _ (fun b : Ref sig .tc => (c.tc : Thread nD τ).loc b)
        (fun b => StableHlo.after hostOps1 (Vx m c) (Proc.devRef .tc b)) s') $$ [Hh HSI]
      · isplitl [Hh] <;> iassumption
      icases Hr with ⟨%hr, HSI⟩
      imodintro
      isplitr
      · ipureintro
        exact ⟨hr main_v11 (Finset.mem_filter.mpr ⟨Finset.mem_univ _, by decide⟩),
          (hr main_arg0 (Finset.mem_filter.mpr ⟨Finset.mem_univ _, by decide⟩)).trans (arg0_kept m c)⟩
      iexact HSI)
    (hQ := fun _ h => h)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.LibOnlineSoftmax.lean ====
import Mathlib
import Idealize.ShloMosaic.PureOps.Ideal

/-!
# The online softmax over the extended reals

A row of extended reals (each entry real or `⊥`, never `⊤`) is read block by block.  A running
state `(m, l)` holds the maximum `m` seen so far and the sum `l = ∑ e^(x - m)` over the entries seen
so far.  Reading one more block with block maximum `b` replaces `m` by `m' = max m b`, rescales the
old sum by `e^(m - m')` and adds the new block's terms `e^(x - m')`.

This file proves that after `n ≥ 1` blocks the state is `(M, ∑ e^(x - M))` with `M` the maximum of
all entries read, a real number, and the sum a positive real; that a sum (or a maximum) over
`Fin (B * K)` is the sum (maximum) over `B` blocks of `K`; and that the blocked computation agrees
with the one-pass one.  The three facts behind it:

* `e^a · e^b = e^(a + b)` on the reals;
* `⊥ - M = ⊥` and `e^⊥ = 0`, so a `⊥` entry, and the start state `(⊥, 0)`, contribute `0`;
* the coercion `ℝ → EReal` commutes with finite sums.
-/

namespace OnlineSoftmax

open Idealize.ShloMosaic
open scoped BigOperators

/-! ## Coercions and the shifted exponential -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion `ℝ → EReal` commutes with `max` (it is monotone). -/
theorem coe_max (a b : ℝ) : ((max a b : ℝ) : EReal) = max (a : EReal) (b : EReal) :=
  EReal.coe_strictMono.monotone.map_max

/-- `e^(x - M)` as a real number, for `x` real or `⊥`; at `⊥` it is `0`. -/
noncomputable def expShift (x : EReal) (M : ℝ) : ℝ :=
  if x = ⊥ then 0 else Real.exp (x.toReal - M)

/-- For `x ≠ ⊤` and real `M`, the extended exponential of `x - M` is the real `expShift x M`:
    `⊥ - M = ⊥` and `e^⊥ = 0`; on reals the subtraction and the exponential are the real ones. -/
theorem exp_sub_coe {x : EReal} (hx : x ≠ ⊤) (M : ℝ) :
    Ideal.exp (x - (M : EReal)) = (expShift x M : EReal) := by
  induction x using EReal.rec with
  | bot => simp [expShift]
  | top => exact absurd rfl hx
  | coe r =>
    rw [← EReal.coe_sub, Ideal.exp_coe]
    simp [expShift]

theorem expShift_nonneg (x : EReal) (M : ℝ) : 0 ≤ expShift x M := by
  unfold expShift; split_ifs
  · exact le_rfl
  · exact (Real.exp_pos _).le

theorem expShift_pos {x : EReal} (hx : x ≠ ⊥) (M : ℝ) : 0 < expShift x M := by
  unfold expShift; rw [if_neg hx]; exact Real.exp_pos _

/-- Rescaling: `e^(M - M') · e^(x - M) = e^(x - M')`. -/
theorem exp_mul_expShift (x : EReal) (M M' : ℝ) :
    Real.exp (M - M') * expShift x M = expShift x M' := by
  unfold expShift; split_ifs
  · simp
  · rw [← Real.exp_add]; congr 1; ring

/-! ## The maximum of a finite family -/

/-- The fold of `max` from `⊥` is the finite supremum. -/
theorem fold_max_eq_sup {ι : Type*} (s : Finset ι) (f : ι → EReal) :
    s.fold max ⊥ f = s.sup f := rfl

/-- A finite family with no `⊤` entry and some entry other than `⊥` has a real maximum: the fold of
    `max` from `⊥` is a real `b`, every entry is `≤ b`, and some entry equals `b`. -/
theorem exists_real_max {ι : Type*} [Fintype ι] (w : ι → EReal)
    (htop : ∀ i, w i ≠ ⊤) (hbot : ∃ i, w i ≠ ⊥) :
    ∃ b : ℝ, Finset.univ.fold max ⊥ w = (b : EReal) ∧ (∀ i, w i ≤ (b : EReal)) ∧
      ∃ i, w i = (b : EReal) := by
  obtain ⟨i0, hi0⟩ := hbot
  have hne : (Finset.univ : Finset ι).Nonempty := ⟨i0, Finset.mem_univ _⟩
  obtain ⟨i1, _, hi1⟩ := Finset.exists_mem_eq_sup Finset.univ hne w
  have hle : ∀ i, w i ≤ Finset.univ.sup w := fun i => Finset.le_sup (Finset.mem_univ i)
  have hsb : Finset.univ.sup w ≠ ⊥ := fun h => hi0 (le_bot_iff.mp (h ▸ hle i0))
  have hst : Finset.univ.sup w ≠ ⊤ := hi1 ▸ htop i1
  refine ⟨(Finset.univ.sup w).toReal, ?_, ?_, ?_⟩
  · rw [fold_max_eq_sup, EReal.coe_toReal hst hsb]
  · intro i; rw [EReal.coe_toReal hst hsb]; exact hle i
  · exact ⟨i1, by rw [EReal.coe_toReal hst hsb]; exact hi1.symm⟩

/-! ## The online update -/

/-- One online update: the new maximum is the old one joined with the block's; the old sum is
    rescaled by `e^(m - m')` and the block's terms `e^(x - m')` are added. -/
noncomputable def step {K : ℕ} (v : Fin K → EReal) (s : EReal × EReal) : EReal × EReal :=
  let m' := max s.1 (Finset.univ.fold max ⊥ v)
  (m', Ideal.exp (s.1 - m') * s.2 + ∑ c, Ideal.exp (v c - m'))

/-- The state after `n` blocks, from the start state `(⊥, 0)`. -/
noncomputable def run {K : ℕ} (v : ℕ → Fin K → EReal) : ℕ → EReal × EReal
  | 0 => (⊥, 0)
  | n + 1 => step (v n) (run v n)

@[simp] theorem run_zero {K : ℕ} (v : ℕ → Fin K → EReal) : run v 0 = (⊥, 0) := rfl
@[simp] theorem run_succ {K : ℕ} (v : ℕ → Fin K → EReal) (n : ℕ) :
    run v (n + 1) = step (v n) (run v n) := rfl

/-- The first update, from `(⊥, 0)`: `max ⊥ b = b`, `e^(⊥ - b) = e^⊥ = 0`, `0 · 0 = 0`, so the state
    becomes `(b, ∑ e^(x - b))`. -/
theorem step_init {K : ℕ} (v : Fin K → EReal) (b : ℝ)
    (hb : Finset.univ.fold max ⊥ v = (b : EReal)) (htop : ∀ c, v c ≠ ⊤) :
    step v (⊥, 0) = ((b : EReal), ((∑ c, expShift (v c) b : ℝ) : EReal)) := by
  simp only [step, hb]
  rw [max_eq_right (bot_le : (⊥ : EReal) ≤ (b : EReal))]
  rw [EReal.bot_sub, Ideal.exp_bot, zero_mul, zero_add, coe_finset_sum]
  congr 1
  exact Finset.sum_congr rfl fun c _ => exp_sub_coe (htop c) b

/-- A later update, from a real state `(M, L)`: with `M' = max M b` the state becomes
    `(M', e^(M - M') · L + ∑ e^(x - M'))`, all real. -/
theorem step_real {K : ℕ} (v : Fin K → EReal) (b : ℝ)
    (hb : Finset.univ.fold max ⊥ v = (b : EReal)) (htop : ∀ c, v c ≠ ⊤) (M Lr : ℝ) :
    step v ((M : EReal), (Lr : EReal)) =
      (((max M b : ℝ) : EReal),
        ((Real.exp (M - max M b) * Lr + ∑ c, expShift (v c) (max M b) : ℝ) : EReal)) := by
  have hm : max (M : EReal) (b : EReal) = ((max M b : ℝ) : EReal) := (coe_max M b).symm
  simp only [step, hb, hm]
  rw [← EReal.coe_sub, Ideal.exp_coe, ← EReal.coe_mul, EReal.coe_add, coe_finset_sum]
  congr 2
  exact Finset.sum_congr rfl fun c _ => exp_sub_coe (htop c) _

/-- The state after `n + 1` blocks, in real terms: the maximum is a real `M`, the maximum of all
    entries read, and the sum is the real `∑ e^(x - M)` over all entries read.  By induction on `n`:
    the first block by `step_init`; a later block by `step_real`, the rescaling
    `e^(M - M') · e^(x - M) = e^(x - M')` termwise, and `max M b` being attained by whichever is larger. -/
theorem run_spec_real {K : ℕ} (v : ℕ → Fin K → EReal) :
    ∀ n : ℕ, (∀ j < n + 1, ∀ c, v j c ≠ ⊤) → (∀ j < n + 1, ∃ c, v j c ≠ ⊥) →
    ∃ M : ℝ, (run v (n + 1)).1 = (M : EReal) ∧ (∀ j < n + 1, ∀ c, v j c ≤ (M : EReal)) ∧
      (∃ j < n + 1, ∃ c, v j c = (M : EReal)) ∧
      (run v (n + 1)).2 =
        ((∑ j ∈ Finset.range (n + 1), ∑ c, expShift (v j c) M : ℝ) : EReal) := by
  intro n
  induction n with
  | zero =>
    intro htop hbot
    obtain ⟨b, hb, hle, c0, hc0⟩ :=
      exists_real_max (v 0) (htop 0 (by omega)) (hbot 0 (by omega))
    have hrun : run v (0 + 1) = ((b : EReal), ((∑ c, expShift (v 0 c) b : ℝ) : EReal)) :=
      step_init (v 0) b hb (htop 0 (by omega))
    refine ⟨b, by rw [hrun], ?_, ⟨0, by omega, c0, hc0⟩, ?_⟩
    · intro j hj c
      have hj0 : j = 0 := by omega
      subst hj0; exact hle c
    · rw [hrun]; simp
  | succ n ih =>
    intro htop hbot
    obtain ⟨M, hM1, hMle, ⟨j0, hj0, c0, hc0⟩, hM2⟩ :=
      ih (fun j hj => htop j (by omega)) (fun j hj => hbot j (by omega))
    obtain ⟨b, hb, hle, c1, hc1⟩ :=
      exists_real_max (v (n + 1)) (htop (n + 1) (by omega)) (hbot (n + 1) (by omega))
    have hrun : run v (n + 1 + 1) = step (v (n + 1)) ((M : EReal),
        ((∑ j ∈ Finset.range (n + 1), ∑ c, expShift (v j c) M : ℝ) : EReal)) := by
      rw [run_succ v (n + 1), ← hM1, ← hM2]
    rw [step_real _ b hb (htop (n + 1) (by omega))] at hrun
    refine ⟨max M b, by rw [hrun], ?_, ?_, ?_⟩
    · intro j hj c
      rw [coe_max]
      rcases Nat.lt_succ_iff_lt_or_eq.mp hj with h | h
      · exact le_max_of_le_left (hMle j h c)
      · subst h; exact le_max_of_le_right (hle c)
    · rcases le_total M b with h | h
      · exact ⟨n + 1, by omega, c1, by rw [max_eq_right h]; exact hc1⟩
      · exact ⟨j0, by omega, c0, by rw [max_eq_left h]; exact hc0⟩
    · rw [hrun]
      show ((_ : ℝ) : EReal) = _
      congr 1
      rw [Finset.sum_range_succ _ (n + 1), Finset.mul_sum]
      congr 1
      refine Finset.sum_congr rfl fun j _ => ?_
      rw [Finset.mul_sum]
      exact Finset.sum_congr rfl fun c _ => exp_mul_expShift _ _ _

/-- The sum of the extended exponentials `e^(x - M)` over blocks `0 … n-1` is the coercion of the real
    sum, when no entry is `⊤`. -/
theorem sum_exp_eq_coe {K : ℕ} (v : ℕ → Fin K → EReal) (n : ℕ)
    (htop : ∀ j < n, ∀ c, v j c ≠ ⊤) (M : ℝ) :
    ∑ j ∈ Finset.range n, ∑ c, Ideal.exp (v j c - (M : EReal)) =
      ((∑ j ∈ Finset.range n, ∑ c, expShift (v j c) M : ℝ) : EReal) := by
  rw [coe_finset_sum]
  refine Finset.sum_congr rfl fun j hj => ?_
  rw [coe_finset_sum]
  exact Finset.sum_congr rfl fun c _ => exp_sub_coe (htop j (Finset.mem_range.mp hj) c) M

/-- **The online softmax is the one-pass softmax.**  If every entry of blocks `0 … n-1` is real or `⊥`
    and each of these blocks has an entry other than `⊥`, then after `n ≥ 1` updates the running
    maximum is a real `M`, every entry read is `≤ M` and some entry read equals `M`, the running sum is
    `∑ e^(x - M)` over all entries read, and that sum is a positive real. -/
theorem run_spec {K : ℕ} (v : ℕ → Fin K → EReal) (n : ℕ) (hn : 1 ≤ n)
    (htop : ∀ j < n, ∀ c, v j c ≠ ⊤) (hbot : ∀ j < n, ∃ c, v j c ≠ ⊥) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) := by
  obtain ⟨m, rfl⟩ : ∃ m, n = m + 1 := ⟨n - 1, by omega⟩
  obtain ⟨M, h1, hle, ⟨j0, hj0, c0, hc0⟩, h2⟩ := run_spec_real v m htop hbot
  refine ⟨M, h1, hle, ⟨j0, hj0, c0, hc0⟩, ?_, _, ?_, h2⟩
  · rw [h2, sum_exp_eq_coe v (m + 1) htop M]
  · refine Finset.sum_pos' (fun j _ => Finset.sum_nonneg fun c _ => expShift_nonneg _ _)
      ⟨j0, Finset.mem_range.mpr hj0, ?_⟩
    refine Finset.sum_pos' (fun c _ => expShift_nonneg _ _) ⟨c0, Finset.mem_univ _, ?_⟩
    exact expShift_pos (by rw [hc0]; exact EReal.coe_ne_bot M) M

/-- The same with the hypotheses on every block (not only the first `n`). -/
theorem run_spec' {K : ℕ} (v : ℕ → Fin K → EReal)
    (htop : ∀ j c, v j c ≠ ⊤) (hbot : ∀ j, ∃ c, v j c ≠ ⊥) (n : ℕ) (hn : 1 ≤ n) :
    ∃ M : ℝ, (run v n).1 = (M : EReal) ∧ (∀ j < n, ∀ c, v j c ≤ (M : EReal)) ∧
      (∃ j < n, ∃ c, v j c = (M : EReal)) ∧
      (run v n).2 = ∑ j ∈ Finset.range n, ∑ c, Ideal.exp (v j c - (M : EReal)) ∧
      ∃ L : ℝ, 0 < L ∧ (run v n).2 = (L : EReal) :=
  run_spec v n hn (fun j _ c => htop j c) (fun j _ => hbot j)

/-! ## Re-blocking: `Fin (B * K)` as `B` blocks of `K` -/

/-- The flat index `j · K + c` of entry `c` of block `j` is below `B · K`. -/
theorem reblock_lt {B K : ℕ} (j : Fin B) (c : Fin K) : j.val * K + c.val < B * K := by
  have h1 : j.val * K + c.val < (j.val + 1) * K := by
    rw [Nat.add_mul, Nat.one_mul]; exact Nat.add_lt_add_left c.isLt _
  exact lt_of_lt_of_le h1 (Nat.mul_le_mul_right K j.isLt)

/-- A sum over `Fin (B * K)` is the sum over the `B` blocks of the sums over each block's `K`
    entries; entry `c` of block `j` is at flat index `j · K + c`. -/
theorem sum_reblock {α : Type*} [AddCommMonoid α] {B K : ℕ} (f : Fin (B * K) → α) :
    ∑ i, f i = ∑ j : Fin B, ∑ c : Fin K, f ⟨j.val * K + c.val, reblock_lt j c⟩ := by
  rw [← Equiv.sum_comp finProdFinEquiv f, Fintype.sum_prod_type]
  refine Finset.sum_congr rfl fun j _ => Finset.sum_congr rfl fun c _ => ?_
  congr 1
  apply Fin.ext
  simp only [finProdFinEquiv_apply_val]
  ring

/-- A maximum over `Fin (B * K)` is the maximum over the `B` blocks of each block's maximum. -/
theorem sup_reblock {B K : ℕ} (f : Fin (B * K) → EReal) :
    Finset.univ.sup f =
      Finset.univ.sup fun j : Fin B => Finset.univ.sup fun c : Fin K =>
        f ⟨j.val * K + c.val, reblock_lt j c⟩ := by
  apply le_antisymm
  · refine Finset.sup_le fun i _ => ?_
    have hi : i = ⟨(finProdFinEquiv.symm i).1.val * K + (finProdFinEquiv.symm i).2.val,
        reblock_lt _ _⟩ := by
      conv_lhs => rw [← finProdFinEquiv.apply_symm_apply i]
      apply Fin.ext
      simp only [finProdFinEquiv_apply_val]
      ring
    rw [hi]
    exact le_trans
      (Finset.le_sup (f := fun c : Fin K =>
        f ⟨(finProdFinEquiv.symm i).1.val * K + c.val, reblock_lt _ c⟩) (Finset.mem_univ _))
      (Finset.le_sup (f := fun j : Fin B => Finset.univ.sup fun c : Fin K =>
        f ⟨j.val * K + c.val, reblock_lt j c⟩) (Finset.mem_univ _))
  · exact Finset.sup_le fun j _ => Finset.sup_le fun c _ => Finset.le_sup (Finset.mem_univ _)

/-- The same for the fold of `max` from `⊥`. -/
theorem fold_max_reblock {B K : ℕ} (f : Fin (B * K) → EReal) :
    Finset.univ.fold max ⊥ f =
      Finset.univ.fold max ⊥ fun j : Fin B => Finset.univ.fold max ⊥ fun c : Fin K =>
        f ⟨j.val * K + c.val, reblock_lt j c⟩ :=
  sup_reblock f

/-- `8192 = 8 · 1024`: a sum over `Fin 8192` as eight blocks of `1024`. -/
theorem sum_reblock_8_1024 {α : Type*} [AddCommMonoid α] (f : Fin 8192 → α) :
    ∑ i, f i = ∑ j : Fin 8, ∑ c : Fin 1024, f ⟨j.val * 1024 + c.val, by omega⟩ :=
  sum_reblock (B := 8) (K := 1024) f

/-- `8192 = 8 · 1024`: a maximum over `Fin 8192` as eight blocks of `1024`. -/
theorem fold_max_reblock_8_1024 (f : Fin 8192 → EReal) :
    Finset.univ.fold max ⊥ f =
      Finset.univ.fold max ⊥ fun j : Fin 8 => Finset.univ.fold max ⊥ fun c : Fin 1024 =>
        f ⟨j.val * 1024 + c.val, by omega⟩ :=
  fold_max_reblock (B := 8) (K := 1024) f

/-! ## The closing identity -/

/-- For real `M`, `n` and positive real `L`: `(M + log L) - n = -((n - M) - log L)` as extended reals;
    the logarithm of a positive real is real, so all of it is real arithmetic. -/
theorem closing_identity (M n L : ℝ) (hL : 0 < L) :
    ((M : EReal) + Ideal.log (L : EReal)) - (n : EReal) =
      -(((n : EReal) - (M : EReal)) - Ideal.log (L : EReal)) := by
  rw [Ideal.log_coe, if_neg (not_le.mpr hL)]
  rw [← EReal.coe_add, ← EReal.coe_sub, ← EReal.coe_sub, ← EReal.coe_sub, ← EReal.coe_neg]
  congr 1
  ring

/-! ## The one-pass form, and the blocked computation against it -/

/-- The one-pass softmax denominators: for a finite family with no `⊤` entry and some entry other
    than `⊥`, the maximum `Mw` (the fold of `max` from `⊥`) is real, every entry is `≤ Mw`, some entry
    equals `Mw`, and `∑ e^(w i - Mw)` is a positive real. -/
theorem onepass_spec {ι : Type*} [Fintype ι] (w : ι → EReal)
    (htop : ∀ i, w i ≠ ⊤) (hbot : ∃ i, w i ≠ ⊥) :
    ∃ Mw : ℝ, Finset.univ.fold max ⊥ w = (Mw : EReal) ∧ (∀ i, w i ≤ (Mw : EReal)) ∧
      (∃ i, w i = (Mw : EReal)) ∧
      ∃ L : ℝ, 0 < L ∧ ∑ i, Ideal.exp (w i - (Mw : EReal)) = (L : EReal) := by
  obtain ⟨Mw, hM, hle, i0, hi0⟩ := exists_real_max w htop hbot
  refine ⟨Mw, hM, hle, ⟨i0, hi0⟩, ∑ i, expShift (w i) Mw, ?_, ?_⟩
  · refine Finset.sum_pos' (fun i _ => expShift_nonneg _ _) ⟨i0, Finset.mem_univ _, ?_⟩
    exact expShift_pos (by rw [hi0]; exact EReal.coe_ne_bot Mw) Mw
  · rw [coe_finset_sum]
    exact Finset.sum_congr rfl fun i _ => exp_sub_coe (htop i) Mw

/-- **Blocked against one-pass.**  Let `w` be a row of `B · K` entries, none `⊤`, each of its `B ≥ 1`
    blocks of `K` having an entry other than `⊥`, and let `v j c = w (j · K + c)` for `j < B`.  Then the
    online computation over the `B` blocks ends in the one-pass maximum `Mw` of the whole row (a real)
    and the one-pass sum `∑ e^(w i - Mw)` (a positive real). -/
theorem run_eq_onepass {B K : ℕ} (hB : 1 ≤ B) (w : Fin (B * K) → EReal)
    (v : ℕ → Fin K → EReal)
    (hv : ∀ (j : Fin B) (c : Fin K), v j.val c = w ⟨j.val * K + c.val, reblock_lt j c⟩)
    (htop : ∀ i, w i ≠ ⊤)
    (hbot : ∀ j : Fin B, ∃ c : Fin K, w ⟨j.val * K + c.val, reblock_lt j c⟩ ≠ ⊥) :
    ∃ Mw L : ℝ, 0 < L ∧ Finset.univ.fold max ⊥ w = (Mw : EReal) ∧
      (run v B).1 = (Mw : EReal) ∧
      (run v B).2 = ∑ i, Ideal.exp (w i - (Mw : EReal)) ∧
      (run v B).2 = (L : EReal) := by
  have htop' : ∀ j < B, ∀ c, v j c ≠ ⊤ := fun j hj c => by
    rw [hv ⟨j, hj⟩ c]; exact htop _
  have hbot' : ∀ j < B, ∃ c, v j c ≠ ⊥ := fun j hj => by
    obtain ⟨c, hc⟩ := hbot ⟨j, hj⟩
    exact ⟨c, by rw [hv ⟨j, hj⟩ c]; exact hc⟩
  obtain ⟨M, h1, hle, ⟨j0, hj0, c0, hc0⟩, h2, L, hL, h3⟩ := run_spec v B hB htop' hbot'
  have hMw : Finset.univ.fold max ⊥ w = (M : EReal) := by
    rw [fold_max_eq_sup, sup_reblock]
    apply le_antisymm
    · refine Finset.sup_le fun j _ => Finset.sup_le fun c _ => ?_
      rw [← hv j c]; exact hle j.val j.isLt c
    · rw [← hc0, hv ⟨j0, hj0⟩ c0]
      exact le_trans
        (Finset.le_sup (f := fun c : Fin K => w ⟨j0 * K + c.val, reblock_lt ⟨j0, hj0⟩ c⟩)
          (Finset.mem_univ c0))
        (Finset.le_sup (f := fun j : Fin B => Finset.univ.sup fun c : Fin K =>
          w ⟨j.val * K + c.val, reblock_lt j c⟩) (Finset.mem_univ ⟨j0, hj0⟩))
  refine ⟨M, L, hL, hMw, h1, ?_, h3⟩
  rw [h2, sum_reblock (fun i => Ideal.exp (w i - (M : EReal))),
    Finset.sum_range (fun j => ∑ c, Ideal.exp (v j c - (M : EReal)))]
  refine Finset.sum_congr rfl fun j _ => Finset.sum_congr rfl fun c _ => ?_
  rw [hv j c]

/-- `8192 = 8 · 1024`: the online computation over eight blocks of `1024` against the one-pass one. -/
theorem run_eq_onepass_8_1024 (w : Fin 8192 → EReal) (v : ℕ → Fin 1024 → EReal)
    (hv : ∀ (j : Fin 8) (c : Fin 1024), v j.val c = w ⟨j.val * 1024 + c.val, by omega⟩)
    (htop : ∀ i, w i ≠ ⊤)
    (hbot : ∀ j : Fin 8, ∃ c : Fin 1024, w ⟨j.val * 1024 + c.val, by omega⟩ ≠ ⊥) :
    ∃ Mw L : ℝ, 0 < L ∧ Finset.univ.fold max ⊥ w = (Mw : EReal) ∧
      (run v 8).1 = (Mw : EReal) ∧
      (run v 8).2 = ∑ i, Ideal.exp (w i - (Mw : EReal)) ∧
      (run v 8).2 = (L : EReal) :=
  run_eq_onepass (B := 8) (K := 1024) (by norm_num) w v hv htop hbot

end OnlineSoftmax
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.KPay.lean ====
import proofs.«103424_j20255065768459_2_alg».proof.Proof.Gen.KernelIdeal.Skeleton
import proofs.«103424_j20255065768459_2_alg».proof.Proof.LibGram
import proofs.«103424_j20255065768459_2_alg».proof.Proof.LibRowOps
import proofs.«103424_j20255065768459_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The f32 word 0x40000000 is two. -/
theorem ofBits_two_f32 : Ideal.ofBits .f32 0x40000000#32 = (2 : EReal) := by
  rw [show (2 : EReal) = ((2 : ℝ) : EReal) by norm_cast]
  simp [Ideal.ofBits, Ideal.ieee, -EReal.coe_mul]; norm_num

/-- The f32 word of −∞ is the extended real ⊥. -/
theorem ofBits_negInf_f32 : Ideal.ofBits .f32 0xFF800000#32 = (⊥ : EReal) := by simp [Ideal.ofBits, Ideal.ieee]

/-- The scaled similarity of row p of the row block and row q of the column block: twice their inner product. -/
def sc (x0 x1 : Vec Ideal S1024x256 .bf16) (p q : Fin 1024) : EReal :=
  (∑ k : Fin 256, x0 (ix2 p k) * x1 (ix2 q k)) * 2

theorem lhs_0 (i : S1024x1024.Idx) (c : dot_S1024x256_S256x1024_S1024x1024_1_0_0_1_n_n.contr.Idx) :
    (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_1 (i : S1024x1024.Idx) (c : dot_S1024x256_S256x1024_S1024x1024_1_0_0_1_n_n.contr.Idx) :
    (dot_S1024x256_S256x1024_S1024x1024_1_0_0_1_n_n.lhsIdx i c 1).val = (c ⟨0, by decide⟩).val :=
  dot_S1024x256_S256x1024_S1024x1024_1_0_0_1_n_n.lhsIdx_val_of_single rfl i c
theorem rhs_0 (i : S1024x1024.Idx) (c : dot_S1024x256_S256x1024_S1024x1024_1_0_0_1_n_n.contr.Idx) :
    (dot_S1024x256_S256x1024_S1024x1024_1_0_0_1_n_n.rhsIdx i c 0).val = (c ⟨0, by decide⟩).val :=
  dot_S1024x256_S256x1024_S1024x1024_1_0_0_1_n_n.rhsIdx_val_of_single rfl i c
theorem rhs_1 (i : S1024x1024.Idx) (c : dot_S1024x256_S256x1024_S1024x1024_1_0_0_1_n_n.contr.Idx) :
    (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The matrix product of the row block with the transposed column block, read at (p, q): the inner product of
    row p and row q. -/
theorem gram_apply (x0 x1 : FVec Ideal S1024x256 .bf16) (p q : Fin 1024) :
    matmul dot_S1024x256_S256x1024_S1024x1024_1_0_0_1_n_n none x0
        (transpose S256x1024 [1, 0] x1 transposes_S1024x256_p1_0_S256x1024) (constant S1024x1024 .f32 0x00000000#32) (ix2 p q)
      = ∑ k : Fin 256, x0 (ix2 p k) * x1 (ix2 q k) := by
  refine (Cert.Lib.Gram.matmul_zero_single_apply dot_S1024x256_S256x1024_S1024x1024_1_0_0_1_n_n 256 rfl rfl none x0 _ (ix2 p q)
    (fun c => ix2 p c) (fun c => ix2 c q) (fun c => ?_) (fun c => ?_)).trans ?_
  · have hk := contrEquiv1_symm_val dot_S1024x256_S256x1024_S1024x1024_1_0_0_1_n_n 256 rfl rfl c
    exact funext fun a => Fin.ext (by
      match a with
      | ⟨0, _⟩ => exact lhs_0 _ _
      | ⟨1, _⟩ => exact (lhs_1 _ _).trans hk)
  · have hk := contrEquiv1_symm_val dot_S1024x256_S256x1024_S1024x1024_1_0_0_1_n_n 256 rfl rfl c
    exact funext fun a => Fin.ext (by
      match a with
      | ⟨0, _⟩ => exact (rhs_0 _ _).trans hk
      | ⟨1, _⟩ => exact rhs_1 _ _)
  · refine Finset.sum_congr rfl fun c _ => congrArg (x0 (ix2 p c) * ·) ?_
    exact transpose_apply [1, 0] x1 transposes_S1024x256_p1_0_S256x1024 (ix2 c q) (ix2 q c) (fun b => match b with
      | ⟨0, _⟩ => rfl
      | ⟨1, _⟩ => rfl)

/-- The block of scaled similarities as one term: the matrix product times the splat of two. -/
theorem pay4_eq (x0 x1 : Vec Ideal S1024x256 .bf16) :
    k0_pay4 (F := Ideal) x0 x1
      = mulf (matmul (φ₁ := .bf16) (φ₂ := .bf16) dot_S1024x256_S256x1024_S1024x1024_1_0_0_1_n_n none x0
          (transpose S256x1024 [1, 0] (x1 : FVec Ideal S1024x256 .bf16) transposes_S1024x256_p1_0_S256x1024) (constant S1024x1024 .f32 0x00000000#32))
        (broadcast S1024x1024 (Scalar.ofBits .f32 0x40000000#32)) := by
  unfold Gen.k0_pay4
  simp only [shapeCast_self]

/-- The block of scaled similarities read at (p, q). -/
theorem pay4_apply (x0 x1 : Vec Ideal S1024x256 .bf16) (p q : Fin 1024) :
    k0_pay4 (F := Ideal) x0 x1 (ix2 p q) = sc x0 x1 p q := by
  rw [pay4_eq]
  refine (mulf_apply _ _ _).trans ?_
  rw [gram_apply]
  exact congrArg ((∑ k : Fin 256, x0 (ix2 p k) * x1 (ix2 q k)) * ·) ofBits_two_f32

/-- The running row maximum after the block as one term. -/
theorem pay10_eq (x0 x1 : Vec Ideal S1024x256 .bf16) (m : Vec Ideal S1024x1 .f32) :
    k0_pay10 (F := Ideal) x0 x1 m
      = maximumf (m : FVec Ideal S1024x1 .f32) (shapeCast S1024x1 (multiReduction (F := Ideal) .maximumf [1] S1024 (k0_pay4 (F := Ideal) x0 x1)
          0xFF800000#32 reduces_S1024x1024_S1024 (.inl rfl) rfl) shapeCasts_S1024_S1024x1) := rfl

/-- The block's row maximum of an array of logits, read at row p. -/
theorem rowMax_apply (s : FVec Ideal S1024x1024 .f32) (p : Fin 1024) :
    shapeCast S1024x1 (multiReduction (F := Ideal) .maximumf [1] S1024 s 0xFF800000#32 reduces_S1024x1024_S1024 (.inl rfl) rfl)
        shapeCasts_S1024_S1024x1 (ix2 p (0 : Fin 1))
      = Finset.univ.fold max (⊥ : EReal) fun q : Fin 1024 => s (ix2 p q) := by
  refine (Cert.Lib.Gram.shapeCast_a_a1_apply _ _ p 0).trans ?_
  refine (Cert.Lib.RowMax.laneMax_apply s _ _ _ p).trans ?_
  rw [ofBits_negInf_f32]

/-- The running row maximum after the block, read at row p: the maximum of the carried one and the block's row maximum. -/
theorem pay10_apply (x0 x1 : Vec Ideal S1024x256 .bf16) (m : Vec Ideal S1024x1 .f32) (p : Fin 1024) :
    k0_pay10 (F := Ideal) x0 x1 m (ix2 p (0 : Fin 1))
      = max (m (ix2 p (0 : Fin 1))) (Finset.univ.fold max (⊥ : EReal) fun q : Fin 1024 => sc x0 x1 p q) := by
  rw [pay10_eq]
  refine (maximumf_apply _ _ _).trans ?_
  rw [rowMax_apply]
  exact congrArg (fun f => max (m (ix2 p (0 : Fin 1))) ((Finset.univ : Finset (Fin 1024)).fold max (⊥ : EReal) f))
    (funext fun q => pay4_apply x0 x1 p q)

/-- A row sum of an array from the zero word, cast to a column, read at row p. -/
theorem rowSum_apply (s : FVec Ideal S1024x1024 .f32) (p : Fin 1024) :
    shapeCast S1024x1 (multiReduction (F := Ideal) .add [1] S1024 s 0x00000000#32 reduces_S1024x1024_S1024 (.inl rfl) rfl)
        shapeCasts_S1024_S1024x1 (ix2 p (0 : Fin 1))
      = ∑ q : Fin 1024, s (ix2 p q) := by
  refine (Cert.Lib.Gram.shapeCast_a_a1_apply _ _ p 0).trans ?_
  exact Cert.Lib.RowOps.laneSum_apply s _ _ _ p

/-- ONE STEP OF THE RUNNING SUM OF EXPONENTIALS, read at row p: the carried sum rescaled to the new maximum M plus the
    block's exponentials shifted by M. -/
theorem sumStep_apply (s : FVec Ideal S1024x1024 .f32) (M m' l : FVec Ideal S1024x1 .f32) (p : Fin 1024) :
    shapeCast S1024x1 (addf (mulf (exp (subf m' M)) l)
        (shapeCast S1024x1 (multiReduction (F := Ideal) .add [1] S1024
          (exp (subf s (broadcastTo S1024x1024 M broadcasts_S1024x1_S1024x1024))) 0x00000000#32 reduces_S1024x1024_S1024 (.inl rfl) rfl)
          shapeCasts_S1024_S1024x1)) shapeCasts_S1024x1_S1024x1 (ix2 p (0 : Fin 1))
      = Ideal.exp (m' (ix2 p (0 : Fin 1)) - M (ix2 p (0 : Fin 1))) * l (ix2 p (0 : Fin 1))
        + ∑ q : Fin 1024, Ideal.exp (s (ix2 p q) - M (ix2 p (0 : Fin 1))) := by
  rw [shapeCast_self]
  refine (addf_apply _ _ _).trans ?_
  rw [rowSum_apply]
  refine congrArg (Ideal.exp (m' (ix2 p (0 : Fin 1)) - M (ix2 p (0 : Fin 1))) * l (ix2 p (0 : Fin 1)) + ·) ?_
  refine Finset.sum_congr rfl fun q _ => ?_
  show Ideal.exp (s (ix2 p q) - broadcastTo S1024x1024 M broadcasts_S1024x1_S1024x1024 (ix2 p q)) = _
  rw [Cert.Lib.RowOps.broadcastTo_a1_ab_apply]

/-- The running sum after the block as one term. -/
theorem pay11_eq (x0 x1 : Vec Ideal S1024x256 .bf16) (m m' l : Vec Ideal S1024x1 .f32) :
    k0_pay11 (F := Ideal) x0 x1 m m' l
      = shapeCast S1024x1 (addf (mulf (exp (subf (m' : FVec Ideal S1024x1 .f32) (k0_pay10 (F := Ideal) x0 x1 m))) l)
        (shapeCast S1024x1 (multiReduction (F := Ideal) .add [1] S1024
          (exp (subf (k0_pay4 (F := Ideal) x0 x1) (broadcastTo S1024x1024 (k0_pay10 (F := Ideal) x0 x1 m) broadcasts_S1024x1_S1024x1024)))
          0x00000000#32 reduces_S1024x1024_S1024 (.inl rfl) rfl)
          shapeCasts_S1024_S1024x1)) shapeCasts_S1024x1_S1024x1 := rfl

/-- The running sum after the block, read at row p (m carried into the maximum, m' the maximum the carried sum l was
    taken at; the kernel passes the same array for both). -/
theorem pay11_apply (x0 x1 : Vec Ideal S1024x256 .bf16) (m m' l : Vec Ideal S1024x1 .f32) (p : Fin 1024) :
    k0_pay11 (F := Ideal) x0 x1 m m' l (ix2 p (0 : Fin 1))
      = Ideal.exp (m' (ix2 p (0 : Fin 1)) - k0_pay10 (F := Ideal) x0 x1 m (ix2 p (0 : Fin 1))) * l (ix2 p (0 : Fin 1))
        + ∑ q : Fin 1024, Ideal.exp (sc x0 x1 p q - k0_pay10 (F := Ideal) x0 x1 m (ix2 p (0 : Fin 1))) := by
  rw [pay11_eq]
  refine (sumStep_apply (k0_pay4 (F := Ideal) x0 x1) (k0_pay10 (F := Ideal) x0 x1 m) m' l p).trans ?_
  refine congrArg (Ideal.exp (m' (ix2 p (0 : Fin 1)) - k0_pay10 (F := Ideal) x0 x1 m (ix2 p (0 : Fin 1))) * l (ix2 p (0 : Fin 1)) + ·) ?_
  exact Finset.sum_congr rfl fun q _ => by rw [pay4_apply]

/-! ## The diagonal block: the self-similarities masked -/

/-- A select on "word of p = word of q" for coordinates below 1024 is the `if` on p = q. -/
theorem select_eq_fin {α : Type} (p q : Fin 1024) (A B : α) :
    Scalar.select (IntOp.cmpi .eq (BitVec.ofNat 32 p.val) (BitVec.ofNat 32 q.val)) A B = if p = q then A else B := by
  by_cases h : p = q
  · rw [if_pos h, h, (IntOp.cmpi_eq).2 rfl]; exact select_one A B
  · rw [if_neg h]
    have hne : ¬ IntOp.cmpi .eq (BitVec.ofNat 32 p.val) (BitVec.ofNat 32 q.val) = 1#1 := fun hh => h (Fin.ext (by
      have := congrArg BitVec.toNat ((IntOp.cmpi_eq).1 hh)
      simp only [BitVec.toNat_ofNat] at this
      omega))
    rw [eq_zero_of_ne_one hne]; exact select_zero A B

/-- The named constant of the mask is −∞ at the ideal values. -/
theorem neg_big : Named.named (F := Ideal) Cert.KernelIdeal.κ "neg_big" (φ := .f32) 0xFF333332#32 = (⊥ : EReal) :=
  IdealRules.named_const.ideal_named_scalar _ _ _ _ rfl

/-- The masked scaled similarity: −∞ on the diagonal. -/
def msc (x0 x1 : Vec Ideal S1024x256 .bf16) (p q : Fin 1024) : EReal := if p = q then ⊥ else sc x0 x1 p q

/-- The masked block as one term. -/
theorem pay6_eq (x0 x1 : Vec Ideal S1024x256 .bf16) :
    k0_pay6 (F := Ideal) x0 x1
      = select (cmpi .eq (iota .tc S1024x1024 32 [0] iota_S1024x1024_d0_w32) (iota .tc S1024x1024 32 [1] iota_S1024x1024_d1_w32))
          (broadcast S1024x1024 (Named.named (F := Ideal) Cert.KernelIdeal.κ "neg_big" (φ := .f32) 0xFF333332#32))
          (k0_pay4 (F := Ideal) x0 x1) := rfl

/-- The masked block read at (p, q). -/
theorem pay6_apply (x0 x1 : Vec Ideal S1024x256 .bf16) (p q : Fin 1024) :
    k0_pay6 (F := Ideal) x0 x1 (ix2 p q) = msc x0 x1 p q := by
  rw [pay6_eq]
  show Scalar.select (IntOp.cmpi .eq (iota .tc S1024x1024 32 [0] iota_S1024x1024_d0_w32 (ix2 p q))
      (iota .tc S1024x1024 32 [1] iota_S1024x1024_d1_w32 (ix2 p q)))
    (Named.named (F := Ideal) Cert.KernelIdeal.κ "neg_big" (φ := .f32) 0xFF333332#32) (k0_pay4 (F := Ideal) x0 x1 (ix2 p q)) = _
  rw [iota_single_apply, iota_single_apply, neg_big, pay4_apply]
  exact select_eq_fin p q _ _

/-- The running row maximum after the diagonal block as one term. -/
theorem pay7_eq (x0 x1 : Vec Ideal S1024x256 .bf16) (m : Vec Ideal S1024x1 .f32) :
    k0_pay7 (F := Ideal) x0 x1 m
      = maximumf (m : FVec Ideal S1024x1 .f32) (shapeCast S1024x1 (multiReduction (F := Ideal) .maximumf [1] S1024 (k0_pay6 (F := Ideal) x0 x1)
          0xFF800000#32 reduces_S1024x1024_S1024 (.inl rfl) rfl) shapeCasts_S1024_S1024x1) := rfl

/-- The running row maximum after the diagonal block, read at row p. -/
theorem pay7_apply (x0 x1 : Vec Ideal S1024x256 .bf16) (m : Vec Ideal S1024x1 .f32) (p : Fin 1024) :
    k0_pay7 (F := Ideal) x0 x1 m (ix2 p (0 : Fin 1))
      = max (m (ix2 p (0 : Fin 1))) (Finset.univ.fold max (⊥ : EReal) fun q : Fin 1024 => msc x0 x1 p q) := by
  rw [pay7_eq]
  refine (maximumf_apply _ _ _).trans ?_
  rw [rowMax_apply]
  exact congrArg (fun f => max (m (ix2 p (0 : Fin 1))) ((Finset.univ : Finset (Fin 1024)).fold max (⊥ : EReal) f))
    (funext fun q => pay6_apply x0 x1 p q)

/-- The running sum after the diagonal block as one term. -/
theorem pay8_eq (x0 x1 : Vec Ideal S1024x256 .bf16) (m m' l : Vec Ideal S1024x1 .f32) :
    k0_pay8 (F := Ideal) x0 x1 m m' l
      = shapeCast S1024x1 (addf (mulf (exp (subf (m' : FVec Ideal S1024x1 .f32) (k0_pay7 (F := Ideal) x0 x1 m))) l)
        (shapeCast S1024x1 (multiReduction (F := Ideal) .add [1] S1024
          (exp (subf (k0_pay6 (F := Ideal) x0 x1) (broadcastTo S1024x1024 (k0_pay7 (F := Ideal) x0 x1 m) broadcasts_S1024x1_S1024x1024)))
          0x00000000#32 reduces_S1024x1024_S1024 (.inl rfl) rfl)
          shapeCasts_S1024_S1024x1)) shapeCasts_S1024x1_S1024x1 := rfl

/-- The running sum after the diagonal block, read at row p. -/
theorem pay8_apply (x0 x1 : Vec Ideal S1024x256 .bf16) (m m' l : Vec Ideal S1024x1 .f32) (p : Fin 1024) :
    k0_pay8 (F := Ideal) x0 x1 m m' l (ix2 p (0 : Fin 1))
      = Ideal.exp (m' (ix2 p (0 : Fin 1)) - k0_pay7 (F := Ideal) x0 x1 m (ix2 p (0 : Fin 1))) * l (ix2 p (0 : Fin 1))
        + ∑ q : Fin 1024, Ideal.exp (msc x0 x1 p q - k0_pay7 (F := Ideal) x0 x1 m (ix2 p (0 : Fin 1))) := by
  rw [pay8_eq]
  refine (sumStep_apply (k0_pay6 (F := Ideal) x0 x1) (k0_pay7 (F := Ideal) x0 x1 m) m' l p).trans ?_
  refine congrArg (Ideal.exp (m' (ix2 p (0 : Fin 1)) - k0_pay7 (F := Ideal) x0 x1 m (ix2 p (0 : Fin 1))) * l (ix2 p (0 : Fin 1)) + ·) ?_
  exact Finset.sum_congr rfl fun q _ => by rw [pay6_apply]

/-! ## The remaining payloads -/

/-- The row's log-sum-exp: the maximum plus the logarithm of the sum. -/
theorem pay13_apply (a b : Vec Ideal S1024x1 .f32) (p : Fin 1024) :
    k0_pay13 (F := Ideal) a b (ix2 p (0 : Fin 1)) = a (ix2 p (0 : Fin 1)) + Ideal.log (b (ix2 p (0 : Fin 1))) := rfl

/-- The initial running maximum is −∞. -/
theorem pay1_apply (p : Fin 1024) : k0_pay1 (F := Ideal) (ix2 p (0 : Fin 1)) = (⊥ : EReal) := by
  unfold Gen.k0_pay1
  simp only [shapeCast_self]
  exact ofBits_negInf_f32

/-- The initial running sum is zero. -/
theorem pay2_apply (p : Fin 1024) : k0_pay2 (F := Ideal) (ix2 p (0 : Fin 1)) = (0 : EReal) := by
  unfold Gen.k0_pay2
  simp only [shapeCast_self]
  exact Ideal.ofBits_zero_f32

/-- The initial positive-pair entry is zero. -/
theorem pay3_apply (p : Fin 1024) : k0_pay3 (F := Ideal) (ix2 p (0 : Fin 1)) = (0 : EReal) := by
  unfold Gen.k0_pay3
  simp only [shapeCast_self]
  exact Ideal.ofBits_zero_f32

/-- The stored running maximum after the diagonal block is the running maximum. -/
theorem pay9_eq (x0 x1 : Vec Ideal S1024x256 .bf16) (m : Vec Ideal S1024x1 .f32) :
    k0_pay9 (F := Ideal) x0 x1 m = k0_pay7 (F := Ideal) x0 x1 m := by
  unfold Gen.k0_pay9
  exact shapeCast_self _ _

/-- The stored running maximum after the block is the running maximum. -/
theorem pay12_eq (x0 x1 : Vec Ideal S1024x256 .bf16) (m : Vec Ideal S1024x1 .f32) :
    k0_pay12 (F := Ideal) x0 x1 m = k0_pay10 (F := Ideal) x0 x1 m := by
  unfold Gen.k0_pay12
  exact shapeCast_self _ _

/-! ## The positive pair: column p xor 1 of row p -/

/-- The partner of a coordinate below 1024 is below 1024. -/
theorem xor_one_lt {n : Nat} (h : n < 1024) : n ^^^ 1 < 1024 :=
  Nat.xor_lt_two_pow (n := 10) h (by decide)

/-- A select on "word of q = (word of p) xor 1" for coordinates below 1024 is the `if` on q = p xor 1. -/
theorem select_partner {α : Type} (p q : Fin 1024) (A B : α) :
    Scalar.select (IntOp.cmpi .eq (BitVec.ofNat 32 q.val) (IntOp.xori (BitVec.ofNat 32 p.val) 1#32)) A B
      = if q.val = p.val ^^^ 1 then A else B := by
  have hx := xor_one_lt p.isLt
  have hw : (IntOp.xori (BitVec.ofNat 32 p.val) 1#32).toNat = p.val ^^^ 1 := by
    show (BitVec.ofNat 32 p.val ^^^ 1#32).toNat = _
    rw [BitVec.toNat_xor, BitVec.toNat_ofNat, Nat.mod_eq_of_lt (by omega)]
    rfl
  by_cases h : q.val = p.val ^^^ 1
  · rw [if_pos h]
    have e : BitVec.ofNat 32 q.val = IntOp.xori (BitVec.ofNat 32 p.val) 1#32 :=
      BitVec.eq_of_toNat_eq (by rw [hw, BitVec.toNat_ofNat, Nat.mod_eq_of_lt (by omega)]; exact h)
    rw [(IntOp.cmpi_eq).2 e]; exact select_one A B
  · rw [if_neg h]
    have hne : ¬ IntOp.cmpi .eq (BitVec.ofNat 32 q.val) (IntOp.xori (BitVec.ofNat 32 p.val) 1#32) = 1#1 := fun hh => h (by
      have := congrArg BitVec.toNat ((IntOp.cmpi_eq).1 hh)
      rw [hw, BitVec.toNat_ofNat, Nat.mod_eq_of_lt (by omega)] at this
      exact this)
    rw [eq_zero_of_ne_one hne]; exact select_zero A B

/-- The positive-pair entry as one term. -/
theorem pay5_eq (x0 x1 : Vec Ideal S1024x256 .bf16) :
    k0_pay5 (F := Ideal) x0 x1
      = shapeCast S1024x1 (shapeCast S1024x1 (multiReduction (F := Ideal) .add [1] S1024
          (select (cmpi .eq (iota .tc S1024x1024 32 [1] iota_S1024x1024_d1_w32)
              (xori (iota .tc S1024x1024 32 [0] iota_S1024x1024_d0_w32) (broadcast S1024x1024 1#32)))
            (k0_pay4 (F := Ideal) x0 x1) (broadcast S1024x1024 (Scalar.ofBits (F := Ideal) .f32 0x00000000#32)))
          0x00000000#32 reduces_S1024x1024_S1024 (.inl rfl) rfl) shapeCasts_S1024_S1024x1) shapeCasts_S1024x1_S1024x1 := rfl

/-- The positive-pair entry read at row p: the row's scaled similarity at column p xor 1, as a sum over the row. -/
theorem pay5_apply (x0 x1 : Vec Ideal S1024x256 .bf16) (p : Fin 1024) :
    k0_pay5 (F := Ideal) x0 x1 (ix2 p (0 : Fin 1))
      = ∑ q : Fin 1024, (if q.val = p.val ^^^ 1 then sc x0 x1 p q else 0) := by
  rw [pay5_eq, shapeCast_self, rowSum_apply]
  refine Finset.sum_congr rfl fun q _ => ?_
  show Scalar.select (IntOp.cmpi .eq (iota .tc S1024x1024 32 [1] iota_S1024x1024_d1_w32 (ix2 p q))
      (IntOp.xori (iota .tc S1024x1024 32 [0] iota_S1024x1024_d0_w32 (ix2 p q)) 1#32))
    (k0_pay4 (F := Ideal) x0 x1 (ix2 p q)) (Ideal.ofBits .f32 0x00000000#32) = _
  rw [iota_single_apply, iota_single_apply, pay4_apply, Ideal.ofBits_zero_f32]
  exact select_partner p q _ _

/-- Row p's positive pair inside the block: p xor 1. -/
def partner (p : Fin 1024) : Fin 1024 := ⟨p.val ^^^ 1, xor_one_lt p.isLt⟩

/-- The positive-pair entry read at row p, the sum collapsed: the scaled similarity of row p and row p xor 1. -/
theorem pay5_apply_partner (x0 x1 : Vec Ideal S1024x256 .bf16) (p : Fin 1024) :
    k0_pay5 (F := Ideal) x0 x1 (ix2 p (0 : Fin 1)) = sc x0 x1 p (partner p) := by
  rw [pay5_apply]
  have hc : ∀ q : Fin 1024, (q.val = p.val ^^^ 1) = (q = partner p) := fun q =>
    propext ⟨fun h => Fin.ext h, fun h => by rw [h]; rfl⟩
  simp only [hc]
  rw [Finset.sum_ite_eq' Finset.univ (partner p) (fun q => sc x0 x1 p q), if_pos (Finset.mem_univ _)]

end Cert.KernelIdeal.Pay

end
-- ==== Proof.KStep.lean ====
import proofs.«103424_j20255065768459_2_alg».proof.Proof.KBody
import proofs.«103424_j20255065768459_2_alg».proof.Proof.LibOnlineSoftmax
import proofs.«103424_j20255065768459_2_alg».proof.Proof.KPay
import Idealize.ShloMosaic.Lib.ValueIdx

/-!
# One grid point as one step of the online softmax, row by row

At a grid point the kernel updates three carried columns (running row maximum, running row sum of
exponentials, positive-pair logit) from the block of scaled similarities `sc p q` of the row block
against the column block.  Read at one row `p`, the first two columns make exactly one update of the
online softmax over that row's `1024` entries in this column block — with the diagonal entry masked
to `⊥` when the block is the diagonal one, and from the start state `(⊥, 0)` when the block is the
first of its row.  The third column takes, on the diagonal block, the row's entry at the partner
column `p xor 1`.
-/

noncomputable section

namespace Cert.KernelIdeal.Step

open Cert.KernelIdeal Cert.KernelIdeal.Gen Cert.KernelIdeal.Hand Cert.KernelIdeal.Pay
open Idealize.ShloMosaic Idealize.ShloMosaic.ValueIdx
open scoped BigOperators

variable (x0 x1 : Vec Ideal S1024x256 .bf16)

/-- Row `p`'s entries in this column block: the scaled similarities `sc p q`, with the diagonal entry
    `q = p` masked to `⊥` (`msc`) when `d` holds (the block is the diagonal one). -/
def vrow (d : Prop) [Decidable d] (p : Fin 1024) : Fin 1024 → EReal :=
  fun q => if d then msc x0 x1 p q else sc x0 x1 p q

theorem vrow_of_pos {d : Prop} [Decidable d] (h : d) (p : Fin 1024) :
    vrow x0 x1 d p = fun q => msc x0 x1 p q := by
  funext q; unfold vrow; rw [if_pos h]

theorem vrow_of_neg {d : Prop} [Decidable d] (h : ¬ d) (p : Fin 1024) :
    vrow x0 x1 d p = fun q => sc x0 x1 p q := by
  funext q; unfold vrow; rw [if_neg h]

/-- The same entries with the mask written out: `⊥` where the block is the diagonal one and `q = p`. -/
theorem vrow_apply (d : Prop) [Decidable d] (p q : Fin 1024) :
    vrow x0 x1 d p q = if d ∧ p = q then ⊥ else sc x0 x1 p q := by
  unfold vrow msc
  by_cases h : d
  · by_cases hpq : p = q
    · rw [if_pos h, if_pos hpq, if_pos ⟨h, hpq⟩]
    · rw [if_pos h, if_neg hpq, if_neg (fun hh => hpq hh.2)]
  · rw [if_neg h, if_neg (fun hh => h hh.1)]

/-- The masked update read at row `p`: one online-softmax step over the masked row. -/
theorem diag_pair (m l : Vec Ideal S1024x1 .f32) (p : Fin 1024) :
    (k0_pay9 x0 x1 m (ix2 p (0 : Fin 1)), k0_pay8 x0 x1 m m l (ix2 p (0 : Fin 1)))
      = OnlineSoftmax.step (fun q : Fin 1024 => msc x0 x1 p q)
          (m (ix2 p (0 : Fin 1)), l (ix2 p (0 : Fin 1))) := by
  rw [pay8_apply, pay9_eq, pay7_apply]
  rfl

/-- The plain update read at row `p`: one online-softmax step over the row. -/
theorem off_pair (m l : Vec Ideal S1024x1 .f32) (p : Fin 1024) :
    (k0_pay12 x0 x1 m (ix2 p (0 : Fin 1)), k0_pay11 x0 x1 m m l (ix2 p (0 : Fin 1)))
      = OnlineSoftmax.step (fun q : Fin 1024 => sc x0 x1 p q)
          (m (ix2 p (0 : Fin 1)), l (ix2 p (0 : Fin 1))) := by
  rw [pay11_apply, pay12_eq, pay10_apply]
  rfl

/-- The grid point's effect when the block is the diagonal one. -/
theorem stepS_diag (i : grid0.Coords) (h2 : c2 i) (h3 : ¬ c3 i) (s : St Ideal) :
    stepS i x0 x1 s =
      (k0_pay9 x0 x1 (if c1 i then (k0_pay1 (F := Ideal), k0_pay2 (F := Ideal), k0_pay3 (F := Ideal)) else s).1,
       k0_pay8 x0 x1 (if c1 i then (k0_pay1 (F := Ideal), k0_pay2 (F := Ideal), k0_pay3 (F := Ideal)) else s).1
         (if c1 i then (k0_pay1 (F := Ideal), k0_pay2 (F := Ideal), k0_pay3 (F := Ideal)) else s).1
         (if c1 i then (k0_pay1 (F := Ideal), k0_pay2 (F := Ideal), k0_pay3 (F := Ideal)) else s).2.1,
       k0_pay5 x0 x1) := by
  unfold stepS
  simp only [if_pos h2, if_neg h3]

/-- The grid point's effect when the block is off the diagonal. -/
theorem stepS_off (i : grid0.Coords) (h2 : ¬ c2 i) (h3 : c3 i) (s : St Ideal) :
    stepS i x0 x1 s =
      (k0_pay12 x0 x1 (if c1 i then (k0_pay1 (F := Ideal), k0_pay2 (F := Ideal), k0_pay3 (F := Ideal)) else s).1,
       k0_pay11 x0 x1 (if c1 i then (k0_pay1 (F := Ideal), k0_pay2 (F := Ideal), k0_pay3 (F := Ideal)) else s).1
         (if c1 i then (k0_pay1 (F := Ideal), k0_pay2 (F := Ideal), k0_pay3 (F := Ideal)) else s).1
         (if c1 i then (k0_pay1 (F := Ideal), k0_pay2 (F := Ideal), k0_pay3 (F := Ideal)) else s).2.1,
       (if c1 i then (k0_pay1 (F := Ideal), k0_pay2 (F := Ideal), k0_pay3 (F := Ideal)) else s).2.2) := by
  unfold stepS
  simp only [if_neg h2, if_pos h3]

/-- The first two carried columns at row `p`, from any entry columns `m`, `l` the point starts from
    (the carried ones, or the reset ones): one online-softmax step over the row's entries. -/
theorem pair_of_start (i : grid0.Coords) (h23 : c3 i ↔ ¬ c2 i) (s : St Ideal) (p : Fin 1024) :
    ((stepS i x0 x1 s).1 (ix2 p (0 : Fin 1)), (stepS i x0 x1 s).2.1 (ix2 p (0 : Fin 1)))
      = OnlineSoftmax.step (vrow x0 x1 (c2 i) p)
          ((if c1 i then (k0_pay1 (F := Ideal), k0_pay2 (F := Ideal), k0_pay3 (F := Ideal)) else s).1 (ix2 p (0 : Fin 1)),
           (if c1 i then (k0_pay1 (F := Ideal), k0_pay2 (F := Ideal), k0_pay3 (F := Ideal)) else s).2.1 (ix2 p (0 : Fin 1))) := by
  by_cases h2 : c2 i
  · rw [stepS_diag x0 x1 i h2 (fun h3 => (h23.1 h3) h2), vrow_of_pos x0 x1 h2]
    exact diag_pair x0 x1 _ _ p
  · rw [stepS_off x0 x1 i h2 (h23.2 h2), vrow_of_neg x0 x1 h2]
    exact off_pair x0 x1 _ _ p

/-- (S1) Not at the first column block: the step continues from the carried state. -/
theorem pair_of_not_c1 (i : grid0.Coords) (h23 : c3 i ↔ ¬ c2 i) (s : St Ideal) (p : Fin 1024)
    (h1 : ¬ c1 i) :
    ((stepS i x0 x1 s).1 (ix2 p (0 : Fin 1)), (stepS i x0 x1 s).2.1 (ix2 p (0 : Fin 1)))
      = OnlineSoftmax.step (vrow x0 x1 (c2 i) p)
          (s.1 (ix2 p (0 : Fin 1)), s.2.1 (ix2 p (0 : Fin 1))) := by
  rw [pair_of_start x0 x1 i h23 s p, if_neg h1]

/-- (S2) At the first column block: the step starts from `(⊥, 0)`. -/
theorem pair_of_c1 (i : grid0.Coords) (h23 : c3 i ↔ ¬ c2 i) (s : St Ideal) (p : Fin 1024)
    (h1 : c1 i) :
    ((stepS i x0 x1 s).1 (ix2 p (0 : Fin 1)), (stepS i x0 x1 s).2.1 (ix2 p (0 : Fin 1)))
      = OnlineSoftmax.step (vrow x0 x1 (c2 i) p) (⊥, 0) := by
  rw [pair_of_start x0 x1 i h23 s p, if_pos h1]
  show OnlineSoftmax.step (vrow x0 x1 (c2 i) p)
    (k0_pay1 (F := Ideal) (ix2 p (0 : Fin 1)), k0_pay2 (F := Ideal) (ix2 p (0 : Fin 1))) = _
  rw [pay1_apply, pay2_apply]

/-- (S3) The third carried column at row `p`: on the diagonal block the row's entry at the partner
    column, written as a sum with one nonzero term; off it, `0` after a reset and the carried value
    otherwise. -/
theorem third_apply (i : grid0.Coords) (h23 : c3 i ↔ ¬ c2 i) (s : St Ideal) (p : Fin 1024) :
    (stepS i x0 x1 s).2.2 (ix2 p (0 : Fin 1))
      = if c2 i then (∑ q : Fin 1024, if q.val = p.val ^^^ 1 then sc x0 x1 p q else 0)
        else if c1 i then 0 else s.2.2 (ix2 p (0 : Fin 1)) := by
  by_cases h2 : c2 i
  · rw [stepS_diag x0 x1 i h2 (fun h3 => (h23.1 h3) h2), if_pos h2]
    exact pay5_apply x0 x1 p
  · rw [stepS_off x0 x1 i h2 (h23.2 h2), if_neg h2]
    by_cases h1 : c1 i
    · rw [if_pos h1, if_pos h1]; exact pay3_apply p
    · rw [if_neg h1, if_neg h1]

/-- Flipping the lowest bit of a row index below `1024` stays below `1024`. -/
theorem xor_one_lt (p : Fin 1024) : p.val ^^^ 1 < 1024 :=
  Nat.xor_lt_two_pow (n := 10) p.isLt (by decide)

/-- (S4) The one-term sum is the entry at the partner column `p xor 1`. -/
theorem sum_partner (p : Fin 1024) :
    (∑ q : Fin 1024, if q.val = p.val ^^^ 1 then sc x0 x1 p q else 0)
      = sc x0 x1 p ⟨p.val ^^^ 1, xor_one_lt p⟩ := by
  rw [Finset.sum_eq_single (⟨p.val ^^^ 1, xor_one_lt p⟩ : Fin 1024)]
  · rw [if_pos rfl]
  · intro b _ hb
    rw [if_neg (fun h => hb (Fin.ext h))]
  · intro h; exact absurd (Finset.mem_univ _) h

end Cert.KernelIdeal.Step

end
-- ==== Proof.FiniteZn.lean ====
import proofs.«103424_j20255065768459_2_alg».proof.Defs
import proofs.«103424_j20255065768459_2_alg».proof.Proof.Gen.KernelIdeal
import proofs.«103424_j20255065768459_2_alg».proof.Proof.Gen.Pre_finite_inputs
import Idealize.ShloMosaic.Lib.ReduceAll
import Idealize.ShloMosaic.Lib.IdealHost
import Idealize.ShloMosaic.Lib.ValueIdx
import Idealize.ShloMosaic.Lib.Pipeline.Value
import Idealize.ShloMosaic.PureOps.Ideal.Laws

/-!
# Finite inputs, and the row-normalized array is finite

The precondition says every input entry has absolute value below `+∞`: so every entry is a real
number.  The program first divides each row of the input by `max (√(∑ of squares of the row)) ε` with
`ε` a positive real constant.  On real entries every step stays real: a product and a finite sum of
reals are real, the square root of a nonnegative real is real, the maximum with `ε > 0` is a real
`≥ ε`, hence nonzero, and a real divided by a nonzero real is real.
-/

set_option maxRecDepth 16384

noncomputable section

namespace Cert.KernelIdeal.Finite

open Cert.KernelIdeal
open Idealize.ShloMosaic Idealize.ShloMosaic.ValueIdx
open Facts₀
open scoped BigOperators

/-! ## The precondition read back -/

/-- An extended real whose absolute value `max x (-x)` is below `⊤` is a real number: at `⊥` and at
    `⊤` the absolute value is `⊤`. -/
theorem real_of_abs_lt_top {x : EReal} (h : max x (-x) < ⊤) : ∃ r : ℝ, x = (r : EReal) := by
  induction x using EReal.rec with
  | bot => simp at h
  | coe r => exact ⟨r, rfl⟩
  | top => simp at h

/-- A one-bit word made from a Boolean is `1` exactly when the Boolean is true. -/
theorem ofBool_eq_one (b : Bool) : BitVec.ofBool b = 1#1 ↔ b = true := by cases b <;> decide

/-- The f32 word `0x7F800000` is `+∞`. -/
theorem ofBits_inf_f32 : Ideal.ofBits .f32 0x7F800000#32 = ⊤ := by simp [Ideal.ofBits, Ideal.ieee]

/-- **The precondition decoded.**  If `finite_inputs` of the array is all ones — the conjunction over
    every entry of `|z i| < +∞` — then every entry is a real number. -/
theorem real_of_pre (z : (⟨S8192x256, .f32⟩ : BufTy).Contents (Elt Ideal))
    (h : Cert.Pre_finite_inputs.fn (F := Ideal) z = fun _ => 1#1) :
    ∀ i, ∃ x : ℝ, z i = (x : EReal) := by
  intro i
  have e := congrFun h ix0
  dsimp only [Cert.Pre_finite_inputs.fn] at e
  haveI : Subsingleton Cert.Pre_finite_inputs.S_.Idx := ⟨fun a b => funext fun d => d.elim0⟩
  have hi := Host.reduce_andi_all _ _ _ _ _ e i
  have hc : Ideal.cmp .olt (max (z i) (-(z i))) (Ideal.ofBits .f32 0x7F800000#32) = 1#1 := hi
  rw [ofBits_inf_f32] at hc
  have hb : BitVec.ofBool (decide (max (z i) (-(z i)) < ⊤)) = 1#1 := hc
  exact real_of_abs_lt_top (of_decide_eq_true ((ofBool_eq_one _).1 hb))

/-! ## The row-normalized array -/

/-- The constant `ε`: the f32 word `0x322BCC77`. -/
def eps : EReal := Ideal.ofBits .f32 0x322BCC77#32

/-- `ε = 11258999 · 2⁻⁵⁰` (about `10⁻⁸`), a positive real: exponent field `100`, fraction field
    `2870391`, so `(2²³ + 2870391) · 2^(100 - 127 - 23)`. -/
theorem eps_pos : ∃ e : ℝ, 0 < e ∧ eps = (e : EReal) :=
  ⟨11258999 * (2 : ℝ) ^ (-50 : ℤ), by positivity,
    by simp [eps, Ideal.ofBits, Ideal.ieee, -EReal.coe_mul]⟩

/-- The array the program's first host operations compute: each entry of `z` divided by its row's
    `max (√(0 + ∑ of the row's squares)) ε`. -/
def znK (z : (⟨S8192x256, .f32⟩ : BufTy).Contents (Elt Ideal)) :
    (⟨S8192x256, .f32⟩ : BufTy).Contents (Elt Ideal) :=
  Host.divf (F := Ideal) (s := S8192x256) (φ := .f32) z
    (broadcastInDim S8192x256 ![0, 1] bcast_S8192x1_S8192x256_0_1
      (maximumf (F := Ideal) (s := S8192x1) (φ := .f32)
        (Host.sqrt (F := Ideal) (s := S8192x1) (φ := .f32)
          (broadcastInDim S8192x1 ![0] bcast_S8192_S8192x1_0
            (Host.reduceAdd (F := Ideal) (φ := .f32) (mulf (F := Ideal) (s := S8192x256) (φ := .f32) z z)
              (constant (F := Ideal) S_ .f32 0x00000000#32)
              reducesTo_S8192x256_S8192_d1 h_S_)))
        (broadcastInDim S8192x1 ![] bcast_S_S8192x1
          (constant (F := Ideal) S_ .f32 0x322BCC77#32))))

/-- The host's sum of squares along a row, read at row `r`: the initial value `0` plus the sum over the
    row's `256` entries of their squares. -/
theorem rowSumSq_apply (z : (⟨S8192x256, .f32⟩ : BufTy).Contents (Elt Ideal)) (r : Fin 8192) :
    Host.reduceAdd (F := Ideal) (φ := .f32) (mulf (F := Ideal) (s := S8192x256) (φ := .f32) z z)
        (constant (F := Ideal) S_ .f32 0x00000000#32)
        reducesTo_S8192x256_S8192_d1 h_S_ (ix1 r)
      = 0 + ∑ k : Fin 256, z (ix2 r k) * z (ix2 r k) := by
  have e1 : Host.reduceAdd (F := Ideal) (φ := .f32) (mulf (F := Ideal) (s := S8192x256) (φ := .f32) z z)
        (constant (F := Ideal) S_ .f32 0x00000000#32)
        reducesTo_S8192x256_S8192_d1 h_S_ (ix1 r)
      = Ideal.hostReduceAdd reducesTo_S8192x256_S8192_d1
          (mulf (F := Ideal) (s := S8192x256) (φ := .f32) z z)
          (Ideal.ofBits .f32 0x00000000#32) (ix1 r) := rfl
  rw [e1, Ideal.hostReduceAdd_single reducesTo_S8192x256_S8192_d1 (by decide),
    Ideal.ofBits_zero_f32]
  refine congrArg (_ + ·) (Finset.sum_congr rfl fun k _ => ?_)
  exact congrArg (fun j => z j * z j)
    (funext fun a => Fin.ext (by match a with | ⟨0, _⟩ => rfl | ⟨1, _⟩ => rfl))

/-- **The row-normalized array at an index**: entry `(r, d)` is `z (r, d)` divided by
    `max (√(0 + ∑ₖ z (r, k)²)) ε`. -/
theorem znK_apply (z : (⟨S8192x256, .f32⟩ : BufTy).Contents (Elt Ideal)) (r : Fin 8192)
    (d : Fin 256) :
    znK z (ix2 r d) = Ideal.div (z (ix2 r d))
      (max (Ideal.sqrt (0 + ∑ k : Fin 256, z (ix2 r k) * z (ix2 r k))) eps) := by
  unfold znK
  show Ideal.div (z (ix2 r d))
    (broadcastInDim (s := S8192x1) (α := EReal) S8192x256 ![0, 1] bcast_S8192x1_S8192x256_0_1 _
      (ix2 r d)) = _
  rw [broadcastInDim_apply ![0, 1] bcast_S8192x1_S8192x256_0_1 _ (ix2 r d) (ix2 r (0 : Fin 1))
    (fun a => by
      match a with
      | ⟨0, _⟩ => show r.val = if (8192 : Nat) = 1 then 0 else r.val; rw [if_neg (by decide)]
      | ⟨1, _⟩ => show (0 : Nat) = if (1 : Nat) = 1 then 0 else d.val; rw [if_pos rfl])]
  show Ideal.div _ (max (Ideal.sqrt
    (broadcastInDim (s := S8192) (α := EReal) S8192x1 ![0] bcast_S8192_S8192x1_0 _
      (ix2 r (0 : Fin 1))))
    (Ideal.ofBits .f32 0x322BCC77#32)) = _
  rw [broadcastInDim_apply ![0] bcast_S8192_S8192x1_0 _ (ix2 r (0 : Fin 1)) (ix1 r)
    (fun a => by
      match a with
      | ⟨0, _⟩ => show r.val = if (8192 : Nat) = 1 then 0 else r.val; rw [if_neg (by decide)])]
  rw [rowSumSq_apply]
  rfl

/-- The coercion `ℝ → EReal` commutes with `max` (it is monotone). -/
theorem coe_max (a b : ℝ) : ((max a b : ℝ) : EReal) = max (a : EReal) (b : EReal) :=
  EReal.coe_strictMono.monotone.map_max

/-- A finite sum of squares of reals is a nonnegative real. -/
theorem sum_sq_real {n : ℕ} (f : Fin n → EReal) (hf : ∀ k, ∃ x : ℝ, f k = (x : EReal)) :
    ∃ s : ℝ, 0 ≤ s ∧ ∑ k, f k * f k = (s : EReal) := by
  choose x hx using hf
  refine ⟨∑ k, x k * x k, Finset.sum_nonneg fun k _ => mul_self_nonneg _, ?_⟩
  have key : ∀ S : Finset (Fin n), ∑ k ∈ S, f k * f k = ((∑ k ∈ S, x k * x k : ℝ) : EReal) := by
    intro S
    induction S using Finset.induction_on with
    | empty => simp
    | insert a S ha ih =>
      rw [Finset.sum_insert ha, Finset.sum_insert ha, ih, hx a, EReal.coe_add, EReal.coe_mul]
  exact key Finset.univ

/-- **The row-normalized array is finite.**  If every entry of `z` is real then so is every entry of
    `znK z`: the row's sum of squares is a real `s ≥ 0`, `√s` is real, `max (√s) ε ≥ ε > 0` is a nonzero
    real, and a real over a nonzero real is real. -/
theorem znK_real (z : (⟨S8192x256, .f32⟩ : BufTy).Contents (Elt Ideal))
    (hz : ∀ i, ∃ x : ℝ, z i = (x : EReal)) : ∀ i, ∃ y : ℝ, znK z i = (y : EReal) := by
  intro i
  obtain ⟨r, d, rfl⟩ : ∃ (r : Fin 8192) (d : Fin 256), i = ix2 r d :=
    ⟨i 0, i 1, eq_ix2 (n0 := 8192) (n1 := 256) i⟩
  rw [znK_apply]
  obtain ⟨s, hs, hsum⟩ := sum_sq_real (fun k => z (ix2 r k)) (fun k => hz _)
  have hsum' : ∑ k : Fin 256, z (ix2 r k) * z (ix2 r k) = (s : EReal) := hsum
  obtain ⟨e, he, heps⟩ := eps_pos
  obtain ⟨x, hx⟩ := hz (ix2 r d)
  have hne : max (Real.sqrt s) e ≠ 0 := ne_of_gt (lt_of_lt_of_le he (le_max_right _ _))
  rw [hsum', zero_add, Ideal.sqrt_coe, if_neg (not_lt.mpr hs), heps, ← coe_max, hx,
    Ideal.div_coe hne, ← EReal.coe_mul]
  exact ⟨_, rfl⟩

/-- Both together: under the precondition every entry of the row-normalized array is real. -/
theorem znK_real_of_pre (z : (⟨S8192x256, .f32⟩ : BufTy).Contents (Elt Ideal))
    (h : Cert.Pre_finite_inputs.fn (F := Ideal) z = fun _ => 1#1) :
    ∀ i, ∃ y : ℝ, znK z i = (y : EReal) :=
  znK_real z (real_of_pre z h)

end Cert.KernelIdeal.Finite

end
-- ==== Proof.KHost.lean ====
import proofs.«103424_j20255065768459_2_alg».proof.Proof.Gen.KernelIdeal.Launch
import proofs.«103424_j20255065768459_2_alg».proof.Proof.FiniteZn
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.IdealHost
import Idealize.ShloMosaic.PureOps.Ideal.Laws

/-!
# The host lines around the region, read at the ideal values

Before the region the program normalizes each row of its argument and converts the result to
`bf16`: at the ideal values the conversion is the identity, so the buffer the region reads holds the
row-normalized array.  After the region it subtracts the region's two column outputs row by row,
sums the `8192` differences and divides by the constant `8192` word: the result is that quotient.
-/

set_option maxRecDepth 16384

noncomputable section

namespace Cert.KernelIdeal.HostRead

open Cert.KernelIdeal Cert.KernelIdeal.Gen
open Idealize.ShloMosaic Idealize.ShloMosaic.TcCoe Idealize.ShloMosaic.ValueIdx Idealize.SL.Sem
open Idealize.ShloMosaic.StableHlo
open scoped BigOperators

/-- A value moved along a type equation and back is the value. -/
theorem cast_cast_symm {α β : Sort _} (h : α = β) (h' : β = α) (a : α) : cast h' (cast h a) = a := by
  subst h; rfl

/-- **Before the region.**  After @norm's five operations and the six that follow, the buffer the
    region reads (`main_v5`, the `bf16` copy) holds the row-normalized argument: the conversion to
    `bf16` is the identity at the ideal values. -/
theorem before_region (W : Valuation τ sig (Elt Ideal)) :
    after (hostOps0_1 (F := Ideal)) (after (hostOps0 (F := Ideal)) W) (Proc.devRef .tc main_v5)
      = Finite.znK (W (Proc.devRef .tc main_arg0)) := by
  after_results_simp
  try simp only [cast_cast_symm]
  rfl

/-- The lines after the region do not write the argument. -/
theorem after_region_arg0 (W : Valuation τ sig (Elt Ideal)) :
    after (hostOps1 (F := Ideal)) W (Proc.devRef .tc main_arg0) = W (Proc.devRef .tc main_arg0) := by
  after_results_simp

/-- The lines before the region do not write the argument. -/
theorem before_region_arg0 (W : Valuation τ sig (Elt Ideal)) :
    after (hostOps0_1 (F := Ideal)) (after (hostOps0 (F := Ideal)) W) (Proc.devRef .tc main_arg0)
      = W (Proc.devRef .tc main_arg0) := by
  after_results_simp

/-- A column `[8192, 1]` viewed as a vector `[8192]` reads entry `(r, 0)` at `r`: the two have the same
    row-major position `r · 1 + 0 = r`. -/
theorem reshape_col_apply (x : (⟨S8192x1, .f32⟩ : BufTy).Contents (Elt Ideal))
    (h : S8192x1.ShapeCasts S8192) (r : Fin 8192) :
    shapeCast S8192 x h (ix1 r) = x (ix2 r (0 : Fin 1)) :=
  shapeCast_apply x h (ix1 r) (ix2 r (0 : Fin 1)) (by
    rw [Shape.rowMajor_val_two, Shape.rowMajor_val_one]
    show r.val * 1 + 0 = r.val
    omega)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector `[8192]` into a scalar, from the zero word: the sum of its entries. -/
theorem sum_vec_apply (y : S8192.Idx → EReal) (j : S_.Idx) :
    Ideal.hostReduceAdd reducesTo_S8192_S_d0 y (Ideal.ofBits .f32 0x00000000#32) j
      = ∑ r : Fin 8192, y (ix1 r) := by
  rw [Ideal.hostReduceAdd_total reducesTo_S8192_S_d0 (fun b => b.elim0), Ideal.ofBits_zero_f32,
    zero_add]
  exact sum_idx1 (n := 8192) y

/-- **After the region.**  If the region's two column outputs `main_v6_0`, `main_v6_1` hold `a` and `b`,
    the seven operations after the region leave in `main_v11` the sum over the `8192` rows of
    `a (r, 0) - b (r, 0)`, divided by the constant word `0x46000000`. -/
theorem after_region (W : Valuation τ sig (Elt Ideal))
    (a b : (⟨S8192x1, .f32⟩ : BufTy).Contents (Elt Ideal))
    (ha : W (Proc.devRef .tc main_v6_0) = a) (hb : W (Proc.devRef .tc main_v6_1) = b) :
    after (hostOps1 (F := Ideal)) W (Proc.devRef .tc main_v11)
      = fun _ => Ideal.div (∑ r : Fin 8192, (a (ix2 r (0 : Fin 1)) - b (ix2 r (0 : Fin 1))))
          (Ideal.ofBits .f32 0x46000000#32) := by
  after_results_simp
  rw [ha, hb]
  funext j
  show Ideal.div
    (Ideal.hostReduceAdd reducesTo_S8192_S_d0
      (fun i : S8192.Idx =>
        shapeCast S8192 a shapeCasts_S8192x1_S8192 i - shapeCast S8192 b shapeCasts_S8192x1_S8192 i)
      (Ideal.ofBits .f32 0x00000000#32) j)
    (Ideal.ofBits .f32 0x46000000#32) = _
  rw [sum_vec_apply]
  congr 1
  exact Finset.sum_congr rfl fun r _ =>
    congrArg₂ (· - ·) (reshape_col_apply a _ r) (reshape_col_apply b _ r)

end Cert.KernelIdeal.HostRead

end
-- ==== Proof.KHostRef.lean ====
import proofs.«103424_j20255065768459_2_alg».proof.Proof.RefReadP
import proofs.«103424_j20255065768459_2_alg».proof.Proof.FiniteZn

/-!
# The kernel program's row normalization is the reference's

Both programs begin with the same ten array operations on the argument: each row divided by
`max (√(∑ of the row's squares)) ε`.  The two printed terms are the same operations at the same
literal shapes, so the two arrays are equal by unfolding.
-/

set_option maxRecDepth 16384

noncomputable section

namespace Cert.KernelIdeal.HostRead

open Idealize.ShloMosaic

/-- The kernel program's row-normalized array is the reference's stage `main_v4`. -/
theorem znK_eq_ref (z : (⟨Cert.KernelIdeal.S8192x256, .f32⟩ : BufTy).Contents (Elt Ideal)) :
    Cert.KernelIdeal.Finite.znK z = Cert.ReferenceIdeal.ReadP.val_main_v4 (F := Ideal) z := rfl

end Cert.KernelIdeal.HostRead

end
-- ==== Proof.RefClosed.lean ====
import proofs.«103424_j20255065768459_2_alg».proof.Proof.RefReadP
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- The similarity of rows r and c of the normalized input. -/
def sim (zn : S8192x256.Idx → EReal) (r c : Fin 8192) : EReal :=
  ∑ d : Fin 256, zn (ix2 r d) * zn (ix2 c d)

/-- The logit: the similarity, masked to −∞ on the diagonal, divided by the temperature 1/2. -/
def logit (zn : S8192x256.Idx → EReal) (r c : Fin 8192) : EReal :=
  Ideal.div (if r = c then Ideal.ofBits .f32 0xFF800000#32 else sim zn r c) (Ideal.ofBits .f32 0x3F000000#32)

/-- A 32-bit word of a natural below 2^32 determines it. -/
theorem ofNat32_inj {a b : Nat} (ha : a < 8192) (hb : b < 8192) (h : BitVec.ofNat 32 a = BitVec.ofNat 32 b) : a = b := by
  have := congrArg BitVec.toNat h
  simp only [BitVec.toNat_ofNat] at this
  omega

/-- The diagonal mask read at (r, c). -/
theorem mask_select {α : Type} (r c : Fin 8192) (A B : α) :
    Scalar.select (IntOp.cmpi .eq (IntOp.addi (BitVec.ofNat 32 r.val) 0#32) (BitVec.ofNat 32 c.val)) A B
      = if r = c then A else B := by
  have h0 : IntOp.addi (BitVec.ofNat 32 r.val) 0#32 = BitVec.ofNat 32 r.val := by
    show BitVec.ofNat 32 r.val + 0#32 = _
    exact BitVec.add_zero _
  rw [h0]
  by_cases h : r = c
  · rw [if_pos h, h, (IntOp.cmpi_eq).2 rfl]; exact select_one A B
  · rw [if_neg h]
    have hne : ¬ IntOp.cmpi .eq (BitVec.ofNat 32 r.val) (BitVec.ofNat 32 c.val) = 1#1 := fun hh =>
      h (Fin.ext (ofNat32_inj r.isLt c.isLt ((IntOp.cmpi_eq).1 hh)))
    rw [eq_zero_of_ne_one hne]; exact select_zero A B

/-- The logits array read at (r, c). -/
theorem v14_apply (z : (⟨S8192x256, .f32⟩ : BufTy).Contents (Elt Ideal)) (r c : Fin 8192) :
    ReadP.val_main_v14 (F := Ideal) z (ix2 r c) = logit (ReadP.val_main_v4 (F := Ideal) z) r c := by
  have e13 : ReadP.idx_main_v13 (ix2 r c) = ix0 := funext fun a => a.elim0
  have el : ∀ k : Fin 256, ReadP.lidx_main_v6 (ix2 r c) k = ix2 r k := fun k =>
    funext fun a => Fin.ext (by match a with | ⟨0, _⟩ => rfl | ⟨1, _⟩ => rfl)
  have er : ∀ k : Fin 256, ReadP.idx_main_v5 (ReadP.ridx_main_v6 (ix2 r c) k) = ix2 c k := fun k =>
    funext fun a => Fin.ext (by match a with | ⟨0, _⟩ => rfl | ⟨1, _⟩ => rfl)
  rw [ReadP.val_main_v14_apply, ReadP.val_main_v12_apply, ReadP.val_main_v13_apply, ReadP.val_main_cst_1_apply,
    ReadP.val_main_v11_apply, ReadP.val_main_v10_apply, ReadP.val_main_v7_apply, ReadP.val_main_v9_apply,
    ReadP.val_main_c_apply, ReadP.val_main_v8_apply, ReadP.val_main_call1_v1_apply, ReadP.val_main_call1_v0_apply,
    ReadP.val_main_cst_0_apply, ReadP.val_main_v6_apply]
  simp only [ReadP.val_main_v5_apply, el, er]
  generalize ReadP.val_main_v4 (F := Ideal) z = zn
  simp only [Ideal.hostDivf_def, Ideal.ofBits_def]
  show Ideal.div (Scalar.select (IntOp.cmpi .eq (IntOp.addi (BitVec.ofNat 32 r.val) 0#32) (BitVec.ofNat 32 c.val)) _ _) _ = _
  rw [mask_select]
  rfl

/-- The f32 word of −∞ is the extended real ⊥. -/
theorem ofBits_negInf_f32 : Ideal.ofBits .f32 0xFF800000#32 = (⊥ : EReal) := by simp [Ideal.ofBits, Ideal.ieee]

/-- The row maximum of the logits, folded from −∞. -/
def mx (zn : S8192x256.Idx → EReal) (r : Fin 8192) : EReal :=
  Finset.univ.fold max (⊥ : EReal) (fun c : Fin 8192 => logit zn r c)

/-- Row r with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The reduce by maximum over the columns, read at row r. -/
theorem call2_v0_apply (z : (⟨S8192x256, .f32⟩ : BufTy).Contents (Elt Ideal)) (r : Fin 8192) :
    ReadP.val_main_call2_v0 (F := Ideal) z (ix1 r) = mx (ReadP.val_main_v4 (F := Ideal) z) r := by
  have h : S8192x8192.Reduces [1] S8192 := by decide
  unfold ReadP.val_main_call2_v0
  rw [Host.reduce_eq_fold_single FloatOps.maximumf _ _ reducesTo_S8192x8192_S8192_d1 h h_S_]
  have hi : ReadP.val_main_call2_cst (F := Ideal) (Shape.Idx.first h_S_) = (⊥ : EReal) := ofBits_negInf_f32
  rw [hi]
  have hf : (ReadP.val_main_v14 (F := Ideal) z ∘ h.lift (ix1 r))
      = fun c : Fin 8192 => logit (ReadP.val_main_v4 (F := Ideal) z) r c :=
    funext fun k => (congrArg (ReadP.val_main_v14 (F := Ideal) z) (lift_row h r k)).trans (v14_apply z r ⟨k.val, k.isLt⟩)
  exact congrArg (fun f => Finset.fold max (⊥ : EReal) f (Finset.univ : Finset (Fin 8192))) hf

/-- The row maximum as the log-softmax uses it (a further maximum with −∞), read at row r. -/
theorem call2_v2_apply (z : (⟨S8192x256, .f32⟩ : BufTy).Contents (Elt Ideal)) (r : Fin 8192) :
    ReadP.val_main_call2_v2 (F := Ideal) z (ix1 r) = mx (ReadP.val_main_v4 (F := Ideal) z) r := by
  rw [ReadP.val_main_call2_v2_apply, ReadP.val_main_call2_v1_apply, ReadP.val_main_call2_cst_0_apply, call2_v0_apply]
  show max (Ideal.ofBits .f32 0xFF800000#32) _ = _
  rw [ofBits_negInf_f32]
  exact max_bot_left _

/-- The shifted logits read at (r, c). -/
theorem call2_v5_apply (z : (⟨S8192x256, .f32⟩ : BufTy).Contents (Elt Ideal)) (r c : Fin 8192) :
    ReadP.val_main_call2_v5 (F := Ideal) z (ix2 r c)
      = logit (ReadP.val_main_v4 (F := Ideal) z) r c - mx (ReadP.val_main_v4 (F := Ideal) z) r := by
  have e : ReadP.idx_main_call2_v3 (ReadP.idx_main_call2_v4 (ix2 r c)) = ix1 r :=
    funext fun a => Fin.ext (by match a with | ⟨0, _⟩ => rfl)
  rw [ReadP.val_main_call2_v5_apply, ReadP.val_main_call2_v4_apply, ReadP.val_main_call2_v3_apply, e, call2_v2_apply,
    v14_apply]
  rfl

/-- The sum of the exponentials of the shifted logits of row r. -/
def expSum (zn : S8192x256.Idx → EReal) (r : Fin 8192) : EReal :=
  ∑ c : Fin 8192, Ideal.exp (logit zn r c - mx zn r)

/-- The reduce by sum of the exponentials, read at row r. -/
theorem call2_v7_apply (z : (⟨S8192x256, .f32⟩ : BufTy).Contents (Elt Ideal)) (r : Fin 8192) :
    ReadP.val_main_call2_v7 (F := Ideal) z (ix1 r) = expSum (ReadP.val_main_v4 (F := Ideal) z) r := by
  rw [ReadP.val_main_call2_v7_apply, ReadP.val_main_call2_cst_1_apply]
  show Ideal.ofBits .f32 0x00000000#32 + _ = _
  rw [Ideal.ofBits_zero_f32, zero_add]
  refine Finset.sum_congr rfl fun k _ => ?_
  have e : ReadP.idx_main_call2_v7 (ix1 r) k = ix2 r k :=
    funext fun a => Fin.ext (by match a with | ⟨0, _⟩ => rfl | ⟨1, _⟩ => rfl)
  rw [e, ReadP.val_main_call2_v6_apply, call2_v5_apply]
  rfl

/-- The log-softmax of the logits at (r, c). -/
def logp (zn : S8192x256.Idx → EReal) (r c : Fin 8192) : EReal :=
  (logit zn r c - mx zn r) - Ideal.log (expSum zn r)

/-- The log-softmax array read at (r, c). -/
theorem v18_apply (z : (⟨S8192x256, .f32⟩ : BufTy).Contents (Elt Ideal)) (r c : Fin 8192) :
    ReadP.val_main_v18 (F := Ideal) z (ix2 r c) = logp (ReadP.val_main_v4 (F := Ideal) z) r c := by
  have e : ReadP.idx_main_call2_v8 (ReadP.idx_main_call2_v10 (ix2 r c)) = ix1 r :=
    funext fun a => Fin.ext (by match a with | ⟨0, _⟩ => rfl)
  rw [ReadP.val_main_v18_apply, ReadP.val_main_call2_v10_apply, ReadP.val_main_call2_v9_apply,
    ReadP.val_main_call2_v8_apply, e, call2_v7_apply, call2_v5_apply]
  rfl

/-! ## The index column: row r's partner r xor 1, as the gather reads it -/

/-- The partner of a row below 8192 is below 8192. -/
theorem xor_one_lt {n : Nat} (h : n < 8192) : n ^^^ 1 < 8192 :=
  Nat.xor_lt_two_pow (n := 13) h (by decide)

/-- Row r's positive pair: r xor 1. -/
def partner (r : Fin 8192) : Fin 8192 := ⟨r.val ^^^ 1, xor_one_lt r.isLt⟩

/-- The word of n xor 1, as a natural. -/
theorem xorWord_toNat {n : Nat} (h : n < 8192) : (IntOp.xori (BitVec.ofNat 32 n) 1#32).toNat = n ^^^ 1 := by
  show (BitVec.ofNat 32 n ^^^ 1#32).toNat = _
  rw [BitVec.toNat_xor, BitVec.toNat_ofNat, Nat.mod_eq_of_lt (by omega)]
  rfl

/-- The word of n xor 1, as a signed integer. -/
theorem xorWord_toInt {n : Nat} (h : n < 8192) : (IntOp.xori (BitVec.ofNat 32 n) 1#32).toInt = ((n ^^^ 1 : Nat) : Int) := by
  have hl := xor_one_lt h
  rw [BitVec.toInt_eq_toNat_of_lt (by rw [xorWord_toNat h]; omega), xorWord_toNat h]

/-- The index column before the wrap of negative indices: iota xor 1. -/
theorem v19_word (j : S8192x1.Idx) :
    ReadP.val_main_v19 (F := Ideal) j = IntOp.xori (BitVec.ofNat 32 (j 0).val) 1#32 := by
  rw [ReadP.val_main_v19_apply, ReadP.val_main_v17_apply, ReadP.val_main_v15_apply, ReadP.val_main_v16_apply,
    ReadP.val_main_c_2_apply]

/-- No index is negative, so the wrap returns the index. -/
theorem call3_v4_word (j : S8192x1.Idx) :
    ReadP.val_main_call3_v4 (F := Ideal) j = IntOp.xori (BitVec.ofNat 32 (j 0).val) 1#32 := by
  rw [ReadP.val_main_call3_v4_apply, ReadP.val_main_call3_v1_apply, ReadP.val_main_call3_v0_apply,
    ReadP.val_main_call3_c_apply, v19_word]
  have hn : ¬ IntOp.cmpi .slt (IntOp.xori (BitVec.ofNat 32 (j 0).val) 1#32) 0#32 = 1#1 := fun hh => by
    have := (IntOp.cmpi_slt).1 hh
    rw [xorWord_toInt (idx2_lt0 j)] at this
    have h0 : (0#32 : BitVec 32).toInt = 0 := by decide
    omega
  rw [eq_zero_of_ne_one hn]
  exact select_zero _ _

/-- The start indices, read at any index: the word of (row xor 1). -/
theorem call3_v5_word (i : S8192x1x1.Idx) :
    ReadP.val_main_call3_v5 (F := Ideal) i = IntOp.xori (BitVec.ofNat 32 (ReadP.idx_main_call3_v5 i 0).val) 1#32 := by
  rw [ReadP.val_main_call3_v5_apply, call3_v4_word]

/-- The in-bounds mask before its reduce is 1 at every index. -/
theorem call3_v11_one (i : S8192x1x1.Idx) : ReadP.val_main_call3_v11 (F := Ideal) i = 1#1 := by
  rw [ReadP.val_main_call3_v11_apply, ReadP.val_main_call3_v7_apply, ReadP.val_main_call3_v10_apply,
    ReadP.val_main_call3_v6_apply, ReadP.val_main_call3_c_2_apply, ReadP.val_main_call3_v9_apply,
    ReadP.val_main_call3_v8_apply, ReadP.val_main_call3_c_1_apply, call3_v5_word]
  have hl := idx2_lt0 (ReadP.idx_main_call3_v5 i)
  have hx := xor_one_lt hl
  have hi := xorWord_toInt hl
  have h0 : (0#32 : BitVec 32).toInt = 0 := by decide
  have h1 : (8191#32 : BitVec 32).toInt = 8191 := by decide
  exact (IntOp.andi_eq_one).2 ⟨(IntOp.cmpi_sge).2 (by omega), (IntOp.cmpi_sle).2 (by omega)⟩

/-- A fold by and from 1 over words that are all 1 is 1. -/
theorem fold_andi_all_one {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf]; rfl

/-- The in-bounds mask is 1 at every row. -/
theorem call3_v12_one (j : S8192x1.Idx) : ReadP.val_main_call3_v12 (F := Ideal) j = 1#1 := by
  have h : S8192x1x1.Reduces [2] S8192x1 := by decide
  unfold ReadP.val_main_call3_v12
  rw [Host.reduce_eq_fold_single IntOp.andi _ _ reducesTo_S8192x1x1_S8192x1_d2 h h_S_]
  exact fold_andi_all_one _ _ fun k => call3_v11_one _

/-- The gather read at row r: the operand at (r, start index clamped). -/
theorem gather_row_apply {α : Type} (x : S8192x8192.Idx → α) (idx : IVec S8192x1x1 32) (r : Fin 8192) :
    Host.gather gather_S8192x8192_S8192x1x1_S8192x1_n_1_0_0_1_2_11 x idx (ix2 r (0 : Fin 1))
      = x (ix2 r (⟨min (idx (ix3 r (0 : Fin 1) (0 : Fin 1))).toInt.toNat 8191, by omega⟩ : Fin 8192)) := by
  unfold Host.gather
  congr 1
  funext a
  refine Fin.ext ?_
  show gather_S8192x8192_S8192x1x1_S8192x1_n_1_0_0_1_2_11.start (ix2 r (0 : Fin 1)) idx a
      + gather_S8192x8192_S8192x1x1_S8192x1_n_1_0_0_1_2_11.batchCoord (ix2 r (0 : Fin 1)) a
      + gather_S8192x8192_S8192x1x1_S8192x1_n_1_0_0_1_2_11.offCoord (ix2 r (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S8192x8192.rank) ∈ gather_S8192x8192_S8192x1x1_S8192x1_n_1_0_0_1_2_11.startIndexMap from List.mem_singleton.mpr rfl)]
    have hsi : gather_S8192x8192_S8192x1x1_S8192x1_n_1_0_0_1_2_11.siIdx (ix2 r (0 : Fin 1))
        ⟨List.idxOf (⟨1, by decide⟩ : Fin S8192x8192.rank) gather_S8192x8192_S8192x1x1_S8192x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The gathered entry, the mean, the loss -/

/-- Row r's term of the loss: the log-softmax of row r at its partner. -/
def picked (zn : S8192x256.Idx → EReal) (r : Fin 8192) : EReal :=
  (logit zn r (partner r) - mx zn r) - Ideal.log (expSum zn r)

/-- The gather of the log-softmax along the index column, read at row r. -/
theorem call3_v13_apply (z : (⟨S8192x256, .f32⟩ : BufTy).Contents (Elt Ideal)) (r : Fin 8192) :
    ReadP.val_main_call3_v13 (F := Ideal) z (ix2 r (0 : Fin 1)) = picked (ReadP.val_main_v4 (F := Ideal) z) r := by
  unfold ReadP.val_main_call3_v13
  rw [gather_row_apply]
  have hv : (ReadP.idx_main_call3_v5 (ix3 r (0 : Fin 1) (0 : Fin 1)) 0).val = r.val := by
    show ((r.val * 1 + 0) * 1 + 0) / 1 = r.val
    omega
  have hx := xor_one_lt r.isLt
  have e : (⟨min (ReadP.val_main_call3_v5 (F := Ideal) (ix3 r (0 : Fin 1) (0 : Fin 1))).toInt.toNat 8191, by omega⟩ : Fin 8192)
      = partner r := Fin.ext (by
    show min (ReadP.val_main_call3_v5 (F := Ideal) (ix3 r (0 : Fin 1) (0 : Fin 1))).toInt.toNat 8191 = r.val ^^^ 1
    rw [call3_v5_word, hv, xorWord_toInt r.isLt]
    omega)
  exact (congrArg (fun c : Fin 8192 => ReadP.val_main_v18 (F := Ideal) z (ix2 r c)) e).trans (v18_apply z r (partner r))

/-- The masked gather (the mask is all ones), read at row r. -/
theorem v20_apply (z : (⟨S8192x256, .f32⟩ : BufTy).Contents (Elt Ideal)) (r : Fin 8192) :
    ReadP.val_main_v20 (F := Ideal) z (ix2 r (0 : Fin 1)) = picked (ReadP.val_main_v4 (F := Ideal) z) r := by
  rw [ReadP.val_main_v20_apply, call3_v12_one, select_one, call3_v13_apply]

/-- THE REFERENCE'S LOSS as a function of the row-normalized input: minus the mean over the rows r of
    log-softmax(logits)[r, r xor 1], where logits[r, c] = (−∞ if r = c else ⟨zn r, zn c⟩) / (1/2). The two words are
    the f32 patterns of 1/2 (`ofBits_half_f32`) and of 8192 (`ofBits_8192_f32`). -/
def refLoss (zn : S8192x256.Idx → EReal) : EReal :=
  -(Ideal.div (∑ r : Fin 8192, picked zn r) (Ideal.ofBits .f32 0x46000000#32))

/-- The reference's result, at every index of its rank-0 buffer, is `refLoss` of its row-normalized input. -/
theorem val_main_v23_closed (z : (⟨S8192x256, .f32⟩ : BufTy).Contents (Elt Ideal)) :
    ReadP.val_main_v23 (F := Ideal) z = fun _ => refLoss (ReadP.val_main_v4 (F := Ideal) z) := by
  funext i
  rw [ReadP.val_main_v23_apply, ReadP.val_main_v22_apply, ReadP.val_main_v21_apply, ReadP.val_main_cst_3_apply,
    ReadP.val_main_cst_4_apply, sum_idx2]
  simp only [Fin.sum_univ_one, v20_apply]
  show -(Ideal.div (Ideal.ofBits .f32 0x00000000#32 + _) (Ideal.ofBits .f32 0x46000000#32)) = _
  rw [Ideal.ofBits_zero_f32, zero_add]
  rfl

/-- The f32 word 0x3F000000 is one half. -/
theorem ofBits_half_f32 : Ideal.ofBits .f32 0x3F000000#32 = (((1 : ℝ) / 2 : ℝ) : EReal) := by
  simp [Ideal.ofBits, Ideal.ieee, -EReal.coe_mul]; norm_num

/-- The f32 word 0x46000000 is 8192. -/
theorem ofBits_8192_f32 : Ideal.ofBits .f32 0x46000000#32 = ((8192 : ℝ) : EReal) := by
  simp [Ideal.ofBits, Ideal.ieee, -EReal.coe_mul]; norm_num

end Cert.ReferenceIdeal.RefValue

end
-- ==== Proof.KSpec.lean ====
import proofs.«103424_j20255065768459_2_alg».proof.Proof.RefClosed
import proofs.«103424_j20255065768459_2_alg».proof.Proof.LibOnlineSoftmax

noncomputable section

/-! The two sides of the claim as functions of the row-normalized input `zn` (8192 rows of 256 reals), and that
    they are equal: the kernel's loss — per row an ONLINE log-sum-exp over eight column blocks of 1024 of the
    doubled similarities with the diagonal at −∞, less the doubled similarity with the partner row, averaged —
    is the reference's — minus the average of the partner's log-softmax of the similarities over 1/2. -/

namespace Cert.Bridge

open Cert.ReferenceIdeal.RefValue Idealize.ShloMosaic Idealize.ShloMosaic.ValueIdx OnlineSoftmax
open scoped BigOperators

abbrev Zn : Type := Cert.ReferenceIdeal.S8192x256.Idx → EReal

/-- The kernel's scaled similarity of rows r and c. -/
def scK (zn : Zn) (r c : Fin 8192) : EReal := sim zn r c * 2
/-- Row r of the kernel's masked, scaled similarities. -/
def wK (zn : Zn) (r : Fin 8192) : Fin 8192 → EReal := fun c => if r = c then ⊥ else scK zn r c
/-- The same row cut into eight column blocks of 1024. -/
def vK (zn : Zn) (r : Fin 8192) : ℕ → Fin 1024 → EReal := fun j q =>
  if h : j < 8 then wK zn r ⟨j * 1024 + q.val, by have := q.isLt; omega⟩ else ⊥
/-- The row's log-sum-exp as the online recurrence leaves it. -/
def lseK (zn : Zn) (r : Fin 8192) : EReal := (run (vK zn r) 8).1 + Ideal.log (run (vK zn r) 8).2
/-- The kernel's loss. -/
def kernelLoss (zn : Zn) : EReal :=
  Ideal.div (∑ r : Fin 8192, (lseK zn r - scK zn r (partner r))) (Ideal.ofBits .f32 0x46000000#32)

/-- A similarity of real rows is real. -/
theorem sim_real (zn : Zn) (hzn : ∀ i, ∃ y : ℝ, zn i = (y : EReal)) (r c : Fin 8192) : ∃ s : ℝ, sim zn r c = (s : EReal) := by
  choose y hy using hzn
  refine ⟨∑ d : Fin 256, y (ix2 r d) * y (ix2 c d), ?_⟩
  unfold sim
  rw [coe_finset_sum]
  exact Finset.sum_congr rfl fun d _ => by rw [hy, hy, EReal.coe_mul]

theorem partner_ne (r : Fin 8192) : r ≠ partner r := by
  intro h
  have := congrArg Fin.val h
  simp only [partner] at this
  have h2 : r.val ^^^ 1 ≠ r.val := by
    intro e
    have : (r.val ^^^ 1) ^^^ r.val = 0 := by rw [e]; exact Nat.xor_self _
    rw [Nat.xor_comm, ← Nat.xor_assoc, Nat.xor_self, Nat.zero_xor] at this
    exact absurd this (by decide)
  exact h2 this.symm

/-- On real rows the kernel's masked scaled similarity is the reference's logit. -/
theorem wK_eq_logit (zn : Zn) (hzn : ∀ i, ∃ y : ℝ, zn i = (y : EReal)) (r c : Fin 8192) : wK zn r c = logit zn r c := by
  unfold wK logit scK
  rw [ofBits_half_f32, Ideal.div_coe (by norm_num : ((1 : ℝ) / 2) ≠ 0)]
  have h2 : (((1 : ℝ) / (1 / 2) : ℝ) : EReal) = 2 := by
    rw [show ((1 : ℝ) / (1 / 2)) = (2 : ℝ) by norm_num]; norm_cast
  rw [h2]
  by_cases h : r = c
  · rw [if_pos h, if_pos h, ofBits_negInf_f32]
    exact (EReal.bot_mul_of_pos (by norm_num)).symm
  · rw [if_neg h, if_neg h]

theorem wK_ne_top (zn : Zn) (hzn : ∀ i, ∃ y : ℝ, zn i = (y : EReal)) (r c : Fin 8192) : wK zn r c ≠ ⊤ := by
  unfold wK scK
  by_cases h : r = c
  · rw [if_pos h]; exact bot_ne_top
  · rw [if_neg h]
    obtain ⟨s, hs⟩ := sim_real zn hzn r c
    rw [hs]
    exact_mod_cast EReal.coe_ne_top (s * 2)

theorem wK_real_of_ne (zn : Zn) (hzn : ∀ i, ∃ y : ℝ, zn i = (y : EReal)) (r c : Fin 8192) (h : r ≠ c) :
    ∃ s : ℝ, wK zn r c = (s : EReal) := by
  unfold wK scK
  rw [if_neg h]
  obtain ⟨s, hs⟩ := sim_real zn hzn r c
  exact ⟨s * 2, by rw [hs]; norm_cast⟩

/-- Every block of 1024 columns of a row has an entry that is not −∞ (at most one column is the diagonal). -/
theorem block_has_real (zn : Zn) (hzn : ∀ i, ∃ y : ℝ, zn i = (y : EReal)) (r : Fin 8192) (j : Fin 8) :
    ∃ c : Fin 1024, wK zn r ⟨j.val * 1024 + c.val, by have := c.isLt; have := j.isLt; omega⟩ ≠ ⊥ := by
  by_cases h0 : r.val = j.val * 1024 + 0
  · refine ⟨⟨1, by norm_num⟩, ?_⟩
    obtain ⟨s, hs⟩ := wK_real_of_ne zn hzn r ⟨j.val * 1024 + 1, by have := j.isLt; omega⟩ (fun e => by have := congrArg Fin.val e; simp only at this; omega)
    rw [hs]; exact EReal.coe_ne_bot s
  · refine ⟨⟨0, by norm_num⟩, ?_⟩
    obtain ⟨s, hs⟩ := wK_real_of_ne zn hzn r ⟨j.val * 1024 + 0, by have := j.isLt; omega⟩ (fun e => h0 (congrArg Fin.val e))
    rw [hs]; exact EReal.coe_ne_bot s

/-- Row by row: the online log-sum-exp less the partner's logit is minus the partner's log-softmax. -/
theorem row_eq (zn : Zn) (hzn : ∀ i, ∃ y : ℝ, zn i = (y : EReal)) (r : Fin 8192) :
    ∃ p : ℝ, picked zn r = (p : EReal) ∧ lseK zn r - scK zn r (partner r) = ((-p : ℝ) : EReal) := by
  have hw : (fun c => logit zn r c) = wK zn r := funext fun c => (wK_eq_logit zn hzn r c).symm
  obtain ⟨Mw, L, hL, hM, h1, h2, h2'⟩ := run_eq_onepass_8_1024 (wK zn r) (vK zn r)
    (fun j c => by unfold vK; rw [dif_pos j.isLt]) (wK_ne_top zn hzn r) (block_has_real zn hzn r)
  obtain ⟨n, hn⟩ := wK_real_of_ne zn hzn r (partner r) (partner_ne r)
  have hsc : scK zn r (partner r) = (n : EReal) := by
    rw [← hn]; unfold wK; rw [if_neg (partner_ne r)]
  have hmx : mx zn r = (Mw : EReal) := by unfold mx; rw [hw]; exact hM
  have hes : expSum zn r = (L : EReal) := by
    unfold expSum; rw [hmx, ← h2', h2]
    exact Finset.sum_congr rfl fun i _ => by rw [wK_eq_logit zn hzn r i]
  have hlg : logit zn r (partner r) = (n : EReal) := by rw [← wK_eq_logit zn hzn, hn]
  refine ⟨(n - Mw) - Real.log L, ?_, ?_⟩
  · unfold picked
    rw [hlg, hmx, hes, Ideal.log_coe, if_neg (not_le.mpr hL)]
    norm_cast
  · unfold lseK
    rw [h1, h2', hsc, closing_identity Mw n L hL, Ideal.log_coe, if_neg (not_le.mpr hL)]
    norm_cast

/-- The kernel's loss is the reference's, on real rows. -/
theorem bridge (zn : Zn) (hzn : ∀ i, ∃ y : ℝ, zn i = (y : EReal)) : kernelLoss zn = refLoss zn := by
  choose p hp1 hp2 using row_eq zn hzn
  unfold kernelLoss refLoss
  rw [ofBits_8192_f32, Ideal.div_coe (by norm_num : (8192 : ℝ) ≠ 0), Ideal.div_coe (by norm_num : (8192 : ℝ) ≠ 0)]
  rw [Finset.sum_congr rfl fun r _ => hp2 r, Finset.sum_congr rfl fun r _ => hp1 r, ← coe_finset_sum, ← coe_finset_sum]
  rw [Finset.sum_neg_distrib]
  norm_cast
  ring

end Cert.Bridge

end
-- ==== Proof.KRows.lean ====
import proofs.«103424_j20255065768459_2_alg».proof.Proof.KData
import proofs.«103424_j20255065768459_2_alg».proof.Proof.KStep
import proofs.«103424_j20255065768459_2_alg».proof.Proof.KHost
import proofs.«103424_j20255065768459_2_alg».proof.Proof.KHostRef
import proofs.«103424_j20255065768459_2_alg».proof.Proof.KSpec

set_option maxRecDepth 16384

noncomputable section

/-! What the idealized kernel's result buffer holds after the run, as a function of the argument: the blocks of the
    normalized array the grid points read, the three carried columns row by row as the online recurrence over the
    column blocks, the two result arrays assembled from the last column block's write-backs, and the mean the lines
    after the region take. -/

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open OnlineSoftmax Cert.Bridge

variable (m : (ℓ : Loc nD τ sig) → Buf (Elt Ideal) ℓ)

/-- The row-normalized argument on core `c`. -/
def znA (c : Dev nD) : Cert.Bridge.Zn := Finite.znK (m ((c.tc : Thread nD τ).loc main_arg0))

/-- The array both input windows read is the normalized argument. -/
theorem V_v5 (c : Dev nD) : V m c (Pipeline.arrRef spec0 0) = znA m c := HostRead.before_region (V₀ m c)
theorem V_v5' (c : Dev nD) : V m c (Pipeline.arrRef spec0 1) = znA m c := HostRead.before_region (V₀ m c)

/-- The printed index maps over the grid: the row windows and both outputs follow the point's row block, the column
    window its column block. -/
theorem idxf : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The row block at point `t` is rows `1024 (t / 8) …` of the normalized argument; -/
theorem iblk0_apply (c : Dev nD) (t : Fin cfg0.N) (p : Fin 1024) (k : Fin 256) (hr : t.val / 8 * 1024 + p.val < 8192) :
    iblk m c 0 t (ix2 p k) = znA m c (ix2 ⟨t.val / 8 * 1024 + p.val, hr⟩ k) := by
  unfold iblk
  rw [V_v5]
  show znA m c (((cfg0.win 0).blk t).view.emb (ix2 p k)) = _
  congr 1
  obtain ⟨e0, e1, -⟩ := idxf t
  funext a; apply Fin.ext
  match a with
  | ⟨0, _⟩ => show win0_0.index t (0 : Fin 2) * 1024 + 1 * p.val = t.val / 8 * 1024 + p.val; rw [e0]; omega
  | ⟨1, _⟩ => show win0_0.index t (1 : Fin 2) * 256 + 1 * k.val = k.val; rw [e1]; omega

/-- the column block is rows `1024 (t % 8) …`. -/
theorem iblk1_apply (c : Dev nD) (t : Fin cfg0.N) (q : Fin 1024) (k : Fin 256) (hr : t.val % 8 * 1024 + q.val < 8192) :
    iblk m c 1 t (ix2 q k) = znA m c (ix2 ⟨t.val % 8 * 1024 + q.val, hr⟩ k) := by
  unfold iblk
  rw [V_v5']
  show znA m c (((cfg0.win 1).blk t).view.emb (ix2 q k)) = _
  congr 1
  obtain ⟨-, -, e2, e3, -⟩ := idxf t
  funext a; apply Fin.ext
  match a with
  | ⟨0, _⟩ => show win0_1.index t (0 : Fin 2) * 1024 + 1 * q.val = t.val % 8 * 1024 + q.val; rw [e2]; omega
  | ⟨1, _⟩ => show win0_1.index t (1 : Fin 2) * 256 + 1 * k.val = k.val; rw [e3]; omega

/-- A point's block of scaled similarities is the corresponding block of the global ones: at a point `t` of row
    block `I = t / 8` and column block `j = t % 8`, entry `(p, q)` is rows `1024 I + p` and `1024 j + q` of the
    normalized argument. -/
theorem sc_blk_t (c : Dev nD) (t : Fin cfg0.N) (I j : Fin 8) (hd : t.val / 8 = I.val) (hm : t.val % 8 = j.val)
    (p q : Fin 1024) :
    Pay.sc (iblk m c 0 t) (iblk m c 1 t) p q
      = scK (znA m c) ⟨I.val * 1024 + p.val, by have := I.isLt; have := p.isLt; omega⟩
          ⟨j.val * 1024 + q.val, by have := j.isLt; have := q.isLt; omega⟩ := by
  have hI := I.isLt; have hj := j.isLt; have hp := p.isLt; have hq := q.isLt
  unfold Pay.sc scK Cert.ReferenceIdeal.RefValue.sim
  refine congrArg (· * (2 : EReal)) (Finset.sum_congr rfl fun k _ => ?_)
  rw [iblk0_apply m c t p k (by rw [hd]; omega), iblk1_apply m c t q k (by rw [hm]; omega)]
  have e0 : (⟨t.val / 8 * 1024 + p.val, by rw [hd]; omega⟩ : Fin 8192) = ⟨I.val * 1024 + p.val, by omega⟩ :=
    Fin.ext (by show t.val / 8 * 1024 + p.val = I.val * 1024 + p.val; rw [hd])
  have e1 : (⟨t.val % 8 * 1024 + q.val, by rw [hm]; omega⟩ : Fin 8192) = ⟨j.val * 1024 + q.val, by omega⟩ :=
    Fin.ext (by show t.val % 8 * 1024 + q.val = j.val * 1024 + q.val; rw [hm])
  rw [e0, e1]

/-- The same at the point written `8 I + j`. -/
theorem sc_blk (c : Dev nD) (I j : Fin 8) (p q : Fin 1024) (ht : I.val * 8 + j.val < cfg0.N) :
    Pay.sc (iblk m c 0 ⟨I.val * 8 + j.val, ht⟩) (iblk m c 1 ⟨I.val * 8 + j.val, ht⟩) p q
      = scK (znA m c) ⟨I.val * 1024 + p.val, by have := I.isLt; have := p.isLt; omega⟩
          ⟨j.val * 1024 + q.val, by have := j.isLt; have := q.isLt; omega⟩ :=
  sc_blk_t m c ⟨I.val * 8 + j.val, ht⟩ I j
    (by have := I.isLt; have := j.isLt; show (I.val * 8 + j.val) / 8 = I.val; omega)
    (by have := I.isLt; have := j.isLt; show (I.val * 8 + j.val) % 8 = j.val; omega) p q

/-- The diagonal condition at point `(I, j)` is `I = j`. -/
theorem c2_iff (I j : Fin 8) (ht : I.val * 8 + j.val < cfg0.N) :
    c2 (grid0.coords ⟨I.val * 8 + j.val, ht⟩) ↔ I.val = j.val := by
  have hI := I.isLt; have hj := j.isLt
  have hd : (I.val * 8 + j.val) / 8 = I.val := by omega
  have hm : (I.val * 8 + j.val) % 8 = j.val := by omega
  rw [hc2 ⟨I.val * 8 + j.val, ht⟩]
  show (I.val * 8 + j.val) / 8 = (I.val * 8 + j.val) % 8 ↔ _
  rw [hd, hm]

/-- The reset condition at point `(I, j)` is `j = 0`. -/
theorem c1_iff (I j : Fin 8) (ht : I.val * 8 + j.val < cfg0.N) :
    c1 (grid0.coords ⟨I.val * 8 + j.val, ht⟩) ↔ j.val = 0 := by
  have hI := I.isLt; have hj := j.isLt
  rw [hc1 ⟨I.val * 8 + j.val, ht⟩]
  show (I.val * 8 + j.val) % 8 = 0 ↔ _
  omega

/-- A point's masked block row is the block of the row's masked scaled similarities. -/
theorem vrow_eq (c : Dev nD) (I j : Fin 8) (p : Fin 1024) (ht : I.val * 8 + j.val < cfg0.N) :
    Step.vrow (iblk m c 0 ⟨I.val * 8 + j.val, ht⟩) (iblk m c 1 ⟨I.val * 8 + j.val, ht⟩)
        (c2 (grid0.coords ⟨I.val * 8 + j.val, ht⟩)) p
      = vK (znA m c) ⟨I.val * 1024 + p.val, by have := I.isLt; have := p.isLt; omega⟩ j.val := by
  funext q
  have hI := I.isLt; have hj := j.isLt; have hp := p.isLt; have hq := q.isLt
  rw [Step.vrow_apply]
  unfold vK; rw [dif_pos hj]
  unfold wK
  have hc2' := c2_iff I j ht
  rw [sc_blk m c I j p q ht]
  by_cases h : I.val = j.val ∧ p = q
  · rw [if_pos ⟨hc2'.mpr h.1, h.2⟩, if_pos (Fin.ext (by show I.val * 1024 + p.val = j.val * 1024 + q.val; rw [h.1, h.2]))]
  · rw [if_neg (fun hh => h ⟨hc2'.mp hh.1, hh.2⟩), if_neg (fun hh => h (by
      have := congrArg Fin.val hh; simp only at this
      exact ⟨by omega, Fin.ext (by omega)⟩))]

/-- Flipping the lowest bit commutes with adding a multiple of `1024` (an even number): the partner of global row
    `1024 I + p` is global row `1024 I + (p xor 1)`. -/
theorem xor_one_block : ∀ (I : Fin 8) (p : Fin 1024), (I.val * 1024 + p.val) ^^^ 1 = I.val * 1024 + (p.val ^^^ 1) := by
  decide +kernel

/-- On the diagonal block the one-term sum the third column takes is the row's scaled similarity with its partner. -/
theorem third_diag (c : Dev nD) (I : Fin 8) (p : Fin 1024) (ht : I.val * 8 + I.val < cfg0.N) :
    (∑ q : Fin 1024, if q.val = p.val ^^^ 1 then
        Pay.sc (iblk m c 0 ⟨I.val * 8 + I.val, ht⟩) (iblk m c 1 ⟨I.val * 8 + I.val, ht⟩) p q else 0)
      = scK (znA m c) ⟨I.val * 1024 + p.val, by have := I.isLt; have := p.isLt; omega⟩
          (Cert.ReferenceIdeal.RefValue.partner ⟨I.val * 1024 + p.val, by have := I.isLt; have := p.isLt; omega⟩) := by
  rw [Step.sum_partner, sc_blk m c I I p ⟨p.val ^^^ 1, Step.xor_one_lt p⟩ ht]
  congr 1
  exact Fin.ext (xor_one_block I p).symm

/-- ONE POINT, row by row: after point `(I, j)` the first two carried columns at row `p` are one online-softmax
    step over block `j` of the row's masked scaled similarities — from `(⊥, 0)` at the row's first block, from the
    carried pair otherwise —, and the third is the partner's scaled similarity on the diagonal block, `0` at a first
    block off the diagonal, and carried otherwise. -/
theorem point_row (c : Dev nD) (I j : Fin 8) (p : Fin 1024) (ht : I.val * 8 + j.val < cfg0.N) :
    ((sc m c (I.val * 8 + j.val + 1)).1 (ix2 p (0 : Fin 1)), (sc m c (I.val * 8 + j.val + 1)).2.1 (ix2 p (0 : Fin 1)))
        = step (vK (znA m c) ⟨I.val * 1024 + p.val, by have := I.isLt; have := p.isLt; omega⟩ j.val)
            (if j.val = 0 then (⊥, 0) else
              ((sc m c (I.val * 8 + j.val)).1 (ix2 p (0 : Fin 1)), (sc m c (I.val * 8 + j.val)).2.1 (ix2 p (0 : Fin 1))))
    ∧ (sc m c (I.val * 8 + j.val + 1)).2.2 (ix2 p (0 : Fin 1))
        = if I.val = j.val then scK (znA m c) ⟨I.val * 1024 + p.val, by have := I.isLt; have := p.isLt; omega⟩
            (Cert.ReferenceIdeal.RefValue.partner ⟨I.val * 1024 + p.val, by have := I.isLt; have := p.isLt; omega⟩)
          else if j.val = 0 then 0 else (sc m c (I.val * 8 + j.val)).2.2 (ix2 p (0 : Fin 1)) := by
  have hsc := sc_succ m c ⟨I.val * 8 + j.val, ht⟩
  have h23 := hc23 ⟨I.val * 8 + j.val, ht⟩
  have h1 := c1_iff I j ht
  have h2 := c2_iff I j ht
  rw [show I.val * 8 + j.val + 1 = (⟨I.val * 8 + j.val, ht⟩ : Fin cfg0.N).val + 1 from rfl, hsc]
  refine ⟨?_, ?_⟩
  · by_cases hj0 : j.val = 0
    · rw [Step.pair_of_c1 _ _ _ h23 _ p (h1.mpr hj0), vrow_eq m c I j p ht, if_pos hj0]
    · rw [Step.pair_of_not_c1 _ _ _ h23 _ p (fun h => hj0 (h1.mp h)), vrow_eq m c I j p ht, if_neg hj0]
  · rw [Step.third_apply _ _ _ h23 _ p]
    by_cases hIj : I.val = j.val
    · rw [if_pos (h2.mpr hIj), if_pos hIj]
      have hjI : j = I := Fin.ext hIj.symm
      subst hjI
      exact third_diag m c j p ht
    · rw [if_neg (fun h => hIj (h2.mp h)), if_neg hIj]
      by_cases hj0 : j.val = 0
      · rw [if_pos (h1.mpr hj0), if_pos hj0]
      · rw [if_neg (fun h => hj0 (h1.mp h)), if_neg hj0]

/-- ROW BY ROW, the carried columns after column block `j` of row block `I`: the online recurrence over the row's
    first `j + 1` blocks, and the partner's scaled similarity once the diagonal block has passed. -/
theorem sc_row (c : Dev nD) (I : Fin 8) (p : Fin 1024) : ∀ j : ℕ, (hj : j < 8) →
    ((sc m c (I.val * 8 + j + 1)).1 (ix2 p (0 : Fin 1)), (sc m c (I.val * 8 + j + 1)).2.1 (ix2 p (0 : Fin 1)))
        = run (vK (znA m c) ⟨I.val * 1024 + p.val, by have := I.isLt; have := p.isLt; omega⟩) (j + 1)
    ∧ (sc m c (I.val * 8 + j + 1)).2.2 (ix2 p (0 : Fin 1))
        = if I.val ≤ j then scK (znA m c) ⟨I.val * 1024 + p.val, by have := I.isLt; have := p.isLt; omega⟩
            (Cert.ReferenceIdeal.RefValue.partner ⟨I.val * 1024 + p.val, by have := I.isLt; have := p.isLt; omega⟩) else 0 := by
  have hI := I.isLt; have hp := p.isLt
  intro j
  induction j with
  | zero =>
    intro hj
    have ht : I.val * 8 + (⟨0, hj⟩ : Fin 8).val < cfg0.N := by show I.val * 8 + 0 < 64; omega
    obtain ⟨e1, e2⟩ := point_row m c I ⟨0, hj⟩ p ht
    refine ⟨?_, ?_⟩
    · rw [show I.val * 8 + 0 + 1 = I.val * 8 + (⟨0, hj⟩ : Fin 8).val + 1 from rfl, e1, if_pos rfl]
      rfl
    · rw [show I.val * 8 + 0 + 1 = I.val * 8 + (⟨0, hj⟩ : Fin 8).val + 1 from rfl, e2]
      show (if I.val = 0 then _ else if (0 : ℕ) = 0 then (0 : EReal) else _) = _
      by_cases hI0 : I.val = 0
      · rw [if_pos hI0, if_pos (by omega)]
      · rw [if_neg hI0, if_pos rfl, if_neg (by omega)]
  | succ j ih =>
    intro hj
    obtain ⟨ih1, ih2⟩ := ih (by omega)
    have ht : I.val * 8 + (⟨j + 1, hj⟩ : Fin 8).val < cfg0.N := by show I.val * 8 + (j + 1) < 64; omega
    obtain ⟨e1, e2⟩ := point_row m c I ⟨j + 1, hj⟩ p ht
    refine ⟨?_, ?_⟩
    · rw [show I.val * 8 + (j + 1) + 1 = I.val * 8 + (⟨j + 1, hj⟩ : Fin 8).val + 1 from rfl, e1,
        if_neg (by show j + 1 ≠ 0; omega)]
      rw [show I.val * 8 + (⟨j + 1, hj⟩ : Fin 8).val = I.val * 8 + j + 1 from rfl, ih1]
      rfl
    · rw [show I.val * 8 + (j + 1) + 1 = I.val * 8 + (⟨j + 1, hj⟩ : Fin 8).val + 1 from rfl, e2]
      show (if I.val = j + 1 then _ else if j + 1 = 0 then (0 : EReal) else
        (sc m c (I.val * 8 + j + 1)).2.2 (ix2 p (0 : Fin 1))) = _
      by_cases hIj : I.val = j + 1
      · rw [if_pos hIj, if_pos (by omega)]
      · rw [if_neg hIj, if_neg (by omega), ih2]
        by_cases hle : I.val ≤ j
        · rw [if_pos hle, if_pos (by omega)]
        · rw [if_neg hle, if_neg (by omega)]

end Cert.KernelIdeal.Hand

end
-- ==== Proof.KArr.lean ====
import proofs.«103424_j20255065768459_2_alg».proof.Proof.KRows

set_option maxRecDepth 16384

noncomputable section

/-! The two result arrays after the run, index by index: every row block's last column block writes back the rows'
    log-sum-exp and their partner similarities, and those blocks tile the arrays. -/

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open OnlineSoftmax Cert.Bridge

variable (m : (ℓ : Loc nD τ sig) → Buf (Elt Ideal) ℓ)

/-- The first result array: each row's log-sum-exp of its masked scaled similarities. -/
def G2 (c : Dev nD) : S8192x1.Idx → EReal := fun i => lseK (znA m c) ⟨(i 0).val, idx2_lt0 i⟩

/-- The second result array: each row's scaled similarity with its partner row. -/
def G3 (c : Dev nD) : S8192x1.Idx → EReal := fun i =>
  scK (znA m c) ⟨(i 0).val, idx2_lt0 i⟩ (Cert.ReferenceIdeal.RefValue.partner ⟨(i 0).val, idx2_lt0 i⟩)

/-- After the last column block of a row block, the carried maximum plus the logarithm of the carried sum is the
    row's log-sum-exp. -/
theorem lse_row (c : Dev nD) (t : Fin cfg0.N) (h7 : t.val % 8 = 7) (p : Fin 1024) :
    k0_pay13 (sc m c (t.val + 1)).1 (sc m c (t.val + 1)).2.1 (ix2 p (0 : Fin 1))
      = lseK (znA m c) ⟨t.val / 8 * 1024 + p.val, by have := t.isLt; have := p.isLt; show _ < 8192; have : t.val < 64 := t.isLt; omega⟩ := by
  have htN : t.val < 64 := t.isLt
  have h := (sc_row m c ⟨t.val / 8, by omega⟩ p 7 (by norm_num)).1
  have e : t.val / 8 * 8 + 7 + 1 = t.val + 1 := by omega
  dsimp only at h
  rw [e] at h
  have h1 := congrArg Prod.fst h
  have h2 := congrArg Prod.snd h
  dsimp only at h1 h2
  rw [Pay.pay13_apply, h1, h2]
  rfl

/-- After the last column block of a row block, the carried third column is the row's similarity with its partner. -/
theorem pos_row (c : Dev nD) (t : Fin cfg0.N) (h7 : t.val % 8 = 7) (p : Fin 1024) :
    (sc m c (t.val + 1)).2.2 (ix2 p (0 : Fin 1))
      = scK (znA m c) ⟨t.val / 8 * 1024 + p.val, by have : t.val < 64 := t.isLt; have := p.isLt; omega⟩
          (Cert.ReferenceIdeal.RefValue.partner ⟨t.val / 8 * 1024 + p.val, by have : t.val < 64 := t.isLt; have := p.isLt; omega⟩) := by
  have htN : t.val < 64 := t.isLt
  have h := (sc_row m c ⟨t.val / 8, by omega⟩ p 7 (by norm_num)).2
  have e : t.val / 8 * 8 + 7 + 1 = t.val + 1 := by omega
  dsimp only at h
  rw [e, if_pos (by omega)] at h
  exact h

/-! ## What a flushing point writes back -/

/-- WHAT POINT t WRITES BACK to the first result array (a last column block): block t of the rows' log-sum-exp. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after2]
  have h7 : t.val % 8 = 7 := (flush0_2 t).mp hf
  obtain ⟨-, -, -, -, e4, -, -, -⟩ := idxf t
  funext j
  have hj0 : (j 0).val < 1024 := (j 0).isLt
  have hj1 : (j 1).val < 1 := (j 1).isLt
  have hidx : (cfg0.win 2).xinj (grid0.coords t) j = ix2 (⟨(j 0).val, hj0⟩ : Fin 1024) (0 : Fin 1) :=
    funext fun a => Fin.ext (by
      match a with
      | ⟨0, _⟩ => rfl
      | ⟨1, _⟩ => show (j 1).val = 0; omega)
  show k0_pay13 (sc m c (t.val + 1)).1 (sc m c (t.val + 1)).2.1 ((cfg0.win 2).xinj (grid0.coords t) j)
    = G2 m c (((cfg0.win 2).blk t).view.emb j)
  rw [hidx, lse_row m c t h7]
  unfold G2
  refine congrArg (lseK (znA m c)) (Fin.ext ?_)
  show t.val / 8 * 1024 + (j 0).val = win0_2.index t (0 : Fin 2) * 1024 + 1 * (j 0).val
  rw [e4]; omega

/-- WHAT POINT t WRITES BACK to the second result array: block t of the rows' partner similarities. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after3]
  have h7 : t.val % 8 = 7 := (flush0_3 t).mp hf
  obtain ⟨-, -, -, -, -, -, e6, -⟩ := idxf t
  funext j
  have hj0 : (j 0).val < 1024 := (j 0).isLt
  have hj1 : (j 1).val < 1 := (j 1).isLt
  have hidx : (cfg0.win 3).xinj (grid0.coords t) j = ix2 (⟨(j 0).val, hj0⟩ : Fin 1024) (0 : Fin 1) :=
    funext fun a => Fin.ext (by
      match a with
      | ⟨0, _⟩ => rfl
      | ⟨1, _⟩ => show (j 1).val = 0; omega)
  show (sc m c (t.val + 1)).2.2 ((cfg0.win 3).xinj (grid0.coords t) j) = G3 m c (((cfg0.win 3).blk t).view.emb j)
  rw [hidx, pos_row m c t h7]
  unfold G3
  have er : (⟨t.val / 8 * 1024 + (j 0).val, by have : t.val < 64 := t.isLt; omega⟩ : Fin 8192)
      = ⟨((((cfg0.win 3).blk t).view.emb j) 0).val, idx2_lt0 _⟩ := Fin.ext (by
    show t.val / 8 * 1024 + (j 0).val = win0_3.index t (0 : Fin 2) * 1024 + 1 * (j 0).val
    rw [e6]; omega)
  rw [er]

/-! ## The blocks tile the arrays -/

/-- An index of the first result array is in point t's block iff each coordinate is in the block's range on its axis. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v6_0).slice (win0_2.rect t)).set ↔ _
  rw [View.set_slice_whole, Rect.mem_set_unit]
  exact Iff.rfl

/-- The same for the second result array. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v6_1).slice (win0_3.rect t)).set ↔ _
  rw [View.set_slice_whole, Rect.mem_set_unit]
  exact Iff.rfl

/-- Row r of the first result array is written back by the last column block of r's row block. -/
theorem cover2 (i : S8192x1.Idx) : ∃ t : Fin cfg0.N, (cfg0.win 2).flush t = true ∧ i ∈ ((cfg0.win 2).blk t).view.set := by
  have hi0 : (i 0).val < 8192 := idx2_lt0 i
  have hi1 : (i 1).val < 1 := idx2_lt1 i
  have hN : (i 0).val / 1024 * 8 + 7 < cfg0.N := by show _ < 64; omega
  refine ⟨⟨(i 0).val / 1024 * 8 + 7, hN⟩, (flush0_2 _).mpr (by show ((i 0).val / 1024 * 8 + 7) % 8 = 7; omega), ?_⟩
  obtain ⟨-, -, -, -, e4, e5, -, -⟩ := idxf ⟨(i 0).val / 1024 * 8 + 7, hN⟩
  have e4' : win0_2.index ⟨(i 0).val / 1024 * 8 + 7, hN⟩ (0 : Fin 2) = ((i 0).val / 1024 * 8 + 7) / 8 := e4
  rw [mem_blk2]
  intro a
  match a with
  | ⟨0, _⟩ =>
    show win0_2.index ⟨(i 0).val / 1024 * 8 + 7, hN⟩ (0 : Fin 2) * 1024 ≤ (i 0).val
      ∧ (i 0).val < win0_2.index ⟨(i 0).val / 1024 * 8 + 7, hN⟩ (0 : Fin 2) * 1024 + 1024
    rw [e4']; omega
  | ⟨1, _⟩ =>
    show win0_2.index ⟨(i 0).val / 1024 * 8 + 7, hN⟩ (1 : Fin 2) * 1 ≤ (i 1).val
      ∧ (i 1).val < win0_2.index ⟨(i 0).val / 1024 * 8 + 7, hN⟩ (1 : Fin 2) * 1 + 1
    rw [e5]; omega

/-- Row r of the second result array likewise. -/
theorem cover3 (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : (i 0).val / 1024 * 8 + 7 < cfg0.N := by show _ < 64; omega
  refine ⟨⟨(i 0).val / 1024 * 8 + 7, hN⟩, (flush0_3 _).mpr (by show ((i 0).val / 1024 * 8 + 7) % 8 = 7; omega), ?_⟩
  obtain ⟨-, -, -, -, -, -, e6, e7⟩ := idxf ⟨(i 0).val / 1024 * 8 + 7, hN⟩
  have e6' : win0_3.index ⟨(i 0).val / 1024 * 8 + 7, hN⟩ (0 : Fin 2) = ((i 0).val / 1024 * 8 + 7) / 8 := e6
  rw [mem_blk3]
  intro a
  match a with
  | ⟨0, _⟩ =>
    show win0_3.index ⟨(i 0).val / 1024 * 8 + 7, hN⟩ (0 : Fin 2) * 1024 ≤ (i 0).val
      ∧ (i 0).val < win0_3.index ⟨(i 0).val / 1024 * 8 + 7, hN⟩ (0 : Fin 2) * 1024 + 1024
    rw [e6']; omega
  | ⟨1, _⟩ =>
    show win0_3.index ⟨(i 0).val / 1024 * 8 + 7, hN⟩ (1 : Fin 2) * 1 ≤ (i 1).val
      ∧ (i 1).val < win0_3.index ⟨(i 0).val / 1024 * 8 + 7, hN⟩ (1 : Fin 2) * 1 + 1
    rw [e7]; omega

/-! ## The arrays after the run -/

/-- THE FIRST RESULT ARRAY after the run: every row's log-sum-exp. -/
theorem final2 (c : Dev nD) : (dats m 0 c).arrAt 2 cfg0.N = G2 m c :=
  (dats m 0 c).arrAt_eq_of_cover 2 (G2 m c) (fun t hf => flushed2_eq m c t hf) cover2

/-- THE SECOND RESULT ARRAY after the run: every row's scaled similarity with its partner. -/
theorem final3 (c : Dev nD) : (dats m 0 c).arrAt 3 cfg0.N = G3 m c :=
  (dats m 0 c).arrAt_eq_of_cover 3 (G3 m c) (fun t hf => flushed3_eq m c t hf) cover3

end Cert.KernelIdeal.Hand

end
-- ==== Proof.KFinal.lean ====
import proofs.«103424_j20255065768459_2_alg».proof.Proof.KRun
import proofs.«103424_j20255065768459_2_alg».proof.Proof.KArr

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Bridge

variable (m : (ℓ : Loc nD τ sig) → Buf (Elt Ideal) ℓ)

/-- THE KERNEL'S RESULT: the lines after the region average, over the 8192 rows, the row's log-sum-exp less the
    partner's scaled similarity — the two result arrays as the last column block's write-backs left them. -/
theorem kres_closed (c : Dev nD) : kres m c = fun _ => kernelLoss (znA m c) := by
  unfold kres
  rw [HostRead.after_region (Vx m c) _ _ (Vx_v60 m c) (Vx_v61 m c), final2, final3]
  rfl

end Cert.KernelIdeal.Hand

end
-- ==== Proof.RefStages.lean ====
import proofs.«103424_j20255065768459_2_alg».proof.Proof.RefReadP

/-!
# The reference's operations, evaluated in stretches

The reference is a straight line of 72 array operations.  Folding all of them at once and comparing
with the composed stages in one step is too large, so the line is cut into five consecutive
stretches.  For each stretch, over an arbitrary entry valuation that holds the named stage values
the stretch reads, the buffer the stretch ends at holds the corresponding stage value.  Chaining the
five gives: after all operations the result buffer holds the last stage of the argument.
-/

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 0–9: the row normalization, ending at `main_v4`. -/
abbrev P1 : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x322BCC77#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)) ]

/-- Operations 10–24: the similarity matrix, its diagonal masked, over the temperature, ending at `main_v14`. -/
abbrev P2 : List (HloOp τ sig (Elt F)) :=
  [ unary main_v4 main_v5 ((transpose S256x8192 [1, 0] · transposes_S8192x256_S256x8192_1_0) : (⟨S8192x256, .f32⟩ : BufTy).Contents (Elt F) → (⟨S256x8192, .f32⟩ : BufTy).Contents (Elt F)),
    binary main_v4 main_v5 main_v6 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_v7 (iotaInDim S8192x8192 32 0),
    nullary main_v8 (iotaInDim S8192x8192 32 1),
    nullary main_c (constantI S_ 32 0#32),
    unary main_c main_v9 (broadcastInDim S8192x8192 ![] bcast_S_S8192x8192 : (⟨S_, .i32⟩ : BufTy).Contents (Elt F) → (⟨S8192x8192, .i32⟩ : BufTy).Contents (Elt F)),
    binary main_v7 main_v9 main_v10 (addi : (⟨S8192x8192, .i32⟩ : BufTy).Contents (Elt F) → (⟨S8192x8192, .i32⟩ : BufTy).Contents (Elt F) → (⟨S8192x8192, .i32⟩ : BufTy).Contents (Elt F)),
    binary main_v10 main_v8 main_v11 (cmpi .eq : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xFF800000#32),
    TRef.unary (TRef.of (T := ⟨S_, .f32⟩) main_cst_0) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v11) (TRef.of (T := ⟨S8192x8192, .f32⟩) main_call1_v1) (TRef.of (T := ⟨S8192x8192, .f32⟩) main_v6) (TRef.of (T := ⟨S8192x8192, .f32⟩) main_v12) select,
    nullary main_cst_1 (constant S_ .f32 0x3F000000#32),
    unary main_cst_1 main_v13 (broadcastInDim S8192x8192 ![] bcast_S_S8192x8192 : (⟨S_, .f32⟩ : BufTy).Contents (Elt F) → (⟨S8192x8192, .f32⟩ : BufTy).Contents (Elt F)),
    binary main_v12 main_v13 main_v14 (Host.divf : (⟨S8192x8192, .f32⟩ : BufTy).Contents (Elt F) → (⟨S8192x8192, .f32⟩ : BufTy).Contents (Elt F) → (⟨S8192x8192, .f32⟩ : BufTy).Contents (Elt F)) ]

/-- Operations 25–43: the partner column `main_v17` and the row-wise log-softmax `main_v18`. -/
abbrev P3 : List (HloOp τ sig (Elt F)) :=
  [ nullary main_v15 (iotaInDim S8192 32 0),
    nullary main_c_2 (constantI S_ 32 1#32),
    unary main_c_2 main_v16 (broadcastInDim S8192 ![] bcast_S_S8192 : (⟨S_, .i32⟩ : BufTy).Contents (Elt F) → (⟨S8192, .i32⟩ : BufTy).Contents (Elt F)),
    binary main_v15 main_v16 main_v17 (xori : (⟨S8192, .i32⟩ : BufTy).Contents (Elt F) → (⟨S8192, .i32⟩ : BufTy).Contents (Elt F) → (⟨S8192, .i32⟩ : BufTy).Contents (Elt F)),
    TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v18) subf ]

/-- Operations 44–66: the gather of each row's partner entry, ending at `main_v20`. -/
abbrev P4 : List (HloOp τ sig (Elt F)) :=
  [ unary main_v17 main_v19 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v19) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v19) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v19) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_),
    TRef.binary (TRef.of (T := ⟨S8192x8192, .f32⟩) main_v18) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v20) select ]

/-- Operations 67–71: the mean and the sign, ending at `main_v23`. -/
abbrev P5 : List (HloOp τ sig (Elt F)) :=
  [ nullary main_cst_3 (constant S_ .f32 0x00000000#32),
    binary main_v20 main_cst_3 main_v21 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    nullary main_cst_4 (constant S_ .f32 0x46000000#32),
    binary main_v21 main_cst_4 main_v22 (Host.divf : (⟨S_, .f32⟩ : BufTy).Contents (Elt F) → (⟨S_, .f32⟩ : BufTy).Contents (Elt F) → (⟨S_, .f32⟩ : BufTy).Contents (Elt F)),
    unary main_v22 main_v23 (Host.negf : (⟨S_, .f32⟩ : BufTy).Contents (Elt F) → (⟨S_, .f32⟩ : BufTy).Contents (Elt F)) ]

/-- The whole line is the five stretches in a row. -/
theorem ops_eq : (ValueP.ops : List (HloOp τ sig (Elt F))) = P1 ++ P2 ++ P3 ++ P4 ++ P5 := rfl

/-- A value moved along a type equation and back is the value: what the typed references' buffer
    transports (`toBuf` then `ofBuf`) amount to, with no need to evaluate the types. -/
theorem cast_cast_symm {α β : Sort _} (h : α = β) (h' : β = α) (a : α) : cast h' (cast h a) = a := by
  subst h; rfl

/-- Stretch 1: from any valuation, `main_v4` ends at the row-normalized argument. -/
theorem stretch1 (W : Valuation τ sig (Elt F)) :
    after P1 W (Proc.devRef .tc main_v4) = ReadP.val_main_v4 (F := F) (W (Proc.devRef .tc main_arg0)) := by
  after_results_simp
  try simp only [cast_cast_symm]
  rfl

/-- Stretch 2: if `main_v4` holds the row-normalized argument, `main_v14` ends at the scaled, masked
    similarity matrix. -/
theorem stretch2 (W : Valuation τ sig (Elt F)) (x0 : (⟨S8192x256, .f32⟩ : BufTy).Contents (Elt F))
    (h4 : W (Proc.devRef .tc main_v4) = ReadP.val_main_v4 (F := F) x0) :
    after P2 W (Proc.devRef .tc main_v14) = ReadP.val_main_v14 (F := F) x0 := by
  after_results_simp
  try simp only [cast_cast_symm]
  rw [h4]
  rfl

/-- Stretch 3, the partner column: `main_v17` ends at the row index with its lowest bit flipped. -/
theorem stretch3a (W : Valuation τ sig (Elt F)) :
    after P3 W (Proc.devRef .tc main_v17) = ReadP.val_main_v17 (F := F) := by
  after_results_simp
  try simp only [cast_cast_symm]
  rfl

/-- Stretch 3, the log-softmax: if `main_v14` holds the scaled similarity matrix, `main_v18` ends at its
    row-wise log-softmax. -/
theorem stretch3b (W : Valuation τ sig (Elt F)) (x0 : (⟨S8192x256, .f32⟩ : BufTy).Contents (Elt F))
    (h14 : W (Proc.devRef .tc main_v14) = ReadP.val_main_v14 (F := F) x0) :
    after P3 W (Proc.devRef .tc main_v18) = ReadP.val_main_v18 (F := F) x0 := by
  after_results_simp
  try simp only [cast_cast_symm]
  rw [h14]
  rfl

/-- Stretch 4: if `main_v17` holds the partner column and `main_v18` the log-softmax, `main_v20` ends at
    each row's partner entry. -/
theorem stretch4 (W : Valuation τ sig (Elt F)) (x0 : (⟨S8192x256, .f32⟩ : BufTy).Contents (Elt F))
    (h17 : W (Proc.devRef .tc main_v17) = ReadP.val_main_v17 (F := F))
    (h18 : W (Proc.devRef .tc main_v18) = ReadP.val_main_v18 (F := F) x0) :
    after P4 W (Proc.devRef .tc main_v20) = ReadP.val_main_v20 (F := F) x0 := by
  after_results_simp
  try simp only [cast_cast_symm]
  rw [h17, h18]
  rfl

/-- Stretch 5: if `main_v20` holds the partner entries, `main_v23` ends at minus their mean. -/
theorem stretch5 (W : Valuation τ sig (Elt F)) (x0 : (⟨S8192x256, .f32⟩ : BufTy).Contents (Elt F))
    (h20 : W (Proc.devRef .tc main_v20) = ReadP.val_main_v20 (F := F) x0) :
    after P5 W (Proc.devRef .tc main_v23) = ReadP.val_main_v23 (F := F) x0 := by
  after_results_simp
  try simp only [cast_cast_symm]
  rw [h20]
  rfl

/-- **The bridge.**  After all 72 operations, from any valuation, the result buffer holds the last
    stage of the argument buffer's contents. -/
theorem after_ops_eq (V : Valuation τ sig (Elt F)) :
    after ValueP.ops V (Proc.devRef .tc main_v23)
      = ReadP.val_main_v23 (F := F) (V (Proc.devRef .tc main_arg0)) := by
  rw [ops_eq, after_append, after_append, after_append, after_append]
  exact stretch5 _ _ (stretch4 _ _ (stretch3a _) (stretch3b _ _ (stretch2 _ _ (stretch1 V))))

/-- The run, with the result named: on every device every weakly fair execution of the reference
    terminates with the result buffer at the last stage of the argument and the argument unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = ReadP.val_main_v23 (F := F) (m ((c.tc : Thread nD τ).loc main_arg0))
      ∧ r.2.mem ((c.tc : Thread nD τ).loc main_arg0) = m ((c.tc : Thread nD τ).loc main_arg0) :=
  (θ_run defs _ _).mono
    (fun _ h c => ⟨(h c).1.trans (after_ops_eq (launchContents m c)), (h c).2⟩)
    (ValueP.run m ρ)

end Cert.ReferenceIdeal.Stages

end
-- ==== Proof.lean ====
/- The proof of `Cert.Claim`: an NT-Xent (SimCLR) loss over 8192 rows of 256 reals.

   Both programs normalize the rows (the same ten host operations). The kernel then walks an 8 × 8 grid of
   1024 × 1024 blocks of the doubled row similarities; per row it carries a running maximum and a running sum of
   exponentials (reset at the first column block, the diagonal entry masked to −∞ on the diagonal block) and the
   partner row's similarity, writes `max + log sum` and the partner's similarity back at the last column block, and
   the lines after the region average their difference. The reference masks the diagonal of the whole similarity
   matrix, divides by 1/2, takes log-softmax in one pass and averages minus the partner's entry.

   On finite inputs every normalized entry is a real, the online recurrence over the eight blocks is the one-pass
   maximum and sum (exp a · exp b = exp (a + b); exp (−∞) = 0), x · 2 = x / (1/2), and
   (M + log L) − n = −((n − M) − log L): the two results are one extended real.

   The three frames: the reference's from its run; the kernel's (at both instances) by running the body on whole
   buffers in each case of its four conditions, one region entered between two stretches of host operations, the
   normalized array — read through two windows — split in two halves at the region's entry and joined at its exit. -/
import proofs.«103424_j20255065768459_2_alg».proof.Defs
import proofs.«103424_j20255065768459_2_alg».proof.Proof.Gen.Kernel
import proofs.«103424_j20255065768459_2_alg».proof.Proof.Gen.KernelIdeal
import proofs.«103424_j20255065768459_2_alg».proof.Proof.Gen.ReferenceIdeal
import proofs.«103424_j20255065768459_2_alg».proof.Proof.Gen.Pre_finite_inputs
import proofs.«103424_j20255065768459_2_alg».proof.Proof.BRun
import proofs.«103424_j20255065768459_2_alg».proof.Proof.KFinal
import proofs.«103424_j20255065768459_2_alg».proof.Proof.RefStages
import proofs.«103424_j20255065768459_2_alg».proof.Proof.RefClosed
import proofs.«103424_j20255065768459_2_alg».proof.Proof.KHostRef
import Idealize.ShloMosaic.PureOps.IdealRules
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Stages.run_val (F := Ideal) m ρ)

/-- The one rewrite of the ideal pass: the kernel's finite stand-in for −∞ is named, and the name denotes −∞. -/
theorem preserves : Cert.preserves_Kernel_KernelIdeal :=
  IdealRules.named_const.statement Cert.KernelIdeal.κ "neg_big" .f32 0xFF333332#32 ⊥ rfl

/-- Both idealized programs end with the same extended real: the kernel's average of log-sum-exp less partner
    similarity, the reference's minus average of the partner's log-softmax, equal on real rows. -/
theorem algebraic : Cert.algebraic_KernelIdeal_ReferenceIdeal := by
  intro m ρ m' ρ' hpre hagree
  refine ⟨fun c => fun _ => Cert.Bridge.kernelLoss (Cert.KernelIdeal.Hand.znA m c), ?_, ?_⟩
  · exact (θ_run Cert.KernelIdeal.defs _ _).mono
      (fun _ h c => ⟨(h c).1.trans (Cert.KernelIdeal.Hand.kres_closed m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Stages.run_val (F := Ideal) m' ρ')
    rw [hagree c, Cert.ReferenceIdeal.RefValue.val_main_v23_closed, ← Cert.KernelIdeal.HostRead.znK_eq_ref]
    funext _
    exact (Cert.Bridge.bridge _ (Cert.KernelIdeal.Finite.znK_real_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
